-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S1x256x1x1 : Shape := ⟨4, ![1, 256, 1, 1]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S1x256x1x1 : S_.BroadcastsInDim S1x256x1x1 (![] : Fin 0 → Fin S1x256x1x1.rank)
  reducesTo_S1x256x1x1_S_d0_1_2_3 : S1x256x1x1.ReducesTo [0, 1, 2, 3] S_

variable [Facts]

def fn {F : FTy → Type} [FloatOps F] (main_arg0 : FVec F S64x256x56x56 .f32) (main_arg1 : FVec F S1x256x1x1 .f32) (main_arg2 : FVec F S1x256x1x1 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S1x256x1x1 .f32 := Host.absf main_arg1
  let main_cst_0 : FVec F S_ .f32 := constant S_ .f32 0x7F800000#32
  let main_v5 : FVec F S1x256x1x1 .f32 := broadcastInDim S1x256x1x1 ![] bcast_S_S1x256x1x1 main_cst_0
  let main_v6 : IVec S1x256x1x1 1 := cmpf .olt main_v4 main_v5
  let main_c_1 : IVec S_ 1 := constantI S_ 1 1#1
  let main_v7 : IVec S_ 1 := (fun x v => Host.reduce IntOp.andi x v reducesTo_S1x256x1x1_S_d0_1_2_3 h_S_) main_v6 main_c_1
  let main_v8 : IVec S_ 1 := andi main_v3 main_v7
  let main_v9 : FVec F S1x256x1x1 .f32 := Host.absf main_arg2
  let main_cst_2 : FVec F S_ .f32 := constant S_ .f32 0x7F800000#32
  let main_v10 : FVec F S1x256x1x1 .f32 := broadcastInDim S1x256x1x1 ![] bcast_S_S1x256x1x1 main_cst_2
  let main_v11 : IVec S1x256x1x1 1 := cmpf .olt main_v9 main_v10
  let main_c_3 : IVec S_ 1 := constantI S_ 1 1#1
  let main_v12 : IVec S_ 1 := (fun x v => Host.reduce IntOp.andi x v reducesTo_S1x256x1x1_S_d0_1_2_3 h_S_) main_v11 main_c_3
  let main_v13 : IVec S_ 1 := andi main_v8 main_v12
  main_v13
-- ==== Kernel.lean ====
abbrev S64x256x56x56 : Shape := ⟨4, ![64, 256, 56, 56]⟩
abbrev S1x256x1x1 : Shape := ⟨4, ![1, 256, 1, 1]⟩
abbrev S64x256x3136 : Shape := ⟨3, ![64, 256, 3136]⟩
abbrev S32x1 : Shape := ⟨2, ![32, 1]⟩
abbrev S32x32 : Shape := ⟨2, ![32, 32]⟩
abbrev S16x32x3136 : Shape := ⟨3, ![16, 32, 3136]⟩
abbrev S32x3136 : Shape := ⟨2, ![32, 3136]⟩
abbrev S32 : Shape := ⟨1, ![32]⟩
abbrev S16x32x32 : Shape := ⟨3, ![16, 32, 32]⟩
abbrev S_ : Shape := ⟨0, ![]⟩
abbrev S1x32 : Shape := ⟨2, ![1, 32]⟩
abbrev S256 : Shape := ⟨1, ![256]⟩
abbrev S8x32x1 : Shape := ⟨3, ![8, 32, 1]⟩
abbrev S8x32x3136 : Shape := ⟨3, ![8, 32, 3136]⟩
abbrev S1x32x1 : Shape := ⟨3, ![1, 32, 1]⟩
abbrev S1x32x3136 : Shape := ⟨3, ![1, 32, 3136]⟩

abbrev nBuf : Space → Nat
  | .hbm => 107
  | .vmem => 14
  | .smem => 0
  | _ => 0

abbrev bufTy : (tb : Table) → Fin (tcTables nBuf tb) → BufTy
  | .hbm, ⟨0, _⟩ => ⟨S64x256x56x56, .f32⟩
  | .hbm, ⟨1, _⟩ => ⟨S1x256x1x1, .f32⟩
  | .hbm, ⟨2, _⟩ => ⟨S1x256x1x1, .f32⟩
  | .hbm, ⟨3, _⟩ => ⟨S64x256x3136, .f32⟩
  | .hbm, ⟨4, _⟩ => ⟨S32x1, .f32⟩
  | .hbm, ⟨5, _⟩ => ⟨S32x32, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x32, .f32⟩
  | .hbm, ⟨11, _⟩ => ⟨S32x32, .f32⟩
  | .hbm, ⟨12, _⟩ => ⟨S1x32, .f32⟩
  | .hbm, ⟨13, _⟩ => ⟨S32x32, .f32⟩
  | .hbm, ⟨14, _⟩ => ⟨S32x32, .f32⟩
  | .hbm, ⟨15, _⟩ => ⟨S32x32, .i32⟩
  | .hbm, ⟨16, _⟩ => ⟨S32x32, .i32⟩
  | .hbm, ⟨17, _⟩ => ⟨S_, .i32⟩
  | .hbm, ⟨18, _⟩ => ⟨S32x32, .i32⟩
  | .hbm, ⟨19, _⟩ => ⟨S32x32, .i32⟩
  | .hbm, ⟨20, _⟩ => ⟨S32x32, .i1⟩
  | .hbm, ⟨21, _⟩ => ⟨S32x32, .f32⟩
  | .hbm, ⟨22, _⟩ => ⟨S_, .f32⟩
  | .hbm, ⟨23, _⟩ => ⟨S32x32, .f32⟩
  | .hbm, ⟨24, _⟩ => ⟨S32x32, .f32⟩
  | .hbm, ⟨25, _⟩ => ⟨S32x32, .f32⟩
  | .hbm, ⟨26, _⟩ => ⟨S32x32, .i32⟩
  | .hbm, ⟨27, _⟩ => ⟨S32x32, .i32⟩
  | .hbm, ⟨28, _⟩ => ⟨S_, .i32⟩
  | .hbm, ⟨29, _⟩ => ⟨S32x32, .i32⟩
  | .hbm, ⟨30, _⟩ => ⟨S32x32, .i32⟩
  | .hbm, ⟨31, _⟩ => ⟨S32x32, .i1⟩
  | .hbm, ⟨32, _⟩ => ⟨S_, .f32⟩
  | .hbm, ⟨33, _⟩ => ⟨S32x32, .f32⟩
  | .hbm, ⟨34, _⟩ => ⟨S32x32, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S32x32, .f32⟩
  | .hbm, ⟨40, _⟩ => ⟨S32x32, .f32⟩
  | .hbm, ⟨41, _⟩ => ⟨S32x32, .i32⟩
  | .hbm, ⟨42, _⟩ => ⟨S32x32, .i32⟩
  | .hbm, ⟨43, _⟩ => ⟨S_, .i32⟩
  | .hbm, ⟨44, _⟩ => ⟨S32x32, .i32⟩
  | .hbm, ⟨45, _⟩ => ⟨S32x32, .i32⟩
  | .hbm, ⟨46, _⟩ => ⟨S32x32, .i1⟩
  | .hbm, ⟨47, _⟩ => ⟨S32x32, .f32⟩
  | .hbm, ⟨48, _⟩ => ⟨S_, .f32⟩
  | .hbm, ⟨49, _⟩ => ⟨S32x32, .f32⟩
  | .hbm, ⟨50, _⟩ => ⟨S32x32, .f32⟩
  | .hbm, ⟨51, _⟩ => ⟨S32x32, .f32⟩
  | .hbm, ⟨52, _⟩ => ⟨S32x32, .f32⟩
  | .hbm, ⟨53, _⟩ => ⟨S_, .f32⟩
  | .hbm, ⟨54, _⟩ => ⟨S32x32, .f32⟩
  | .hbm, ⟨55, _⟩ => ⟨S32x32, .f32⟩
  | .hbm, ⟨56, _⟩ => ⟨S32x32, .f32⟩
  | .hbm, ⟨57, _⟩ => ⟨S32x32, .f32⟩
  | .hbm, ⟨58, _⟩ => ⟨S_, .f32⟩
  | .hbm, ⟨59, _⟩ => ⟨S32x32, .f32⟩
  | .hbm, ⟨60, _⟩ => ⟨S32x32, .f32⟩
  | .hbm, ⟨61, _⟩ => ⟨S32x32, .f32⟩
  | .hbm, ⟨62, _⟩ => ⟨S32x32, .f32⟩
  | .hbm, ⟨63, _⟩ => ⟨S_, .f32⟩
  | .hbm, ⟨64, _⟩ => ⟨S32x32, .f32⟩
  | .hbm, ⟨65, _⟩ => ⟨S32x32, .f32⟩
  | .hbm, ⟨66, _⟩ => ⟨S32x32, .f32⟩
  | .hbm, ⟨67, _⟩ => ⟨S32x32, .f32⟩
  | .hbm, ⟨68, _⟩ => ⟨S_, .f32⟩
  | .hbm, ⟨69, _⟩ => ⟨S32x32, .f32⟩
  | .hbm, ⟨70, _⟩ => ⟨S32x32, .f32⟩
  | .hbm, ⟨71, _⟩ => ⟨S32x32, .f32⟩
  | .hbm, ⟨72, _⟩ => ⟨S32x32, .f32⟩
  | .hbm, ⟨73, _⟩ => ⟨S_, .f32⟩
  | .hbm, ⟨74, _⟩ => ⟨S32x32, .f32⟩
  | .hbm, ⟨75, _⟩ => ⟨S32x32, .f32⟩
  | .hbm, ⟨76, _⟩ => ⟨S32x32, .f32⟩
  | .hbm, ⟨77, _⟩ => ⟨S32x32, .f32⟩
  | .hbm, ⟨78, _⟩ => ⟨S_, .f32⟩
  | .hbm, ⟨79, _⟩ => ⟨S32x32, .f32⟩
  | .hbm, ⟨80, _⟩ => ⟨S32x32, .f32⟩
  | .hbm, ⟨81, _⟩ => ⟨S32x32, .f32⟩
  | .hbm, ⟨82, _⟩ => ⟨S32x32, .f32⟩
  | .hbm, ⟨83, _⟩ => ⟨S_, .f32⟩
  | .hbm, ⟨84, _⟩ => ⟨S32x32, .f32⟩
  | .hbm, ⟨85, _⟩ => ⟨S32x32, .f32⟩
  | .hbm, ⟨86, _⟩ => ⟨S32x32, .f32⟩
  | .hbm, ⟨87, _⟩ => ⟨S32x32, .f32⟩
  | .hbm, ⟨88, _⟩ => ⟨S_, .f32⟩
  | .hbm, ⟨89, _⟩ => ⟨S32x32, .f32⟩
  | .hbm, ⟨90, _⟩ => ⟨S32x32, .f32⟩
  | .hbm, ⟨91, _⟩ => ⟨S32x32, .f32⟩
  | .hbm, ⟨92, _⟩ => ⟨S32x32, .f32⟩
  | .hbm, ⟨93, _⟩ => ⟨S_, .f32⟩
  | .hbm, ⟨94, _⟩ => ⟨S32x32, .f32⟩
  | .hbm, ⟨95, _⟩ => ⟨S32x32, .f32⟩
  | .hbm, ⟨96, _⟩ => ⟨S32x32, .f32⟩
  | .hbm, ⟨97, _⟩ => ⟨S32x32, .f32⟩
  | .hbm, ⟨98, _⟩ => ⟨S_, .f32⟩
  | .hbm, ⟨99, _⟩ => ⟨S32x32, .f32⟩
  | .hbm, ⟨100, _⟩ => ⟨S32x32, .f32⟩
  | .hbm, ⟨101, _⟩ => ⟨S256, .f32⟩
  | .hbm, ⟨102, _⟩ => ⟨S256, .f32⟩
  | .hbm, ⟨103, _⟩ => ⟨S8x32x1, .f32⟩
  | .hbm, ⟨104, _⟩ => ⟨S8x32x1, .f32⟩
  | .hbm, ⟨105, _⟩ => ⟨S64x256x3136, .f32⟩
  | .hbm, ⟨106, _⟩ => ⟨S64x256x56x56, .f32⟩
  | .local _ .vmem, ⟨0, _⟩ => ⟨S16x32x3136, .f32⟩
  | .local _ .vmem, ⟨1, _⟩ => ⟨S16x32x3136, .f32⟩
  | .local _ .vmem, ⟨2, _⟩ => ⟨S32x1, .f32⟩
  | .local _ .vmem, ⟨3, _⟩ => ⟨S32x32, .f32⟩
  | .local _ .vmem, ⟨4, _⟩ => ⟨S8x32x3136, .f32⟩
  | .local _ .vmem, ⟨5, _⟩ => ⟨S8x32x3136, .f32⟩
  | .local _ .vmem, ⟨6, _⟩ => ⟨S32x1, .f32⟩
  | .local _ .vmem, ⟨7, _⟩ => ⟨S32x32, .f32⟩
  | .local _ .vmem, ⟨8, _⟩ => ⟨S1x32x1, .f32⟩
  | .local _ .vmem, ⟨9, _⟩ => ⟨S1x32x1, .f32⟩
  | .local _ .vmem, ⟨10, _⟩ => ⟨S1x32x1, .f32⟩
  | .local _ .vmem, ⟨11, _⟩ => ⟨S1x32x1, .f32⟩
  | .local _ .vmem, ⟨12, _⟩ => ⟨S8x32x3136, .f32⟩
  | .local _ .vmem, ⟨13, _⟩ => ⟨S8x32x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_c : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_cst : Ref sig .tc := ⟨.hbm, 32, rfl⟩
abbrev main_call0_v5 : Ref sig .tc := ⟨.hbm, 33, rfl⟩
abbrev main_call0_v6 : Ref sig .tc := ⟨.hbm, 34, rfl⟩
abbrev main_call0_cst_0 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x32x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![8, 8], ![false, false]⟩

@[reducible] def k1_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k1_off1 (k1_t1 : Fin k1_t1_loop.trips) : Fin 3 → Nat :=
  let c0_i32 : BitVec 32 := 0#32
  let c1_i32 : BitVec 32 := 1#32
  let arg8 : BitVec 32 := Scf.iv c0_i32 c1_i32 k1_t1
  let v9 : Index := Scalar.indexCast arg8
  let c0_10 : Index := 0#32
  let c0_11 : Index := 0#32
  ![v9.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x32x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x32x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x32x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S8x32x3136 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S64x256x56x56_S64x256x3136 : S64x256x56x56.ShapeCasts S64x256x3136
  inb_S32x1_S32x1_0_0 : ∀ a, (![0, 0] : Fin 2 → Nat) a + S32x1.size a ≤ S32x1.size a
  h_S32x1 : 0 < S32x1.numel
  inb_S32x32_S32x32_0_0 : ∀ a, (![0, 0] : Fin 2 → Nat) a + S32x32.size a ≤ S32x32.size a
  h_S32x32 : 0 < S32x32.numel
  inb_S16x32x3136_S16x32x3136_0_0_0 : ∀ a, (![0, 0, 0] : Fin 3 → Nat) a + S16x32x3136.size a ≤ S16x32x3136.size a
  h_S16x32x3136 : 0 < S16x32x3136.numel
  shapeCasts_S16x32x3136_S16x32x3136 : S16x32x3136.ShapeCasts S16x32x3136
  reduces_S16x32x3136_S32x3136 : S16x32x3136.Reduces [0] S32x3136
  shapeCasts_S32x1_S32x1 : S32x1.ShapeCasts S32x1
  reduces_S32x3136_S32 : S32x3136.Reduces [1] S32
  shapeCasts_S32_S32x1 : S32.ShapeCasts S32x1
  shapeCasts_S32x32_S32x32 : S32x32.ShapeCasts S32x32
  reduces_S16x32x32_S32x32 : S16x32x32.Reduces [0] S32x32
  bcast_S_S32x1 : S_.BroadcastsInDim S32x1 (![] : Fin 0 → Fin S32x1.rank)
  bcast_S_S32x32 : S_.BroadcastsInDim S32x32 (![] : Fin 0 → Fin S32x32.rank)
  transposes_S32x1_S1x32_1_0 : S32x1.Transposes [1, 0] S1x32
  reducesTo_S32x32_S_d0_1 : S32x32.ReducesTo [0, 1] S_
  h_S_ : 0 < S_.numel
  shapeCasts_S1x256x1x1_S256 : S1x256x1x1.ShapeCasts S256
  shapeCasts_S256_S8x32x1 : S256.ShapeCasts S8x32x1
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  h_S1x32x3136 : 0 < S1x32x3136.numel
  shapeCasts_S1x32x3136_S32x3136 : S1x32x3136.ShapeCasts S32x3136
  broadcasts_S32x1_S32x3136 : S32x1.Broadcasts S32x3136
  shapeCasts_S32x3136_S1x32x3136 : S32x3136.ShapeCasts S1x32x3136
  shapeCasts_S64x256x3136_S64x256x56x56 : S64x256x3136.ShapeCasts S64x256x56x56
  dot_S16x32x3136_S16x32x3136_S16x32x32_2_2_1_1_0_0_wf : DotDims.WF S16x32x3136 S16x32x3136 S16x32x32 [2] [2] [1] [1] [0] [0]
  dot_S32x1_S1x32_S32x32_1_0_0_1_n_n_wf : DotDims.WF S32x1 S1x32 S32x32 [1] [0] [0] [1] [] []
  dot_S32x32_S32x32_S32x32_1_0_0_1_n_n_wf : DotDims.WF S32x32 S32x32 S32x32 [1] [0] [0] [1] [] []
  dot_S32x32_S32x3136_S32x3136_1_0_0_1_n_n_wf : DotDims.WF S32x32 S32x3136 S32x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32x3136.size a ≤ S64x256x3136.size a
  hwx0_0 : ∀ i : grid0.Coords, EltTy.bits .f32 = 32 ∨ (Rect.block (s := S64x256x3136) S16x32x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .f32 = 32 ∨ (Rect.block (s := S32x1) S32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hrank1 : 0 < grid1.rank
  k1_t1_ok : k1_t1_loop.OK
  k1_off1_inb : ∀ k1_t1 : Fin k1_t1_loop.trips, ∀ a, (k1_off1 k1_t1) a + S1x32x3136.size a ≤ S8x32x3136.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x32x3136.size a ≤ S64x256x3136.size a
  hwx1_0 : ∀ i : grid1.Coords, EltTy.bits .f32 = 32 ∨ (Rect.block (s := S64x256x3136) S8x32x3136.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x1.size a ≤ S8x32x1.size a
  hwx1_3 : ∀ i : grid1.Coords, EltTy.bits .f32 = 32 ∨ (Rect.block (s := S8x32x1) S1x32x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x1.size a ≤ S8x32x1.size a
  hwx1_4 : ∀ i : grid1.Coords, EltTy.bits .f32 = 32 ∨ (Rect.block (s := S8x32x1) S1x32x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x32x3136.size a ≤ S64x256x3136.size a
  hwx1_5 : ∀ i : grid1.Coords, EltTy.bits .f32 = 32 ∨ (Rect.block (s := S64x256x3136) S8x32x3136.size (cc1_transform_5 i) (hinb1_5 i)).WholeWords (EltTy.packing .f32)

variable [Facts₀]

def dot_S16x32x3136_S16x32x3136_S16x32x32_2_2_1_1_0_0 : DotDims S16x32x3136 S16x32x3136 S16x32x32 where
  lhsContracting := [2]
  rhsContracting := [2]
  lhsNonContracting := [1]
  rhsNonContracting := [1]
  lhsBatch := [0]
  rhsBatch := [0]
  wf := dot_S16x32x3136_S16x32x3136_S16x32x32_2_2_1_1_0_0_wf
def dot_S32x1_S1x32_S32x32_1_0_0_1_n_n : DotDims S32x1 S1x32 S32x32 where
  lhsContracting := [1]
  rhsContracting := [0]
  lhsNonContracting := [0]
  rhsNonContracting := [1]
  lhsBatch := []
  rhsBatch := []
  wf := dot_S32x1_S1x32_S32x32_1_0_0_1_n_n_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S32x32_S32x3136_S32x3136_1_0_0_1_n_n : DotDims S32x32 S32x3136 S32x3136 where
  lhsContracting := [1]
  rhsContracting := [0]
  lhsNonContracting := [0]
  rhsNonContracting := [1]
  lhsBatch := []
  rhsBatch := []
  wf := dot_S32x32_S32x3136_S32x3136_1_0_0_1_n_n_wf

abbrev win0_0 : Pipeline.Window sig grid0 :=
  Pipeline.Window.ofSpec (Memref.whole main_v0) S16x32x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S32x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S32x32.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8x32x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S32x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v70) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v73) S1x32x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v74) S1x32x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v75) S8x32x3136.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S1x256x1x1 : Shape := ⟨4, ![1, 256, 1, 1]⟩
abbrev S512x32x56x56 : Shape := ⟨4, ![512, 32, 56, 56]⟩
abbrev S32x512x56x56 : Shape := ⟨4, ![32, 512, 56, 56]⟩
abbrev S32x1605632 : Shape := ⟨2, ![32, 1605632]⟩
abbrev S_ : Shape := ⟨0, ![]⟩
abbrev S32 : Shape := ⟨1, ![32]⟩
abbrev S32x1 : Shape := ⟨2, ![32, 1]⟩
abbrev S1605632x32 : Shape := ⟨2, ![1605632, 32]⟩
abbrev S32x32 : Shape := ⟨2, ![32, 32]⟩

abbrev nBuf : Space → Nat
  | .hbm => 113
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S1x256x1x1, .f32⟩
  | .hbm, ⟨2, _⟩ => ⟨S1x256x1x1, .f32⟩
  | .hbm, ⟨3, _⟩ => ⟨S512x32x56x56, .f32⟩
  | .hbm, ⟨4, _⟩ => ⟨S32x512x56x56, .f32⟩
  | .hbm, ⟨5, _⟩ => ⟨S32x1605632, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1605632, .f32⟩
  | .hbm, ⟨13, _⟩ => ⟨S32x1605632, .f32⟩
  | .hbm, ⟨14, _⟩ => ⟨S1605632x32, .f32⟩
  | .hbm, ⟨15, _⟩ => ⟨S32x32, .f32⟩
  | .hbm, ⟨16, _⟩ => ⟨S_, .f32⟩
  | .hbm, ⟨17, _⟩ => ⟨S32x32, .f32⟩
  | .hbm, ⟨18, _⟩ => ⟨S32x32, .f32⟩
  | .hbm, ⟨19, _⟩ => ⟨S32x32, .i32⟩
  | .hbm, ⟨20, _⟩ => ⟨S32x32, .i32⟩
  | .hbm, ⟨21, _⟩ => ⟨S_, .i32⟩
  | .hbm, ⟨22, _⟩ => ⟨S32x32, .i32⟩
  | .hbm, ⟨23, _⟩ => ⟨S32x32, .i32⟩
  | .hbm, ⟨24, _⟩ => ⟨S32x32, .i1⟩
  | .hbm, ⟨25, _⟩ => ⟨S32x32, .f32⟩
  | .hbm, ⟨26, _⟩ => ⟨S_, .f32⟩
  | .hbm, ⟨27, _⟩ => ⟨S32x32, .f32⟩
  | .hbm, ⟨28, _⟩ => ⟨S32x32, .f32⟩
  | .hbm, ⟨29, _⟩ => ⟨S32x32, .f32⟩
  | .hbm, ⟨30, _⟩ => ⟨S32x32, .i32⟩
  | .hbm, ⟨31, _⟩ => ⟨S32x32, .i32⟩
  | .hbm, ⟨32, _⟩ => ⟨S_, .i32⟩
  | .hbm, ⟨33, _⟩ => ⟨S32x32, .i32⟩
  | .hbm, ⟨34, _⟩ => ⟨S32x32, .i32⟩
  | .hbm, ⟨35, _⟩ => ⟨S32x32, .i1⟩
  | .hbm, ⟨36, _⟩ => ⟨S_, .f32⟩
  | .hbm, ⟨37, _⟩ => ⟨S32x32, .f32⟩
  | .hbm, ⟨38, _⟩ => ⟨S32x32, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S32x32, .f32⟩
  | .hbm, ⟨44, _⟩ => ⟨S32x32, .f32⟩
  | .hbm, ⟨45, _⟩ => ⟨S32x32, .i32⟩
  | .hbm, ⟨46, _⟩ => ⟨S32x32, .i32⟩
  | .hbm, ⟨47, _⟩ => ⟨S_, .i32⟩
  | .hbm, ⟨48, _⟩ => ⟨S32x32, .i32⟩
  | .hbm, ⟨49, _⟩ => ⟨S32x32, .i32⟩
  | .hbm, ⟨50, _⟩ => ⟨S32x32, .i1⟩
  | .hbm, ⟨51, _⟩ => ⟨S32x32, .f32⟩
  | .hbm, ⟨52, _⟩ => ⟨S_, .f32⟩
  | .hbm, ⟨53, _⟩ => ⟨S32x32, .f32⟩
  | .hbm, ⟨54, _⟩ => ⟨S32x32, .f32⟩
  | .hbm, ⟨55, _⟩ => ⟨S32x32, .f32⟩
  | .hbm, ⟨56, _⟩ => ⟨S32x32, .f32⟩
  | .hbm, ⟨57, _⟩ => ⟨S_, .f32⟩
  | .hbm, ⟨58, _⟩ => ⟨S32x32, .f32⟩
  | .hbm, ⟨59, _⟩ => ⟨S32x32, .f32⟩
  | .hbm, ⟨60, _⟩ => ⟨S32x32, .f32⟩
  | .hbm, ⟨61, _⟩ => ⟨S32x32, .f32⟩
  | .hbm, ⟨62, _⟩ => ⟨S_, .f32⟩
  | .hbm, ⟨63, _⟩ => ⟨S32x32, .f32⟩
  | .hbm, ⟨64, _⟩ => ⟨S32x32, .f32⟩
  | .hbm, ⟨65, _⟩ => ⟨S32x32, .f32⟩
  | .hbm, ⟨66, _⟩ => ⟨S32x32, .f32⟩
  | .hbm, ⟨67, _⟩ => ⟨S_, .f32⟩
  | .hbm, ⟨68, _⟩ => ⟨S32x32, .f32⟩
  | .hbm, ⟨69, _⟩ => ⟨S32x32, .f32⟩
  | .hbm, ⟨70, _⟩ => ⟨S32x32, .f32⟩
  | .hbm, ⟨71, _⟩ => ⟨S32x32, .f32⟩
  | .hbm, ⟨72, _⟩ => ⟨S_, .f32⟩
  | .hbm, ⟨73, _⟩ => ⟨S32x32, .f32⟩
  | .hbm, ⟨74, _⟩ => ⟨S32x32, .f32⟩
  | .hbm, ⟨75, _⟩ => ⟨S32x32, .f32⟩
  | .hbm, ⟨76, _⟩ => ⟨S32x32, .f32⟩
  | .hbm, ⟨77, _⟩ => ⟨S_, .f32⟩
  | .hbm, ⟨78, _⟩ => ⟨S32x32, .f32⟩
  | .hbm, ⟨79, _⟩ => ⟨S32x32, .f32⟩
  | .hbm, ⟨80, _⟩ => ⟨S32x32, .f32⟩
  | .hbm, ⟨81, _⟩ => ⟨S32x32, .f32⟩
  | .hbm, ⟨82, _⟩ => ⟨S_, .f32⟩
  | .hbm, ⟨83, _⟩ => ⟨S32x32, .f32⟩
  | .hbm, ⟨84, _⟩ => ⟨S32x32, .f32⟩
  | .hbm, ⟨85, _⟩ => ⟨S32x32, .f32⟩
  | .hbm, ⟨86, _⟩ => ⟨S32x32, .f32⟩
  | .hbm, ⟨87, _⟩ => ⟨S_, .f32⟩
  | .hbm, ⟨88, _⟩ => ⟨S32x32, .f32⟩
  | .hbm, ⟨89, _⟩ => ⟨S32x32, .f32⟩
  | .hbm, ⟨90, _⟩ => ⟨S32x32, .f32⟩
  | .hbm, ⟨91, _⟩ => ⟨S32x32, .f32⟩
  | .hbm, ⟨92, _⟩ => ⟨S_, .f32⟩
  | .hbm, ⟨93, _⟩ => ⟨S32x32, .f32⟩
  | .hbm, ⟨94, _⟩ => ⟨S32x32, .f32⟩
  | .hbm, ⟨95, _⟩ => ⟨S32x32, .f32⟩
  | .hbm, ⟨96, _⟩ => ⟨S32x32, .f32⟩
  | .hbm, ⟨97, _⟩ => ⟨S_, .f32⟩
  | .hbm, ⟨98, _⟩ => ⟨S32x32, .f32⟩
  | .hbm, ⟨99, _⟩ => ⟨S32x32, .f32⟩
  | .hbm, ⟨100, _⟩ => ⟨S32x32, .f32⟩
  | .hbm, ⟨101, _⟩ => ⟨S32x32, .f32⟩
  | .hbm, ⟨102, _⟩ => ⟨S_, .f32⟩
  | .hbm, ⟨103, _⟩ => ⟨S32x32, .f32⟩
  | .hbm, ⟨104, _⟩ => ⟨S32x32, .f32⟩
  | .hbm, ⟨105, _⟩ => ⟨S32x1605632, .f32⟩
  | .hbm, ⟨106, _⟩ => ⟨S32x512x56x56, .f32⟩
  | .hbm, ⟨107, _⟩ => ⟨S512x32x56x56, .f32⟩
  | .hbm, ⟨108, _⟩ => ⟨S64x256x56x56, .f32⟩
  | .hbm, ⟨109, _⟩ => ⟨S64x256x56x56, .f32⟩
  | .hbm, ⟨110, _⟩ => ⟨S64x256x56x56, .f32⟩
  | .hbm, ⟨111, _⟩ => ⟨S64x256x56x56, .f32⟩
  | .hbm, ⟨112, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_c : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_cst : Ref sig .tc := ⟨.hbm, 36, rfl⟩
abbrev main_call0_v5 : Ref sig .tc := ⟨.hbm, 37, rfl⟩
abbrev main_call0_v6 : Ref sig .tc := ⟨.hbm, 38, rfl⟩
abbrev main_call0_cst_0 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]

class Facts₀ : Prop where
  shapeCasts_S64x256x56x56_S512x32x56x56 : S64x256x56x56.ShapeCasts S512x32x56x56
  transposes_S512x32x56x56_S32x512x56x56_1_0_2_3 : S512x32x56x56.Transposes [1, 0, 2, 3] S32x512x56x56
  shapeCasts_S32x512x56x56_S32x1605632 : S32x512x56x56.ShapeCasts S32x1605632
  reducesTo_S32x1605632_S32_d1 : S32x1605632.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1605632_0_1 : S32x1.BroadcastsInDim S32x1605632 (![0, 1] : Fin 2 → Fin S32x1605632.rank)
  transposes_S32x1605632_S1605632x32_1_0 : S32x1605632.Transposes [1, 0] S1605632x32
  bcast_S_S32x32 : S_.BroadcastsInDim S32x32 (![] : Fin 0 → Fin S32x32.rank)
  reducesTo_S32x32_S_d0_1 : S32x32.ReducesTo [0, 1] S_
  shapeCasts_S32x1605632_S32x512x56x56 : S32x1605632.ShapeCasts S32x512x56x56
  transposes_S32x512x56x56_S512x32x56x56_1_0_2_3 : S32x512x56x56.Transposes [1, 0, 2, 3] S512x32x56x56
  shapeCasts_S512x32x56x56_S64x256x56x56 : S512x32x56x56.ShapeCasts S64x256x56x56
  bcast_S1x256x1x1_S64x256x56x56_0_1_2_3 : S1x256x1x1.BroadcastsInDim S64x256x56x56 (![0, 1, 2, 3] : Fin 4 → Fin S64x256x56x56.rank)
  dot_S32x1605632_S1605632x32_S32x32_1_0_0_1_n_n_wf : DotDims.WF S32x1605632 S1605632x32 S32x32 [1] [0] [0] [1] [] []
  dot_S32x32_S32x32_S32x32_1_0_0_1_n_n_wf : DotDims.WF S32x32 S32x32 S32x32 [1] [0] [0] [1] [] []
  dot_S32x32_S32x1605632_S32x1605632_1_0_0_1_n_n_wf : DotDims.WF S32x32 S32x1605632 S32x1605632 [1] [0] [0] [1] [] []

variable [Facts₀]

def dot_S32x1605632_S1605632x32_S32x32_1_0_0_1_n_n : DotDims S32x1605632 S1605632x32 S32x32 where
  lhsContracting := [1]
  rhsContracting := [0]
  lhsNonContracting := [0]
  rhsNonContracting := [1]
  lhsBatch := []
  rhsBatch := []
  wf := dot_S32x1605632_S1605632x32_S32x32_1_0_0_1_n_n_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S32x32_S32x1605632_S32x1605632_1_0_0_1_n_n : DotDims S32x32 S32x1605632 S32x1605632 where
  lhsContracting := [1]
  rhsContracting := [0]
  lhsNonContracting := [0]
  rhsNonContracting := [1]
  lhsBatch := []
  rhsBatch := []
  wf := dot_S32x32_S32x1605632_S32x1605632_1_0_0_1_n_n_wf

class Facts : Prop extends Facts₀ where

variable [Facts]
-- ==== Proof.KRun.lean ====
/-
  The idealized kernel's run with its RESULT named.  The program is two pallas_calls among five stretches of host
  operations; its run is the chain of those seven segments, and after the last one every unscoped buffer of a core
  holds the fold of all seven over the launch memory (the boundary contents W7).  The frame certificate reads only
  the three argument arrays off that last state; here the result array main_v76 is read off it as well, so the run
  ends with main_v76 at W7 m ρ c and the arguments as launched.
-/
import proofs.«167353_j44676249813412_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the idealized kernel terminates without a fault, with the result array at the
    last boundary's contents and the three arguments unchanged. -/
theorem run_value : θ_run defs (onTc (τ := τ) (main (F := F))) ⟨m, fun _ => 0, ρ⟩ (fun r => ∀ c : Dev nD,
      r.2.mem ((c.tc : Thread nD τ).loc main_v76) = W7 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v76 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.KRun

end
-- ==== Proof.RefRunStages.lean ====
/-
  The reference program's computation cut into named stages, each the composition of the printed host
  operations in their printed order, read at the ideal instance (floats are extended reals).

  x is viewed per group as a [32, 1605632] matrix (xg); its row means (meanR) are subtracted (xmR); the
  32 x 32 covariance, regularised by a multiple of the identity, is sigmaR; wmOf is the whitening matrix:
  sigma scaled by the inverse of its trace, five Newton-Schulz steps from the identity, rescaled by the
  square root of the inverse trace; outOf multiplies the centred matrix by it, undoes the group view and
  applies the per-channel scale and shift.
-/
import proofs.«167353_j44676249813412_2_alg».proof.Proof.Gen.ReferenceIdeal
import Idealize.ShloMosaic.PureOps.Ideal

noncomputable section

namespace Cert.ReferenceIdeal.RefRun

open Cert.ReferenceIdeal Cert.ReferenceIdeal.Gen Idealize.ShloMosaic

/-- The group view of x: [64,256,56,56] read as [512,32,56,56], the first two axes swapped, flattened to [32,1605632]. -/
def xg (x : FVec Ideal S64x256x56x56 .f32) : FVec Ideal S32x1605632 .f32 :=
  shapeCast S32x1605632
    (transpose S32x512x56x56 [1, 0, 2, 3] (shapeCast S512x32x56x56 x shapeCasts_S64x256x56x56_S512x32x56x56)
      transposes_S512x32x56x56_S32x512x56x56_1_0_2_3)
    shapeCasts_S32x512x56x56_S32x1605632

/-- The row means of the group view, as a [32,1] column: the row sums divided by the number of columns. -/
def meanR (x : FVec Ideal S64x256x56x56 .f32) : FVec Ideal S32x1 .f32 :=
  Host.divf (F := Ideal)
    (broadcastInDim S32x1 ![0] bcast_S32_S32x1_0
      (Host.reduceAdd (F := Ideal) (xg x) (constant (F := Ideal) S_ .f32 0x00000000#32) reducesTo_S32x1605632_S32_d1 h_S_))
    (broadcastInDim S32x1 ![] bcast_S_S32x1 (constant (F := Ideal) S_ .f32 0x49C40000#32))

/-- The centred group view: each row minus its mean. -/
def xmR (x : FVec Ideal S64x256x56x56 .f32) : FVec Ideal S32x1605632 .f32 :=
  subf (xg x) (broadcastInDim S32x1605632 ![0, 1] bcast_S32x1_S32x1605632_0_1 (meanR x))

/-- The 32 x 32 identity, as printed: the row index compared with the column index, converted to a float. -/
def eye : FVec Ideal S32x32 .f32 :=
  uitofp (F := Ideal) .f32
    (cmpi .eq (addi (iotaInDim S32x32 32 0) (broadcastInDim S32x32 ![] bcast_S_S32x32 (constantI S_ 32 0#32)))
      (iotaInDim S32x32 32 1))

/-- The regularised covariance: (xm xmᵀ) / m + eps * identity. -/
def sigmaR (x : FVec Ideal S64x256x56x56 .f32) : FVec Ideal S32x32 .f32 :=
  addf
    (Host.divf (F := Ideal)
      (Host.dotGeneral (F := Ideal) dot_S32x1605632_S1605632x32_S32x32_1_0_0_1_n_n none (xmR x)
        (transpose S1605632x32 [1, 0] (xmR x) transposes_S32x1605632_S1605632x32_1_0))
      (broadcastInDim S32x32 ![] bcast_S_S32x32 (constant (F := Ideal) S_ .f32 0x49C40000#32)))
    (mulf (broadcastInDim S32x32 ![] bcast_S_S32x32 (constant (F := Ideal) S_ .f32 0x3727C5AC#32)) eye)

/-- The trace: the diagonal selected against zero, summed over both axes from zero. -/
def traceOf (σ : FVec Ideal S32x32 .f32) : FVec Ideal S_ .f32 :=
  Host.reduceAdd (F := Ideal)
    (select
      (cmpi .eq (addi (iotaInDim S32x32 32 0) (broadcastInDim S32x32 ![] bcast_S_S32x32 (constantI S_ 32 0#32)))
        (iotaInDim S32x32 32 1))
      σ (broadcastInDim S32x32 ![] bcast_S_S32x32 (constant (F := Ideal) S_ .f32 0x00000000#32)))
    (constant (F := Ideal) S_ .f32 0x00000000#32) reducesTo_S32x32_S_d0_1 h_S_

/-- One over the trace. -/
def tinvOf (σ : FVec Ideal S32x32 .f32) : FVec Ideal S_ .f32 :=
  Host.divf (F := Ideal) (constant (F := Ideal) S_ .f32 0x3F800000#32) (traceOf σ)

/-- The matrix scaled to unit trace. -/
def sigmaN (σ : FVec Ideal S32x32 .f32) : FVec Ideal S32x32 .f32 :=
  mulf σ (broadcastInDim S32x32 ![] bcast_S_S32x32 (tinvOf σ))

/-- One Newton-Schulz step: 3/2 P - (1/2 (P P) P) σn. -/
def nsStep (P σn : FVec Ideal S32x32 .f32) : FVec Ideal S32x32 .f32 :=
  subf (mulf (broadcastInDim S32x32 ![] bcast_S_S32x32 (constant (F := Ideal) S_ .f32 0x3FC00000#32)) P)
    (Host.dotGeneral (F := Ideal) dot_S32x32_S32x32_S32x32_1_0_0_1_n_n none
      (mulf (broadcastInDim S32x32 ![] bcast_S_S32x32 (constant (F := Ideal) S_ .f32 0x3F000000#32))
        (Host.dotGeneral (F := Ideal) dot_S32x32_S32x32_S32x32_1_0_0_1_n_n none
          (Host.dotGeneral (F := Ideal) dot_S32x32_S32x32_S32x32_1_0_0_1_n_n none P P) P))
      σn)

/-- The whitening matrix: five Newton-Schulz steps from the identity on the unit-trace matrix, times the square
    root of the inverse trace. -/
def wmOf (σ : FVec Ideal S32x32 .f32) : FVec Ideal S32x32 .f32 :=
  mulf (nsStep (nsStep (nsStep (nsStep (nsStep eye (sigmaN σ)) (sigmaN σ)) (sigmaN σ)) (sigmaN σ)) (sigmaN σ))
    (broadcastInDim S32x32 ![] bcast_S_S32x32 (Host.sqrt (F := Ideal) (tinvOf σ)))

/-- The output from the whitening matrix and the centred group view: the product, read back as [64,256,56,56],
    times the per-channel scale plus the per-channel shift. -/
def outOf (wm : FVec Ideal S32x32 .f32) (xm : FVec Ideal S32x1605632 .f32) (w b : FVec Ideal S1x256x1x1 .f32) :
    FVec Ideal S64x256x56x56 .f32 :=
  addf
    (mulf
      (shapeCast S64x256x56x56
        (transpose S512x32x56x56 [1, 0, 2, 3]
          (shapeCast S32x512x56x56
            (Host.dotGeneral (F := Ideal) dot_S32x32_S32x1605632_S32x1605632_1_0_0_1_n_n none wm xm)
            shapeCasts_S32x1605632_S32x512x56x56)
          transposes_S32x512x56x56_S512x32x56x56_1_0_2_3)
        shapeCasts_S512x32x56x56_S64x256x56x56)
      (broadcastInDim S64x256x56x56 ![0, 1, 2, 3] bcast_S1x256x1x1_S64x256x56x56_0_1_2_3 w))
    (broadcastInDim S64x256x56x56 ![0, 1, 2, 3] bcast_S1x256x1x1_S64x256x56x56_0_1_2_3 b)

/-- The reference's result. -/
def result (x : FVec Ideal S64x256x56x56 .f32) (w b : FVec Ideal S1x256x1x1 .f32) : FVec Ideal S64x256x56x56 .f32 :=
  outOf (wmOf (sigmaR x)) (xmR x) w b

end Cert.ReferenceIdeal.RefRun

end
-- ==== Proof.RefRunOps.lean ====
/-
  The reference program's @main as the list of its host operations, in order: its own 99 and, in the place of
  its one call, the callee's 11 (the trace: the diagonal selected against zero and summed), over the buffers of that call.
  The list is also cut into consecutive stretches, one per stage of the computation.
-/
import proofs.«167353_j44676249813412_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The group view: reshape, transpose, reshape. -/
abbrev opsA : List (HloOp τ sig (Elt F)) :=
  [ reshape main_arg0 main_v0 rfl shapeCasts_S64x256x56x56_S512x32x56x56,
    unary main_v0 main_v1 ((transpose S32x512x56x56 [1, 0, 2, 3] · transposes_S512x32x56x56_S32x512x56x56_1_0_2_3) : (⟨S512x32x56x56, .f32⟩ : BufTy).Contents (Elt F) → (⟨S32x512x56x56, .f32⟩ : BufTy).Contents (Elt F)),
    reshape main_v1 main_v2 rfl shapeCasts_S32x512x56x56_S32x1605632 ]

/-- The row means. -/
abbrev opsB : List (HloOp τ sig (Elt F)) :=
  [ nullary main_cst (constant S_ .f32 0x00000000#32),
    binary main_v2 main_cst main_v3 ((fun x v => Host.reduceAdd x v reducesTo_S32x1605632_S32_d1 h_S_) : (⟨S32x1605632, .f32⟩ : BufTy).Contents (Elt F) → (⟨S_, .f32⟩ : BufTy).Contents (Elt F) → (⟨S32, .f32⟩ : BufTy).Contents (Elt F)),
    unary main_v3 main_v4 (broadcastInDim S32x1 ![0] bcast_S32_S32x1_0 : (⟨S32, .f32⟩ : BufTy).Contents (Elt F) → (⟨S32x1, .f32⟩ : BufTy).Contents (Elt F)),
    nullary main_cst_0 (constant S_ .f32 0x49C40000#32),
    unary main_cst_0 main_v5 (broadcastInDim S32x1 ![] bcast_S_S32x1 : (⟨S_, .f32⟩ : BufTy).Contents (Elt F) → (⟨S32x1, .f32⟩ : BufTy).Contents (Elt F)),
    binary main_v4 main_v5 main_v6 (Host.divf : (⟨S32x1, .f32⟩ : BufTy).Contents (Elt F) → (⟨S32x1, .f32⟩ : BufTy).Contents (Elt F) → (⟨S32x1, .f32⟩ : BufTy).Contents (Elt F)) ]

/-- The centring. -/
abbrev opsC : List (HloOp τ sig (Elt F)) :=
  [ unary main_v6 main_v7 (broadcastInDim S32x1605632 ![0, 1] bcast_S32x1_S32x1605632_0_1 : (⟨S32x1, .f32⟩ : BufTy).Contents (Elt F) → (⟨S32x1605632, .f32⟩ : BufTy).Contents (Elt F)),
    binary main_v2 main_v7 main_v8 (subf : (⟨S32x1605632, .f32⟩ : BufTy).Contents (Elt F) → (⟨S32x1605632, .f32⟩ : BufTy).Contents (Elt F) → (⟨S32x1605632, .f32⟩ : BufTy).Contents (Elt F)) ]

/-- The regularised covariance. -/
abbrev opsD : List (HloOp τ sig (Elt F)) :=
  [ unary main_v8 main_v9 ((transpose S1605632x32 [1, 0] · transposes_S32x1605632_S1605632x32_1_0) : (⟨S32x1605632, .f32⟩ : BufTy).Contents (Elt F) → (⟨S1605632x32, .f32⟩ : BufTy).Contents (Elt F)),
    binary main_v8 main_v9 main_v10 ((fun l r => Host.dotGeneral dot_S32x1605632_S1605632x32_S32x32_1_0_0_1_n_n none l r) : (⟨S32x1605632, .f32⟩ : BufTy).Contents (Elt F) → (⟨S1605632x32, .f32⟩ : BufTy).Contents (Elt F) → (⟨S32x32, .f32⟩ : BufTy).Contents (Elt F)),
    nullary main_cst_1 (constant S_ .f32 0x49C40000#32),
    unary main_cst_1 main_v11 (broadcastInDim S32x32 ![] bcast_S_S32x32 : (⟨S_, .f32⟩ : BufTy).Contents (Elt F) → (⟨S32x32, .f32⟩ : BufTy).Contents (Elt F)),
    binary main_v10 main_v11 main_v12 (Host.divf : (⟨S32x32, .f32⟩ : BufTy).Contents (Elt F) → (⟨S32x32, .f32⟩ : BufTy).Contents (Elt F) → (⟨S32x32, .f32⟩ : BufTy).Contents (Elt F)),
    nullary main_v13 (iotaInDim S32x32 32 0),
    nullary main_v14 (iotaInDim S32x32 32 1),
    nullary main_c (constantI S_ 32 0#32),
    unary main_c main_v15 (broadcastInDim S32x32 ![] bcast_S_S32x32 : (⟨S_, .i32⟩ : BufTy).Contents (Elt F) → (⟨S32x32, .i32⟩ : BufTy).Contents (Elt F)),
    binary main_v13 main_v15 main_v16 (addi : (⟨S32x32, .i32⟩ : BufTy).Contents (Elt F) → (⟨S32x32, .i32⟩ : BufTy).Contents (Elt F) → (⟨S32x32, .i32⟩ : BufTy).Contents (Elt F)),
    binary main_v16 main_v14 main_v17 (cmpi .eq : (⟨S32x32, .i32⟩ : BufTy).Contents (Elt F) → (⟨S32x32, .i32⟩ : BufTy).Contents (Elt F) → (⟨S32x32, .i1⟩ : BufTy).Contents (Elt F)),
    unary main_v17 main_v18 (uitofp .f32 : (⟨S32x32, .i1⟩ : BufTy).Contents (Elt F) → (⟨S32x32, .f32⟩ : BufTy).Contents (Elt F)),
    nullary main_cst_2 (constant S_ .f32 0x3727C5AC#32),
    unary main_cst_2 main_v19 (broadcastInDim S32x32 ![] bcast_S_S32x32 : (⟨S_, .f32⟩ : BufTy).Contents (Elt F) → (⟨S32x32, .f32⟩ : BufTy).Contents (Elt F)),
    binary main_v19 main_v18 main_v20 (mulf : (⟨S32x32, .f32⟩ : BufTy).Contents (Elt F) → (⟨S32x32, .f32⟩ : BufTy).Contents (Elt F) → (⟨S32x32, .f32⟩ : BufTy).Contents (Elt F)),
    binary main_v12 main_v20 main_v21 (addf : (⟨S32x32, .f32⟩ : BufTy).Contents (Elt F) → (⟨S32x32, .f32⟩ : BufTy).Contents (Elt F) → (⟨S32x32, .f32⟩ : BufTy).Contents (Elt F)) ]

/-- The trace (the callee's operations), its inverse, the unit-trace matrix. -/
abbrev opsE : List (HloOp τ sig (Elt F)) :=
  [ TRef.nullary main_call0.v0 (iotaInDim S32x32 32 0),
    TRef.nullary main_call0.v1 (iotaInDim S32x32 32 1),
    TRef.nullary main_call0.c (constantI S_ 32 0#32),
    TRef.unary main_call0.c main_call0.v2 (broadcastInDim S32x32 ![] bcast_S_S32x32),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S32x32 ![] bcast_S_S32x32),
    TRef.ternary main_call0.v4 (.of main_v21) main_call0.v5 main_call0.call0.v0 select,
    TRef.nullary main_call0.cst_0 (constant S_ .f32 0x00000000#32),
    TRef.binary main_call0.call0.v0 main_call0.cst_0 main_call0.v7 (fun x v => Host.reduceAdd x v reducesTo_S32x32_S_d0_1 h_S_),
    nullary main_cst_3 (constant S_ .f32 0x3F800000#32),
    binary main_cst_3 main_v22 main_v23 (Host.divf : (⟨S_, .f32⟩ : BufTy).Contents (Elt F) → (⟨S_, .f32⟩ : BufTy).Contents (Elt F) → (⟨S_, .f32⟩ : BufTy).Contents (Elt F)),
    unary main_v23 main_v24 (broadcastInDim S32x32 ![] bcast_S_S32x32 : (⟨S_, .f32⟩ : BufTy).Contents (Elt F) → (⟨S32x32, .f32⟩ : BufTy).Contents (Elt F)),
    binary main_v21 main_v24 main_v25 (mulf : (⟨S32x32, .f32⟩ : BufTy).Contents (Elt F) → (⟨S32x32, .f32⟩ : BufTy).Contents (Elt F) → (⟨S32x32, .f32⟩ : BufTy).Contents (Elt F)) ]

/-- The identity matrix. -/
abbrev opsI : List (HloOp τ sig (Elt F)) :=
  [ nullary main_v26 (iotaInDim S32x32 32 0),
    nullary main_v27 (iotaInDim S32x32 32 1),
    nullary main_c_4 (constantI S_ 32 0#32),
    unary main_c_4 main_v28 (broadcastInDim S32x32 ![] bcast_S_S32x32 : (⟨S_, .i32⟩ : BufTy).Contents (Elt F) → (⟨S32x32, .i32⟩ : BufTy).Contents (Elt F)),
    binary main_v26 main_v28 main_v29 (addi : (⟨S32x32, .i32⟩ : BufTy).Contents (Elt F) → (⟨S32x32, .i32⟩ : BufTy).Contents (Elt F) → (⟨S32x32, .i32⟩ : BufTy).Contents (Elt F)),
    binary main_v29 main_v27 main_v30 (cmpi .eq : (⟨S32x32, .i32⟩ : BufTy).Contents (Elt F) → (⟨S32x32, .i32⟩ : BufTy).Contents (Elt F) → (⟨S32x32, .i1⟩ : BufTy).Contents (Elt F)),
    unary main_v30 main_v31 (uitofp .f32 : (⟨S32x32, .i1⟩ : BufTy).Contents (Elt F) → (⟨S32x32, .f32⟩ : BufTy).Contents (Elt F)) ]

/-- Newton-Schulz step 1. -/
abbrev opsN1 : List (HloOp τ sig (Elt F)) :=
  [ nullary main_cst_5 (constant S_ .f32 0x3FC00000#32),
    unary main_cst_5 main_v32 (broadcastInDim S32x32 ![] bcast_S_S32x32 : (⟨S_, .f32⟩ : BufTy).Contents (Elt F) → (⟨S32x32, .f32⟩ : BufTy).Contents (Elt F)),
    binary main_v32 main_v31 main_v33 (mulf : (⟨S32x32, .f32⟩ : BufTy).Contents (Elt F) → (⟨S32x32, .f32⟩ : BufTy).Contents (Elt F) → (⟨S32x32, .f32⟩ : BufTy).Contents (Elt F)),
    binary main_v31 main_v31 main_v34 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v34 main_v31 main_v35 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    nullary main_cst_6 (constant S_ .f32 0x3F000000#32),
    unary main_cst_6 main_v36 (broadcastInDim S32x32 ![] bcast_S_S32x32 : (⟨S_, .f32⟩ : BufTy).Contents (Elt F) → (⟨S32x32, .f32⟩ : BufTy).Contents (Elt F)),
    binary main_v36 main_v35 main_v37 (mulf : (⟨S32x32, .f32⟩ : BufTy).Contents (Elt F) → (⟨S32x32, .f32⟩ : BufTy).Contents (Elt F) → (⟨S32x32, .f32⟩ : BufTy).Contents (Elt F)),
    binary main_v37 main_v25 main_v38 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v33 main_v38 main_v39 (subf : (⟨S32x32, .f32⟩ : BufTy).Contents (Elt F) → (⟨S32x32, .f32⟩ : BufTy).Contents (Elt F) → (⟨S32x32, .f32⟩ : BufTy).Contents (Elt F)) ]

/-- Newton-Schulz step 2. -/
abbrev opsN2 : List (HloOp τ sig (Elt F)) :=
  [ nullary main_cst_7 (constant S_ .f32 0x3FC00000#32),
    unary main_cst_7 main_v40 (broadcastInDim S32x32 ![] bcast_S_S32x32 : (⟨S_, .f32⟩ : BufTy).Contents (Elt F) → (⟨S32x32, .f32⟩ : BufTy).Contents (Elt F)),
    binary main_v40 main_v39 main_v41 (mulf : (⟨S32x32, .f32⟩ : BufTy).Contents (Elt F) → (⟨S32x32, .f32⟩ : BufTy).Contents (Elt F) → (⟨S32x32, .f32⟩ : BufTy).Contents (Elt F)),
    binary main_v39 main_v39 main_v42 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v42 main_v39 main_v43 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    nullary main_cst_8 (constant S_ .f32 0x3F000000#32),
    unary main_cst_8 main_v44 (broadcastInDim S32x32 ![] bcast_S_S32x32 : (⟨S_, .f32⟩ : BufTy).Contents (Elt F) → (⟨S32x32, .f32⟩ : BufTy).Contents (Elt F)),
    binary main_v44 main_v43 main_v45 (mulf : (⟨S32x32, .f32⟩ : BufTy).Contents (Elt F) → (⟨S32x32, .f32⟩ : BufTy).Contents (Elt F) → (⟨S32x32, .f32⟩ : BufTy).Contents (Elt F)),
    binary main_v45 main_v25 main_v46 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v41 main_v46 main_v47 (subf : (⟨S32x32, .f32⟩ : BufTy).Contents (Elt F) → (⟨S32x32, .f32⟩ : BufTy).Contents (Elt F) → (⟨S32x32, .f32⟩ : BufTy).Contents (Elt F)) ]

/-- Newton-Schulz step 3. -/
abbrev opsN3 : List (HloOp τ sig (Elt F)) :=
  [ nullary main_cst_9 (constant S_ .f32 0x3FC00000#32),
    unary main_cst_9 main_v48 (broadcastInDim S32x32 ![] bcast_S_S32x32 : (⟨S_, .f32⟩ : BufTy).Contents (Elt F) → (⟨S32x32, .f32⟩ : BufTy).Contents (Elt F)),
    binary main_v48 main_v47 main_v49 (mulf : (⟨S32x32, .f32⟩ : BufTy).Contents (Elt F) → (⟨S32x32, .f32⟩ : BufTy).Contents (Elt F) → (⟨S32x32, .f32⟩ : BufTy).Contents (Elt F)),
    binary main_v47 main_v47 main_v50 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v50 main_v47 main_v51 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    nullary main_cst_10 (constant S_ .f32 0x3F000000#32),
    unary main_cst_10 main_v52 (broadcastInDim S32x32 ![] bcast_S_S32x32 : (⟨S_, .f32⟩ : BufTy).Contents (Elt F) → (⟨S32x32, .f32⟩ : BufTy).Contents (Elt F)),
    binary main_v52 main_v51 main_v53 (mulf : (⟨S32x32, .f32⟩ : BufTy).Contents (Elt F) → (⟨S32x32, .f32⟩ : BufTy).Contents (Elt F) → (⟨S32x32, .f32⟩ : BufTy).Contents (Elt F)),
    binary main_v53 main_v25 main_v54 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v49 main_v54 main_v55 (subf : (⟨S32x32, .f32⟩ : BufTy).Contents (Elt F) → (⟨S32x32, .f32⟩ : BufTy).Contents (Elt F) → (⟨S32x32, .f32⟩ : BufTy).Contents (Elt F)) ]

/-- Newton-Schulz step 4. -/
abbrev opsN4 : List (HloOp τ sig (Elt F)) :=
  [ nullary main_cst_11 (constant S_ .f32 0x3FC00000#32),
    unary main_cst_11 main_v56 (broadcastInDim S32x32 ![] bcast_S_S32x32 : (⟨S_, .f32⟩ : BufTy).Contents (Elt F) → (⟨S32x32, .f32⟩ : BufTy).Contents (Elt F)),
    binary main_v56 main_v55 main_v57 (mulf : (⟨S32x32, .f32⟩ : BufTy).Contents (Elt F) → (⟨S32x32, .f32⟩ : BufTy).Contents (Elt F) → (⟨S32x32, .f32⟩ : BufTy).Contents (Elt F)),
    binary main_v55 main_v55 main_v58 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v58 main_v55 main_v59 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    nullary main_cst_12 (constant S_ .f32 0x3F000000#32),
    unary main_cst_12 main_v60 (broadcastInDim S32x32 ![] bcast_S_S32x32 : (⟨S_, .f32⟩ : BufTy).Contents (Elt F) → (⟨S32x32, .f32⟩ : BufTy).Contents (Elt F)),
    binary main_v60 main_v59 main_v61 (mulf : (⟨S32x32, .f32⟩ : BufTy).Contents (Elt F) → (⟨S32x32, .f32⟩ : BufTy).Contents (Elt F) → (⟨S32x32, .f32⟩ : BufTy).Contents (Elt F)),
    binary main_v61 main_v25 main_v62 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v57 main_v62 main_v63 (subf : (⟨S32x32, .f32⟩ : BufTy).Contents (Elt F) → (⟨S32x32, .f32⟩ : BufTy).Contents (Elt F) → (⟨S32x32, .f32⟩ : BufTy).Contents (Elt F)) ]

/-- Newton-Schulz step 5. -/
abbrev opsN5 : List (HloOp τ sig (Elt F)) :=
  [ nullary main_cst_13 (constant S_ .f32 0x3FC00000#32),
    unary main_cst_13 main_v64 (broadcastInDim S32x32 ![] bcast_S_S32x32 : (⟨S_, .f32⟩ : BufTy).Contents (Elt F) → (⟨S32x32, .f32⟩ : BufTy).Contents (Elt F)),
    binary main_v64 main_v63 main_v65 (mulf : (⟨S32x32, .f32⟩ : BufTy).Contents (Elt F) → (⟨S32x32, .f32⟩ : BufTy).Contents (Elt F) → (⟨S32x32, .f32⟩ : BufTy).Contents (Elt F)),
    binary main_v63 main_v63 main_v66 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v66 main_v63 main_v67 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    nullary main_cst_14 (constant S_ .f32 0x3F000000#32),
    unary main_cst_14 main_v68 (broadcastInDim S32x32 ![] bcast_S_S32x32 : (⟨S_, .f32⟩ : BufTy).Contents (Elt F) → (⟨S32x32, .f32⟩ : BufTy).Contents (Elt F)),
    binary main_v68 main_v67 main_v69 (mulf : (⟨S32x32, .f32⟩ : BufTy).Contents (Elt F) → (⟨S32x32, .f32⟩ : BufTy).Contents (Elt F) → (⟨S32x32, .f32⟩ : BufTy).Contents (Elt F)),
    binary main_v69 main_v25 main_v70 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v65 main_v70 main_v71 (subf : (⟨S32x32, .f32⟩ : BufTy).Contents (Elt F) → (⟨S32x32, .f32⟩ : BufTy).Contents (Elt F) → (⟨S32x32, .f32⟩ : BufTy).Contents (Elt F)) ]

/-- The rescaling by the square root of the inverse trace. -/
abbrev opsS : List (HloOp τ sig (Elt F)) :=
  [ unary main_v23 main_v72 (Host.sqrt : (⟨S_, .f32⟩ : BufTy).Contents (Elt F) → (⟨S_, .f32⟩ : BufTy).Contents (Elt F)),
    unary main_v72 main_v73 (broadcastInDim S32x32 ![] bcast_S_S32x32 : (⟨S_, .f32⟩ : BufTy).Contents (Elt F) → (⟨S32x32, .f32⟩ : BufTy).Contents (Elt F)),
    binary main_v71 main_v73 main_v74 (mulf : (⟨S32x32, .f32⟩ : BufTy).Contents (Elt F) → (⟨S32x32, .f32⟩ : BufTy).Contents (Elt F) → (⟨S32x32, .f32⟩ : BufTy).Contents (Elt F)) ]

/-- The product, the way back from the group view, scale and shift. -/
abbrev opsO : List (HloOp τ sig (Elt F)) :=
  [ binary main_v74 main_v8 main_v75 ((fun l r => Host.dotGeneral dot_S32x32_S32x1605632_S32x1605632_1_0_0_1_n_n none l r) : (⟨S32x32, .f32⟩ : BufTy).Contents (Elt F) → (⟨S32x1605632, .f32⟩ : BufTy).Contents (Elt F) → (⟨S32x1605632, .f32⟩ : BufTy).Contents (Elt F)),
    reshape main_v75 main_v76 rfl shapeCasts_S32x1605632_S32x512x56x56,
    unary main_v76 main_v77 ((transpose S512x32x56x56 [1, 0, 2, 3] · transposes_S32x512x56x56_S512x32x56x56_1_0_2_3) : (⟨S32x512x56x56, .f32⟩ : BufTy).Contents (Elt F) → (⟨S512x32x56x56, .f32⟩ : BufTy).Contents (Elt F)),
    reshape main_v77 main_v78 rfl shapeCasts_S512x32x56x56_S64x256x56x56,
    unary main_arg1 main_v79 (broadcastInDim S64x256x56x56 ![0, 1, 2, 3] bcast_S1x256x1x1_S64x256x56x56_0_1_2_3 : (⟨S1x256x1x1, .f32⟩ : BufTy).Contents (Elt F) → (⟨S64x256x56x56, .f32⟩ : BufTy).Contents (Elt F)),
    binary main_v78 main_v79 main_v80 (mulf : (⟨S64x256x56x56, .f32⟩ : BufTy).Contents (Elt F) → (⟨S64x256x56x56, .f32⟩ : BufTy).Contents (Elt F) → (⟨S64x256x56x56, .f32⟩ : BufTy).Contents (Elt F)),
    unary main_arg2 main_v81 (broadcastInDim S64x256x56x56 ![0, 1, 2, 3] bcast_S1x256x1x1_S64x256x56x56_0_1_2_3 : (⟨S1x256x1x1, .f32⟩ : BufTy).Contents (Elt F) → (⟨S64x256x56x56, .f32⟩ : BufTy).Contents (Elt F)),
    binary main_v80 main_v81 main_v82 (addf : (⟨S64x256x56x56, .f32⟩ : BufTy).Contents (Elt F) → (⟨S64x256x56x56, .f32⟩ : BufTy).Contents (Elt F) → (⟨S64x256x56x56, .f32⟩ : BufTy).Contents (Elt F)) ]

/-- All 110 operations, in order. -/
abbrev ops : List (HloOp τ sig (Elt F)) :=
  [ reshape main_arg0 main_v0 rfl shapeCasts_S64x256x56x56_S512x32x56x56,
    unary main_v0 main_v1 ((transpose S32x512x56x56 [1, 0, 2, 3] · transposes_S512x32x56x56_S32x512x56x56_1_0_2_3) : (⟨S512x32x56x56, .f32⟩ : BufTy).Contents (Elt F) → (⟨S32x512x56x56, .f32⟩ : BufTy).Contents (Elt F)),
    reshape main_v1 main_v2 rfl shapeCasts_S32x512x56x56_S32x1605632,
    nullary main_cst (constant S_ .f32 0x00000000#32),
    binary main_v2 main_cst main_v3 ((fun x v => Host.reduceAdd x v reducesTo_S32x1605632_S32_d1 h_S_) : (⟨S32x1605632, .f32⟩ : BufTy).Contents (Elt F) → (⟨S_, .f32⟩ : BufTy).Contents (Elt F) → (⟨S32, .f32⟩ : BufTy).Contents (Elt F)),
    unary main_v3 main_v4 (broadcastInDim S32x1 ![0] bcast_S32_S32x1_0 : (⟨S32, .f32⟩ : BufTy).Contents (Elt F) → (⟨S32x1, .f32⟩ : BufTy).Contents (Elt F)),
    nullary main_cst_0 (constant S_ .f32 0x49C40000#32),
    unary main_cst_0 main_v5 (broadcastInDim S32x1 ![] bcast_S_S32x1 : (⟨S_, .f32⟩ : BufTy).Contents (Elt F) → (⟨S32x1, .f32⟩ : BufTy).Contents (Elt F)),
    binary main_v4 main_v5 main_v6 (Host.divf : (⟨S32x1, .f32⟩ : BufTy).Contents (Elt F) → (⟨S32x1, .f32⟩ : BufTy).Contents (Elt F) → (⟨S32x1, .f32⟩ : BufTy).Contents (Elt F)),
    unary main_v6 main_v7 (broadcastInDim S32x1605632 ![0, 1] bcast_S32x1_S32x1605632_0_1 : (⟨S32x1, .f32⟩ : BufTy).Contents (Elt F) → (⟨S32x1605632, .f32⟩ : BufTy).Contents (Elt F)),
    binary main_v2 main_v7 main_v8 (subf : (⟨S32x1605632, .f32⟩ : BufTy).Contents (Elt F) → (⟨S32x1605632, .f32⟩ : BufTy).Contents (Elt F) → (⟨S32x1605632, .f32⟩ : BufTy).Contents (Elt F)),
    unary main_v8 main_v9 ((transpose S1605632x32 [1, 0] · transposes_S32x1605632_S1605632x32_1_0) : (⟨S32x1605632, .f32⟩ : BufTy).Contents (Elt F) → (⟨S1605632x32, .f32⟩ : BufTy).Contents (Elt F)),
    binary main_v8 main_v9 main_v10 ((fun l r => Host.dotGeneral dot_S32x1605632_S1605632x32_S32x32_1_0_0_1_n_n none l r) : (⟨S32x1605632, .f32⟩ : BufTy).Contents (Elt F) → (⟨S1605632x32, .f32⟩ : BufTy).Contents (Elt F) → (⟨S32x32, .f32⟩ : BufTy).Contents (Elt F)),
    nullary main_cst_1 (constant S_ .f32 0x49C40000#32),
    unary main_cst_1 main_v11 (broadcastInDim S32x32 ![] bcast_S_S32x32 : (⟨S_, .f32⟩ : BufTy).Contents (Elt F) → (⟨S32x32, .f32⟩ : BufTy).Contents (Elt F)),
    binary main_v10 main_v11 main_v12 (Host.divf : (⟨S32x32, .f32⟩ : BufTy).Contents (Elt F) → (⟨S32x32, .f32⟩ : BufTy).Contents (Elt F) → (⟨S32x32, .f32⟩ : BufTy).Contents (Elt F)),
    nullary main_v13 (iotaInDim S32x32 32 0),
    nullary main_v14 (iotaInDim S32x32 32 1),
    nullary main_c (constantI S_ 32 0#32),
    unary main_c main_v15 (broadcastInDim S32x32 ![] bcast_S_S32x32 : (⟨S_, .i32⟩ : BufTy).Contents (Elt F) → (⟨S32x32, .i32⟩ : BufTy).Contents (Elt F)),
    binary main_v13 main_v15 main_v16 (addi : (⟨S32x32, .i32⟩ : BufTy).Contents (Elt F) → (⟨S32x32, .i32⟩ : BufTy).Contents (Elt F) → (⟨S32x32, .i32⟩ : BufTy).Contents (Elt F)),
    binary main_v16 main_v14 main_v17 (cmpi .eq : (⟨S32x32, .i32⟩ : BufTy).Contents (Elt F) → (⟨S32x32, .i32⟩ : BufTy).Contents (Elt F) → (⟨S32x32, .i1⟩ : BufTy).Contents (Elt F)),
    unary main_v17 main_v18 (uitofp .f32 : (⟨S32x32, .i1⟩ : BufTy).Contents (Elt F) → (⟨S32x32, .f32⟩ : BufTy).Contents (Elt F)),
    nullary main_cst_2 (constant S_ .f32 0x3727C5AC#32),
    unary main_cst_2 main_v19 (broadcastInDim S32x32 ![] bcast_S_S32x32 : (⟨S_, .f32⟩ : BufTy).Contents (Elt F) → (⟨S32x32, .f32⟩ : BufTy).Contents (Elt F)),
    binary main_v19 main_v18 main_v20 (mulf : (⟨S32x32, .f32⟩ : BufTy).Contents (Elt F) → (⟨S32x32, .f32⟩ : BufTy).Contents (Elt F) → (⟨S32x32, .f32⟩ : BufTy).Contents (Elt F)),
    binary main_v12 main_v20 main_v21 (addf : (⟨S32x32, .f32⟩ : BufTy).Contents (Elt F) → (⟨S32x32, .f32⟩ : BufTy).Contents (Elt F) → (⟨S32x32, .f32⟩ : BufTy).Contents (Elt F)),
    TRef.nullary main_call0.v0 (iotaInDim S32x32 32 0),
    TRef.nullary main_call0.v1 (iotaInDim S32x32 32 1),
    TRef.nullary main_call0.c (constantI S_ 32 0#32),
    TRef.unary main_call0.c main_call0.v2 (broadcastInDim S32x32 ![] bcast_S_S32x32),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S32x32 ![] bcast_S_S32x32),
    TRef.ternary main_call0.v4 (.of main_v21) main_call0.v5 main_call0.call0.v0 select,
    TRef.nullary main_call0.cst_0 (constant S_ .f32 0x00000000#32),
    TRef.binary main_call0.call0.v0 main_call0.cst_0 main_call0.v7 (fun x v => Host.reduceAdd x v reducesTo_S32x32_S_d0_1 h_S_),
    nullary main_cst_3 (constant S_ .f32 0x3F800000#32),
    binary main_cst_3 main_v22 main_v23 (Host.divf : (⟨S_, .f32⟩ : BufTy).Contents (Elt F) → (⟨S_, .f32⟩ : BufTy).Contents (Elt F) → (⟨S_, .f32⟩ : BufTy).Contents (Elt F)),
    unary main_v23 main_v24 (broadcastInDim S32x32 ![] bcast_S_S32x32 : (⟨S_, .f32⟩ : BufTy).Contents (Elt F) → (⟨S32x32, .f32⟩ : BufTy).Contents (Elt F)),
    binary main_v21 main_v24 main_v25 (mulf : (⟨S32x32, .f32⟩ : BufTy).Contents (Elt F) → (⟨S32x32, .f32⟩ : BufTy).Contents (Elt F) → (⟨S32x32, .f32⟩ : BufTy).Contents (Elt F)),
    nullary main_v26 (iotaInDim S32x32 32 0),
    nullary main_v27 (iotaInDim S32x32 32 1),
    nullary main_c_4 (constantI S_ 32 0#32),
    unary main_c_4 main_v28 (broadcastInDim S32x32 ![] bcast_S_S32x32 : (⟨S_, .i32⟩ : BufTy).Contents (Elt F) → (⟨S32x32, .i32⟩ : BufTy).Contents (Elt F)),
    binary main_v26 main_v28 main_v29 (addi : (⟨S32x32, .i32⟩ : BufTy).Contents (Elt F) → (⟨S32x32, .i32⟩ : BufTy).Contents (Elt F) → (⟨S32x32, .i32⟩ : BufTy).Contents (Elt F)),
    binary main_v29 main_v27 main_v30 (cmpi .eq : (⟨S32x32, .i32⟩ : BufTy).Contents (Elt F) → (⟨S32x32, .i32⟩ : BufTy).Contents (Elt F) → (⟨S32x32, .i1⟩ : BufTy).Contents (Elt F)),
    unary main_v30 main_v31 (uitofp .f32 : (⟨S32x32, .i1⟩ : BufTy).Contents (Elt F) → (⟨S32x32, .f32⟩ : BufTy).Contents (Elt F)),
    nullary main_cst_5 (constant S_ .f32 0x3FC00000#32),
    unary main_cst_5 main_v32 (broadcastInDim S32x32 ![] bcast_S_S32x32 : (⟨S_, .f32⟩ : BufTy).Contents (Elt F) → (⟨S32x32, .f32⟩ : BufTy).Contents (Elt F)),
    binary main_v32 main_v31 main_v33 (mulf : (⟨S32x32, .f32⟩ : BufTy).Contents (Elt F) → (⟨S32x32, .f32⟩ : BufTy).Contents (Elt F) → (⟨S32x32, .f32⟩ : BufTy).Contents (Elt F)),
    binary main_v31 main_v31 main_v34 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v34 main_v31 main_v35 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    nullary main_cst_6 (constant S_ .f32 0x3F000000#32),
    unary main_cst_6 main_v36 (broadcastInDim S32x32 ![] bcast_S_S32x32 : (⟨S_, .f32⟩ : BufTy).Contents (Elt F) → (⟨S32x32, .f32⟩ : BufTy).Contents (Elt F)),
    binary main_v36 main_v35 main_v37 (mulf : (⟨S32x32, .f32⟩ : BufTy).Contents (Elt F) → (⟨S32x32, .f32⟩ : BufTy).Contents (Elt F) → (⟨S32x32, .f32⟩ : BufTy).Contents (Elt F)),
    binary main_v37 main_v25 main_v38 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v33 main_v38 main_v39 (subf : (⟨S32x32, .f32⟩ : BufTy).Contents (Elt F) → (⟨S32x32, .f32⟩ : BufTy).Contents (Elt F) → (⟨S32x32, .f32⟩ : BufTy).Contents (Elt F)),
    nullary main_cst_7 (constant S_ .f32 0x3FC00000#32),
    unary main_cst_7 main_v40 (broadcastInDim S32x32 ![] bcast_S_S32x32 : (⟨S_, .f32⟩ : BufTy).Contents (Elt F) → (⟨S32x32, .f32⟩ : BufTy).Contents (Elt F)),
    binary main_v40 main_v39 main_v41 (mulf : (⟨S32x32, .f32⟩ : BufTy).Contents (Elt F) → (⟨S32x32, .f32⟩ : BufTy).Contents (Elt F) → (⟨S32x32, .f32⟩ : BufTy).Contents (Elt F)),
    binary main_v39 main_v39 main_v42 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v42 main_v39 main_v43 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    nullary main_cst_8 (constant S_ .f32 0x3F000000#32),
    unary main_cst_8 main_v44 (broadcastInDim S32x32 ![] bcast_S_S32x32 : (⟨S_, .f32⟩ : BufTy).Contents (Elt F) → (⟨S32x32, .f32⟩ : BufTy).Contents (Elt F)),
    binary main_v44 main_v43 main_v45 (mulf : (⟨S32x32, .f32⟩ : BufTy).Contents (Elt F) → (⟨S32x32, .f32⟩ : BufTy).Contents (Elt F) → (⟨S32x32, .f32⟩ : BufTy).Contents (Elt F)),
    binary main_v45 main_v25 main_v46 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v41 main_v46 main_v47 (subf : (⟨S32x32, .f32⟩ : BufTy).Contents (Elt F) → (⟨S32x32, .f32⟩ : BufTy).Contents (Elt F) → (⟨S32x32, .f32⟩ : BufTy).Contents (Elt F)),
    nullary main_cst_9 (constant S_ .f32 0x3FC00000#32),
    unary main_cst_9 main_v48 (broadcastInDim S32x32 ![] bcast_S_S32x32 : (⟨S_, .f32⟩ : BufTy).Contents (Elt F) → (⟨S32x32, .f32⟩ : BufTy).Contents (Elt F)),
    binary main_v48 main_v47 main_v49 (mulf : (⟨S32x32, .f32⟩ : BufTy).Contents (Elt F) → (⟨S32x32, .f32⟩ : BufTy).Contents (Elt F) → (⟨S32x32, .f32⟩ : BufTy).Contents (Elt F)),
    binary main_v47 main_v47 main_v50 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v50 main_v47 main_v51 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    nullary main_cst_10 (constant S_ .f32 0x3F000000#32),
    unary main_cst_10 main_v52 (broadcastInDim S32x32 ![] bcast_S_S32x32 : (⟨S_, .f32⟩ : BufTy).Contents (Elt F) → (⟨S32x32, .f32⟩ : BufTy).Contents (Elt F)),
    binary main_v52 main_v51 main_v53 (mulf : (⟨S32x32, .f32⟩ : BufTy).Contents (Elt F) → (⟨S32x32, .f32⟩ : BufTy).Contents (Elt F) → (⟨S32x32, .f32⟩ : BufTy).Contents (Elt F)),
    binary main_v53 main_v25 main_v54 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v49 main_v54 main_v55 (subf : (⟨S32x32, .f32⟩ : BufTy).Contents (Elt F) → (⟨S32x32, .f32⟩ : BufTy).Contents (Elt F) → (⟨S32x32, .f32⟩ : BufTy).Contents (Elt F)),
    nullary main_cst_11 (constant S_ .f32 0x3FC00000#32),
    unary main_cst_11 main_v56 (broadcastInDim S32x32 ![] bcast_S_S32x32 : (⟨S_, .f32⟩ : BufTy).Contents (Elt F) → (⟨S32x32, .f32⟩ : BufTy).Contents (Elt F)),
    binary main_v56 main_v55 main_v57 (mulf : (⟨S32x32, .f32⟩ : BufTy).Contents (Elt F) → (⟨S32x32, .f32⟩ : BufTy).Contents (Elt F) → (⟨S32x32, .f32⟩ : BufTy).Contents (Elt F)),
    binary main_v55 main_v55 main_v58 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v58 main_v55 main_v59 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    nullary main_cst_12 (constant S_ .f32 0x3F000000#32),
    unary main_cst_12 main_v60 (broadcastInDim S32x32 ![] bcast_S_S32x32 : (⟨S_, .f32⟩ : BufTy).Contents (Elt F) → (⟨S32x32, .f32⟩ : BufTy).Contents (Elt F)),
    binary main_v60 main_v59 main_v61 (mulf : (⟨S32x32, .f32⟩ : BufTy).Contents (Elt F) → (⟨S32x32, .f32⟩ : BufTy).Contents (Elt F) → (⟨S32x32, .f32⟩ : BufTy).Contents (Elt F)),
    binary main_v61 main_v25 main_v62 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v57 main_v62 main_v63 (subf : (⟨S32x32, .f32⟩ : BufTy).Contents (Elt F) → (⟨S32x32, .f32⟩ : BufTy).Contents (Elt F) → (⟨S32x32, .f32⟩ : BufTy).Contents (Elt F)),
    nullary main_cst_13 (constant S_ .f32 0x3FC00000#32),
    unary main_cst_13 main_v64 (broadcastInDim S32x32 ![] bcast_S_S32x32 : (⟨S_, .f32⟩ : BufTy).Contents (Elt F) → (⟨S32x32, .f32⟩ : BufTy).Contents (Elt F)),
    binary main_v64 main_v63 main_v65 (mulf : (⟨S32x32, .f32⟩ : BufTy).Contents (Elt F) → (⟨S32x32, .f32⟩ : BufTy).Contents (Elt F) → (⟨S32x32, .f32⟩ : BufTy).Contents (Elt F)),
    binary main_v63 main_v63 main_v66 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v66 main_v63 main_v67 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    nullary main_cst_14 (constant S_ .f32 0x3F000000#32),
    unary main_cst_14 main_v68 (broadcastInDim S32x32 ![] bcast_S_S32x32 : (⟨S_, .f32⟩ : BufTy).Contents (Elt F) → (⟨S32x32, .f32⟩ : BufTy).Contents (Elt F)),
    binary main_v68 main_v67 main_v69 (mulf : (⟨S32x32, .f32⟩ : BufTy).Contents (Elt F) → (⟨S32x32, .f32⟩ : BufTy).Contents (Elt F) → (⟨S32x32, .f32⟩ : BufTy).Contents (Elt F)),
    binary main_v69 main_v25 main_v70 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F)),
    binary main_v65 main_v70 main_v71 (subf : (⟨S32x32, .f32⟩ : BufTy).Contents (Elt F) → (⟨S32x32, .f32⟩ : BufTy).Contents (Elt F) → (⟨S32x32, .f32⟩ : BufTy).Contents (Elt F)),
    unary main_v23 main_v72 (Host.sqrt : (⟨S_, .f32⟩ : BufTy).Contents (Elt F) → (⟨S_, .f32⟩ : BufTy).Contents (Elt F)),
    unary main_v72 main_v73 (broadcastInDim S32x32 ![] bcast_S_S32x32 : (⟨S_, .f32⟩ : BufTy).Contents (Elt F) → (⟨S32x32, .f32⟩ : BufTy).Contents (Elt F)),
    binary main_v71 main_v73 main_v74 (mulf : (⟨S32x32, .f32⟩ : BufTy).Contents (Elt F) → (⟨S32x32, .f32⟩ : BufTy).Contents (Elt F) → (⟨S32x32, .f32⟩ : BufTy).Contents (Elt F)),
    binary main_v74 main_v8 main_v75 ((fun l r => Host.dotGeneral dot_S32x32_S32x1605632_S32x1605632_1_0_0_1_n_n none l r) : (⟨S32x32, .f32⟩ : BufTy).Contents (Elt F) → (⟨S32x1605632, .f32⟩ : BufTy).Contents (Elt F) → (⟨S32x1605632, .f32⟩ : BufTy).Contents (Elt F)),
    reshape main_v75 main_v76 rfl shapeCasts_S32x1605632_S32x512x56x56,
    unary main_v76 main_v77 ((transpose S512x32x56x56 [1, 0, 2, 3] · transposes_S32x512x56x56_S512x32x56x56_1_0_2_3) : (⟨S32x512x56x56, .f32⟩ : BufTy).Contents (Elt F) → (⟨S512x32x56x56, .f32⟩ : BufTy).Contents (Elt F)),
    reshape main_v77 main_v78 rfl shapeCasts_S512x32x56x56_S64x256x56x56,
    unary main_arg1 main_v79 (broadcastInDim S64x256x56x56 ![0, 1, 2, 3] bcast_S1x256x1x1_S64x256x56x56_0_1_2_3 : (⟨S1x256x1x1, .f32⟩ : BufTy).Contents (Elt F) → (⟨S64x256x56x56, .f32⟩ : BufTy).Contents (Elt F)),
    binary main_v78 main_v79 main_v80 (mulf : (⟨S64x256x56x56, .f32⟩ : BufTy).Contents (Elt F) → (⟨S64x256x56x56, .f32⟩ : BufTy).Contents (Elt F) → (⟨S64x256x56x56, .f32⟩ : BufTy).Contents (Elt F)),
    unary main_arg2 main_v81 (broadcastInDim S64x256x56x56 ![0, 1, 2, 3] bcast_S1x256x1x1_S64x256x56x56_0_1_2_3 : (⟨S1x256x1x1, .f32⟩ : BufTy).Contents (Elt F) → (⟨S64x256x56x56, .f32⟩ : BufTy).Contents (Elt F)),
    binary main_v80 main_v81 main_v82 (addf : (⟨S64x256x56x56, .f32⟩ : BufTy).Contents (Elt F) → (⟨S64x256x56x56, .f32⟩ : BufTy).Contents (Elt F) → (⟨S64x256x56x56, .f32⟩ : BufTy).Contents (Elt F)) ]

/-- The whole list is the stretches one after the other. -/
theorem ops_eq : (ops : List (HloOp τ sig (Elt F))) = opsA ++ (opsB ++ (opsC ++ (opsD ++ (opsE ++ (opsI ++ (opsN1 ++ (opsN2 ++ (opsN3 ++ (opsN4 ++ (opsN5 ++ (opsS ++ (opsO)))))))))))) := rfl

-- one hundred and ten binds re-associated: the rewrite under the chain recurses once per statement
set_option maxRecDepth 4096 in
set_option maxHeartbeats 1600000 in
/-- @main is that straight line: the two windows and the callee's definition unfolded at the call, both sides are one
    chain of steps once sequencing is reassociated. -/
theorem main_eq (c : Dev nD) : main (F := F) c = seq ops := by
  simp only [main, main_part0, main_part1, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., binary_bufs_sub .., reshape_bufs_sub .., unary_bufs_sub .., reshape_bufs_sub .., unary_bufs_sub .., binary_bufs_sub .., unary_bufs_sub .., binary_bufs_sub ..⟩

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Cert.ReferenceIdeal.RefRun

end
-- ==== Proof.RefRunVals.lean ====
/-
  The reference's operation list read stretch by stretch: the buffer contents after the first k stretches, and what
  they hold at the buffers still to be read, as the named stages of the computation applied to the arguments.
-/
import proofs.«167353_j44676249813412_2_alg».proof.Proof.RefRunStages
import proofs.«167353_j44676249813412_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The contents before the first stretch. -/
def val0 (V : Valuation τ sig (Elt Ideal)) : Valuation τ sig (Elt Ideal) := V
theorem val0_main_arg0 (V : Valuation τ sig (Elt Ideal)) : val0 V (Proc.devRef .tc main_arg0) = V (Proc.devRef .tc main_arg0) := rfl
theorem val0_main_arg1 (V : Valuation τ sig (Elt Ideal)) : val0 V (Proc.devRef .tc main_arg1) = V (Proc.devRef .tc main_arg1) := rfl
theorem val0_main_arg2 (V : Valuation τ sig (Elt Ideal)) : val0 V (Proc.devRef .tc main_arg2) = V (Proc.devRef .tc main_arg2) := rfl

/-- The contents after the first 1 stretch. -/
def val1 (V : Valuation τ sig (Elt Ideal)) : Valuation τ sig (Elt Ideal) := after (opsA (F := Ideal)) (val0 V)
theorem val1_main_v2 (V : Valuation τ sig (Elt Ideal)) : val1 V (Proc.devRef .tc main_v2) = xg (V (Proc.devRef .tc main_arg0)) := by
  unfold val1
  after_results_simp
  rw [val0_main_arg0]
  all_goals rfl
theorem val1_main_arg0 (V : Valuation τ sig (Elt Ideal)) : val1 V (Proc.devRef .tc main_arg0) = V (Proc.devRef .tc main_arg0) := by
  unfold val1
  after_results_simp
  exact val0_main_arg0 V
theorem val1_main_arg1 (V : Valuation τ sig (Elt Ideal)) : val1 V (Proc.devRef .tc main_arg1) = V (Proc.devRef .tc main_arg1) := by
  unfold val1
  after_results_simp
  exact val0_main_arg1 V
theorem val1_main_arg2 (V : Valuation τ sig (Elt Ideal)) : val1 V (Proc.devRef .tc main_arg2) = V (Proc.devRef .tc main_arg2) := by
  unfold val1
  after_results_simp
  exact val0_main_arg2 V

/-- The contents after the first 2 stretches. -/
def val2 (V : Valuation τ sig (Elt Ideal)) : Valuation τ sig (Elt Ideal) := after (opsB (F := Ideal)) (val1 V)
theorem val2_main_v6 (V : Valuation τ sig (Elt Ideal)) : val2 V (Proc.devRef .tc main_v6) = meanR (V (Proc.devRef .tc main_arg0)) := by
  unfold val2
  after_results_simp
  rw [val1_main_v2]
  all_goals rfl
theorem val2_main_arg0 (V : Valuation τ sig (Elt Ideal)) : val2 V (Proc.devRef .tc main_arg0) = V (Proc.devRef .tc main_arg0) := by
  unfold val2
  after_results_simp
  exact val1_main_arg0 V
theorem val2_main_arg1 (V : Valuation τ sig (Elt Ideal)) : val2 V (Proc.devRef .tc main_arg1) = V (Proc.devRef .tc main_arg1) := by
  unfold val2
  after_results_simp
  exact val1_main_arg1 V
theorem val2_main_arg2 (V : Valuation τ sig (Elt Ideal)) : val2 V (Proc.devRef .tc main_arg2) = V (Proc.devRef .tc main_arg2) := by
  unfold val2
  after_results_simp
  exact val1_main_arg2 V
theorem val2_main_v2 (V : Valuation τ sig (Elt Ideal)) : val2 V (Proc.devRef .tc main_v2) = xg (V (Proc.devRef .tc main_arg0)) := by
  unfold val2
  after_results_simp
  exact val1_main_v2 V

/-- The contents after the first 3 stretches. -/
def val3 (V : Valuation τ sig (Elt Ideal)) : Valuation τ sig (Elt Ideal) := after (opsC (F := Ideal)) (val2 V)
theorem val3_main_v8 (V : Valuation τ sig (Elt Ideal)) : val3 V (Proc.devRef .tc main_v8) = xmR (V (Proc.devRef .tc main_arg0)) := by
  unfold val3
  after_results_simp
  rw [val2_main_v2, val2_main_v6]
  all_goals rfl
theorem val3_main_arg0 (V : Valuation τ sig (Elt Ideal)) : val3 V (Proc.devRef .tc main_arg0) = V (Proc.devRef .tc main_arg0) := by
  unfold val3
  after_results_simp
  exact val2_main_arg0 V
theorem val3_main_arg1 (V : Valuation τ sig (Elt Ideal)) : val3 V (Proc.devRef .tc main_arg1) = V (Proc.devRef .tc main_arg1) := by
  unfold val3
  after_results_simp
  exact val2_main_arg1 V
theorem val3_main_arg2 (V : Valuation τ sig (Elt Ideal)) : val3 V (Proc.devRef .tc main_arg2) = V (Proc.devRef .tc main_arg2) := by
  unfold val3
  after_results_simp
  exact val2_main_arg2 V

/-- The contents after the first 4 stretches. -/
def val4 (V : Valuation τ sig (Elt Ideal)) : Valuation τ sig (Elt Ideal) := after (opsD (F := Ideal)) (val3 V)
theorem val4_main_v21 (V : Valuation τ sig (Elt Ideal)) : val4 V (Proc.devRef .tc main_v21) = sigmaR (V (Proc.devRef .tc main_arg0)) := by
  unfold val4
  after_results_simp
  rw [val3_main_v8]
  all_goals rfl
theorem val4_main_arg0 (V : Valuation τ sig (Elt Ideal)) : val4 V (Proc.devRef .tc main_arg0) = V (Proc.devRef .tc main_arg0) := by
  unfold val4
  after_results_simp
  exact val3_main_arg0 V
theorem val4_main_arg1 (V : Valuation τ sig (Elt Ideal)) : val4 V (Proc.devRef .tc main_arg1) = V (Proc.devRef .tc main_arg1) := by
  unfold val4
  after_results_simp
  exact val3_main_arg1 V
theorem val4_main_arg2 (V : Valuation τ sig (Elt Ideal)) : val4 V (Proc.devRef .tc main_arg2) = V (Proc.devRef .tc main_arg2) := by
  unfold val4
  after_results_simp
  exact val3_main_arg2 V
theorem val4_main_v8 (V : Valuation τ sig (Elt Ideal)) : val4 V (Proc.devRef .tc main_v8) = xmR (V (Proc.devRef .tc main_arg0)) := by
  unfold val4
  after_results_simp
  exact val3_main_v8 V

/-- The contents after the first 5 stretches. -/
def val5 (V : Valuation τ sig (Elt Ideal)) : Valuation τ sig (Elt Ideal) := after (opsE (F := Ideal)) (val4 V)
theorem val5_main_v23 (V : Valuation τ sig (Elt Ideal)) : val5 V (Proc.devRef .tc main_v23) = tinvOf (sigmaR (V (Proc.devRef .tc main_arg0))) := by
  unfold val5
  after_results_simp
  rw [val4_main_v21]
  all_goals rfl
theorem val5_main_v25 (V : Valuation τ sig (Elt Ideal)) : val5 V (Proc.devRef .tc main_v25) = sigmaN (sigmaR (V (Proc.devRef .tc main_arg0))) := by
  unfold val5
  after_results_simp
  rw [val4_main_v21]
  all_goals rfl
theorem val5_main_arg0 (V : Valuation τ sig (Elt Ideal)) : val5 V (Proc.devRef .tc main_arg0) = V (Proc.devRef .tc main_arg0) := by
  unfold val5
  after_results_simp
  exact val4_main_arg0 V
theorem val5_main_arg1 (V : Valuation τ sig (Elt Ideal)) : val5 V (Proc.devRef .tc main_arg1) = V (Proc.devRef .tc main_arg1) := by
  unfold val5
  after_results_simp
  exact val4_main_arg1 V
theorem val5_main_arg2 (V : Valuation τ sig (Elt Ideal)) : val5 V (Proc.devRef .tc main_arg2) = V (Proc.devRef .tc main_arg2) := by
  unfold val5
  after_results_simp
  exact val4_main_arg2 V
theorem val5_main_v8 (V : Valuation τ sig (Elt Ideal)) : val5 V (Proc.devRef .tc main_v8) = xmR (V (Proc.devRef .tc main_arg0)) := by
  unfold val5
  after_results_simp
  exact val4_main_v8 V

/-- The contents after the first 6 stretches. -/
def val6 (V : Valuation τ sig (Elt Ideal)) : Valuation τ sig (Elt Ideal) := after (opsI (F := Ideal)) (val5 V)
theorem val6_main_v31 (V : Valuation τ sig (Elt Ideal)) : val6 V (Proc.devRef .tc main_v31) = eye := by
  unfold val6
  after_results_simp
  all_goals rfl
theorem val6_main_arg0 (V : Valuation τ sig (Elt Ideal)) : val6 V (Proc.devRef .tc main_arg0) = V (Proc.devRef .tc main_arg0) := by
  unfold val6
  after_results_simp
  exact val5_main_arg0 V
theorem val6_main_arg1 (V : Valuation τ sig (Elt Ideal)) : val6 V (Proc.devRef .tc main_arg1) = V (Proc.devRef .tc main_arg1) := by
  unfold val6
  after_results_simp
  exact val5_main_arg1 V
theorem val6_main_arg2 (V : Valuation τ sig (Elt Ideal)) : val6 V (Proc.devRef .tc main_arg2) = V (Proc.devRef .tc main_arg2) := by
  unfold val6
  after_results_simp
  exact val5_main_arg2 V
theorem val6_main_v25 (V : Valuation τ sig (Elt Ideal)) : val6 V (Proc.devRef .tc main_v25) = sigmaN (sigmaR (V (Proc.devRef .tc main_arg0))) := by
  unfold val6
  after_results_simp
  exact val5_main_v25 V
theorem val6_main_v23 (V : Valuation τ sig (Elt Ideal)) : val6 V (Proc.devRef .tc main_v23) = tinvOf (sigmaR (V (Proc.devRef .tc main_arg0))) := by
  unfold val6
  after_results_simp
  exact val5_main_v23 V
theorem val6_main_v8 (V : Valuation τ sig (Elt Ideal)) : val6 V (Proc.devRef .tc main_v8) = xmR (V (Proc.devRef .tc main_arg0)) := by
  unfold val6
  after_results_simp
  exact val5_main_v8 V

/-- The contents after the first 7 stretches. -/
def val7 (V : Valuation τ sig (Elt Ideal)) : Valuation τ sig (Elt Ideal) := after (opsN1 (F := Ideal)) (val6 V)
theorem val7_main_v39 (V : Valuation τ sig (Elt Ideal)) : val7 V (Proc.devRef .tc main_v39) = (nsStep eye (sigmaN (sigmaR (V (Proc.devRef .tc main_arg0))))) := by
  unfold val7
  after_results_simp
  rw [val6_main_v31, val6_main_v25]
  all_goals rfl
theorem val7_main_arg0 (V : Valuation τ sig (Elt Ideal)) : val7 V (Proc.devRef .tc main_arg0) = V (Proc.devRef .tc main_arg0) := by
  unfold val7
  after_results_simp
  exact val6_main_arg0 V
theorem val7_main_arg1 (V : Valuation τ sig (Elt Ideal)) : val7 V (Proc.devRef .tc main_arg1) = V (Proc.devRef .tc main_arg1) := by
  unfold val7
  after_results_simp
  exact val6_main_arg1 V
theorem val7_main_arg2 (V : Valuation τ sig (Elt Ideal)) : val7 V (Proc.devRef .tc main_arg2) = V (Proc.devRef .tc main_arg2) := by
  unfold val7
  after_results_simp
  exact val6_main_arg2 V
theorem val7_main_v25 (V : Valuation τ sig (Elt Ideal)) : val7 V (Proc.devRef .tc main_v25) = sigmaN (sigmaR (V (Proc.devRef .tc main_arg0))) := by
  unfold val7
  after_results_simp
  exact val6_main_v25 V
theorem val7_main_v23 (V : Valuation τ sig (Elt Ideal)) : val7 V (Proc.devRef .tc main_v23) = tinvOf (sigmaR (V (Proc.devRef .tc main_arg0))) := by
  unfold val7
  after_results_simp
  exact val6_main_v23 V
theorem val7_main_v8 (V : Valuation τ sig (Elt Ideal)) : val7 V (Proc.devRef .tc main_v8) = xmR (V (Proc.devRef .tc main_arg0)) := by
  unfold val7
  after_results_simp
  exact val6_main_v8 V

/-- The contents after the first 8 stretches. -/
def val8 (V : Valuation τ sig (Elt Ideal)) : Valuation τ sig (Elt Ideal) := after (opsN2 (F := Ideal)) (val7 V)
theorem val8_main_v47 (V : Valuation τ sig (Elt Ideal)) : val8 V (Proc.devRef .tc main_v47) = (nsStep (nsStep eye (sigmaN (sigmaR (V (Proc.devRef .tc main_arg0))))) (sigmaN (sigmaR (V (Proc.devRef .tc main_arg0))))) := by
  unfold val8
  after_results_simp
  rw [val7_main_v39, val7_main_v25]
  all_goals rfl
theorem val8_main_arg0 (V : Valuation τ sig (Elt Ideal)) : val8 V (Proc.devRef .tc main_arg0) = V (Proc.devRef .tc main_arg0) := by
  unfold val8
  after_results_simp
  exact val7_main_arg0 V
theorem val8_main_arg1 (V : Valuation τ sig (Elt Ideal)) : val8 V (Proc.devRef .tc main_arg1) = V (Proc.devRef .tc main_arg1) := by
  unfold val8
  after_results_simp
  exact val7_main_arg1 V
theorem val8_main_arg2 (V : Valuation τ sig (Elt Ideal)) : val8 V (Proc.devRef .tc main_arg2) = V (Proc.devRef .tc main_arg2) := by
  unfold val8
  after_results_simp
  exact val7_main_arg2 V
theorem val8_main_v25 (V : Valuation τ sig (Elt Ideal)) : val8 V (Proc.devRef .tc main_v25) = sigmaN (sigmaR (V (Proc.devRef .tc main_arg0))) := by
  unfold val8
  after_results_simp
  exact val7_main_v25 V
theorem val8_main_v23 (V : Valuation τ sig (Elt Ideal)) : val8 V (Proc.devRef .tc main_v23) = tinvOf (sigmaR (V (Proc.devRef .tc main_arg0))) := by
  unfold val8
  after_results_simp
  exact val7_main_v23 V
theorem val8_main_v8 (V : Valuation τ sig (Elt Ideal)) : val8 V (Proc.devRef .tc main_v8) = xmR (V (Proc.devRef .tc main_arg0)) := by
  unfold val8
  after_results_simp
  exact val7_main_v8 V

/-- The contents after the first 9 stretches. -/
def val9 (V : Valuation τ sig (Elt Ideal)) : Valuation τ sig (Elt Ideal) := after (opsN3 (F := Ideal)) (val8 V)
theorem val9_main_v55 (V : Valuation τ sig (Elt Ideal)) : val9 V (Proc.devRef .tc main_v55) = (nsStep (nsStep (nsStep eye (sigmaN (sigmaR (V (Proc.devRef .tc main_arg0))))) (sigmaN (sigmaR (V (Proc.devRef .tc main_arg0))))) (sigmaN (sigmaR (V (Proc.devRef .tc main_arg0))))) := by
  unfold val9
  after_results_simp
  rw [val8_main_v47, val8_main_v25]
  all_goals rfl
theorem val9_main_arg0 (V : Valuation τ sig (Elt Ideal)) : val9 V (Proc.devRef .tc main_arg0) = V (Proc.devRef .tc main_arg0) := by
  unfold val9
  after_results_simp
  exact val8_main_arg0 V
theorem val9_main_arg1 (V : Valuation τ sig (Elt Ideal)) : val9 V (Proc.devRef .tc main_arg1) = V (Proc.devRef .tc main_arg1) := by
  unfold val9
  after_results_simp
  exact val8_main_arg1 V
theorem val9_main_arg2 (V : Valuation τ sig (Elt Ideal)) : val9 V (Proc.devRef .tc main_arg2) = V (Proc.devRef .tc main_arg2) := by
  unfold val9
  after_results_simp
  exact val8_main_arg2 V
theorem val9_main_v25 (V : Valuation τ sig (Elt Ideal)) : val9 V (Proc.devRef .tc main_v25) = sigmaN (sigmaR (V (Proc.devRef .tc main_arg0))) := by
  unfold val9
  after_results_simp
  exact val8_main_v25 V
theorem val9_main_v23 (V : Valuation τ sig (Elt Ideal)) : val9 V (Proc.devRef .tc main_v23) = tinvOf (sigmaR (V (Proc.devRef .tc main_arg0))) := by
  unfold val9
  after_results_simp
  exact val8_main_v23 V
theorem val9_main_v8 (V : Valuation τ sig (Elt Ideal)) : val9 V (Proc.devRef .tc main_v8) = xmR (V (Proc.devRef .tc main_arg0)) := by
  unfold val9
  after_results_simp
  exact val8_main_v8 V

/-- The contents after the first 10 stretches. -/
def val10 (V : Valuation τ sig (Elt Ideal)) : Valuation τ sig (Elt Ideal) := after (opsN4 (F := Ideal)) (val9 V)
theorem val10_main_v63 (V : Valuation τ sig (Elt Ideal)) : val10 V (Proc.devRef .tc main_v63) = (nsStep (nsStep (nsStep (nsStep eye (sigmaN (sigmaR (V (Proc.devRef .tc main_arg0))))) (sigmaN (sigmaR (V (Proc.devRef .tc main_arg0))))) (sigmaN (sigmaR (V (Proc.devRef .tc main_arg0))))) (sigmaN (sigmaR (V (Proc.devRef .tc main_arg0))))) := by
  unfold val10
  after_results_simp
  rw [val9_main_v55, val9_main_v25]
  all_goals rfl
theorem val10_main_arg0 (V : Valuation τ sig (Elt Ideal)) : val10 V (Proc.devRef .tc main_arg0) = V (Proc.devRef .tc main_arg0) := by
  unfold val10
  after_results_simp
  exact val9_main_arg0 V
theorem val10_main_arg1 (V : Valuation τ sig (Elt Ideal)) : val10 V (Proc.devRef .tc main_arg1) = V (Proc.devRef .tc main_arg1) := by
  unfold val10
  after_results_simp
  exact val9_main_arg1 V
theorem val10_main_arg2 (V : Valuation τ sig (Elt Ideal)) : val10 V (Proc.devRef .tc main_arg2) = V (Proc.devRef .tc main_arg2) := by
  unfold val10
  after_results_simp
  exact val9_main_arg2 V
theorem val10_main_v25 (V : Valuation τ sig (Elt Ideal)) : val10 V (Proc.devRef .tc main_v25) = sigmaN (sigmaR (V (Proc.devRef .tc main_arg0))) := by
  unfold val10
  after_results_simp
  exact val9_main_v25 V
theorem val10_main_v23 (V : Valuation τ sig (Elt Ideal)) : val10 V (Proc.devRef .tc main_v23) = tinvOf (sigmaR (V (Proc.devRef .tc main_arg0))) := by
  unfold val10
  after_results_simp
  exact val9_main_v23 V
theorem val10_main_v8 (V : Valuation τ sig (Elt Ideal)) : val10 V (Proc.devRef .tc main_v8) = xmR (V (Proc.devRef .tc main_arg0)) := by
  unfold val10
  after_results_simp
  exact val9_main_v8 V

/-- The contents after the first 11 stretches. -/
def val11 (V : Valuation τ sig (Elt Ideal)) : Valuation τ sig (Elt Ideal) := after (opsN5 (F := Ideal)) (val10 V)
theorem val11_main_v71 (V : Valuation τ sig (Elt Ideal)) : val11 V (Proc.devRef .tc main_v71) = (nsStep (nsStep (nsStep (nsStep (nsStep eye (sigmaN (sigmaR (V (Proc.devRef .tc main_arg0))))) (sigmaN (sigmaR (V (Proc.devRef .tc main_arg0))))) (sigmaN (sigmaR (V (Proc.devRef .tc main_arg0))))) (sigmaN (sigmaR (V (Proc.devRef .tc main_arg0))))) (sigmaN (sigmaR (V (Proc.devRef .tc main_arg0))))) := by
  unfold val11
  after_results_simp
  rw [val10_main_v63, val10_main_v25]
  all_goals rfl
theorem val11_main_arg0 (V : Valuation τ sig (Elt Ideal)) : val11 V (Proc.devRef .tc main_arg0) = V (Proc.devRef .tc main_arg0) := by
  unfold val11
  after_results_simp
  exact val10_main_arg0 V
theorem val11_main_arg1 (V : Valuation τ sig (Elt Ideal)) : val11 V (Proc.devRef .tc main_arg1) = V (Proc.devRef .tc main_arg1) := by
  unfold val11
  after_results_simp
  exact val10_main_arg1 V
theorem val11_main_arg2 (V : Valuation τ sig (Elt Ideal)) : val11 V (Proc.devRef .tc main_arg2) = V (Proc.devRef .tc main_arg2) := by
  unfold val11
  after_results_simp
  exact val10_main_arg2 V
theorem val11_main_v23 (V : Valuation τ sig (Elt Ideal)) : val11 V (Proc.devRef .tc main_v23) = tinvOf (sigmaR (V (Proc.devRef .tc main_arg0))) := by
  unfold val11
  after_results_simp
  exact val10_main_v23 V
theorem val11_main_v8 (V : Valuation τ sig (Elt Ideal)) : val11 V (Proc.devRef .tc main_v8) = xmR (V (Proc.devRef .tc main_arg0)) := by
  unfold val11
  after_results_simp
  exact val10_main_v8 V

/-- The contents after the first 12 stretches. -/
def val12 (V : Valuation τ sig (Elt Ideal)) : Valuation τ sig (Elt Ideal) := after (opsS (F := Ideal)) (val11 V)
theorem val12_main_v74 (V : Valuation τ sig (Elt Ideal)) : val12 V (Proc.devRef .tc main_v74) = wmOf (sigmaR (V (Proc.devRef .tc main_arg0))) := by
  unfold val12
  after_results_simp
  rw [val11_main_v71, val11_main_v23]
  all_goals rfl
theorem val12_main_arg0 (V : Valuation τ sig (Elt Ideal)) : val12 V (Proc.devRef .tc main_arg0) = V (Proc.devRef .tc main_arg0) := by
  unfold val12
  after_results_simp
  exact val11_main_arg0 V
theorem val12_main_arg1 (V : Valuation τ sig (Elt Ideal)) : val12 V (Proc.devRef .tc main_arg1) = V (Proc.devRef .tc main_arg1) := by
  unfold val12
  after_results_simp
  exact val11_main_arg1 V
theorem val12_main_arg2 (V : Valuation τ sig (Elt Ideal)) : val12 V (Proc.devRef .tc main_arg2) = V (Proc.devRef .tc main_arg2) := by
  unfold val12
  after_results_simp
  exact val11_main_arg2 V
theorem val12_main_v8 (V : Valuation τ sig (Elt Ideal)) : val12 V (Proc.devRef .tc main_v8) = xmR (V (Proc.devRef .tc main_arg0)) := by
  unfold val12
  after_results_simp
  exact val11_main_v8 V

/-- The contents after the first 13 stretches. -/
def val13 (V : Valuation τ sig (Elt Ideal)) : Valuation τ sig (Elt Ideal) := after (opsO (F := Ideal)) (val12 V)
theorem val13_main_v82 (V : Valuation τ sig (Elt Ideal)) : val13 V (Proc.devRef .tc main_v82) = result (V (Proc.devRef .tc main_arg0)) (V (Proc.devRef .tc main_arg1)) (V (Proc.devRef .tc main_arg2)) := by
  unfold val13
  after_results_simp
  rw [val12_main_v74, val12_main_v8, val12_main_arg1, val12_main_arg2]
  all_goals rfl
theorem val13_main_arg0 (V : Valuation τ sig (Elt Ideal)) : val13 V (Proc.devRef .tc main_arg0) = V (Proc.devRef .tc main_arg0) := by
  unfold val13
  after_results_simp
  exact val12_main_arg0 V
theorem val13_main_arg1 (V : Valuation τ sig (Elt Ideal)) : val13 V (Proc.devRef .tc main_arg1) = V (Proc.devRef .tc main_arg1) := by
  unfold val13
  after_results_simp
  exact val12_main_arg1 V
theorem val13_main_arg2 (V : Valuation τ sig (Elt Ideal)) : val13 V (Proc.devRef .tc main_arg2) = V (Proc.devRef .tc main_arg2) := by
  unfold val13
  after_results_simp
  exact val12_main_arg2 V

/-- The whole list run is the last of these. -/
theorem after_ops (V : Valuation τ sig (Elt Ideal)) : after (ops (F := Ideal)) V = val13 V := by
  rw [ops_eq]
  simp only [after_app]
  rfl

end Cert.ReferenceIdeal.RefRun

end
-- ==== Proof.RefRun.lean ====
/-
  The reference program's run: every weakly fair execution of @main terminates with the result buffer at the
  composition of the named stages applied to the arguments' launch contents, and the arguments unchanged.
-/
import proofs.«167353_j44676249813412_2_alg».proof.Proof.RefRunVals

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The result buffer after the whole list. -/
theorem out_eq (V : Valuation τ sig (Elt Ideal)) :
    after (ops (F := Ideal)) V (Proc.devRef .tc main_v82)
      = result (V (Proc.devRef .tc main_arg0)) (V (Proc.devRef .tc main_arg1)) (V (Proc.devRef .tc main_arg2)) := by
  rw [after_ops]
  exact val13_main_v82 V

theorem arg0_eq (V : Valuation τ sig (Elt Ideal)) :
    after (ops (F := Ideal)) V (Proc.devRef .tc main_arg0) = V (Proc.devRef .tc main_arg0) := by
  rw [after_ops]
  exact val13_main_arg0 V

theorem arg1_eq (V : Valuation τ sig (Elt Ideal)) :
    after (ops (F := Ideal)) V (Proc.devRef .tc main_arg1) = V (Proc.devRef .tc main_arg1) := by
  rw [after_ops]
  exact val13_main_arg1 V

theorem arg2_eq (V : Valuation τ sig (Elt Ideal)) :
    after (ops (F := Ideal)) V (Proc.devRef .tc main_arg2) = V (Proc.devRef .tc main_arg2) := by
  rw [after_ops]
  exact val13_main_arg2 V

/-- On every device, from any memory with zero counters: every weakly fair execution of @main terminates with the
    result at the stages' composition of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v82) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v82).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefRun

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.Finite.lean ====
/-
  What the precondition gives.  It is one boolean: the conjunction, over the three argument arrays, of "every entry's
  absolute value is below the word of +inf".  At the idealized instance an entry is an extended real, the word of
  +inf is the top element, and an entry passing the test is therefore a real number.  So under the precondition
  all three arrays are families of reals -- which is what the covariance identity needs (distributivity fails at
  the infinities).
-/
import proofs.«167353_j44676249813412_2_alg».proof.Pre_finite_inputs
import proofs.«167353_j44676249813412_2_alg».proof.Proof.LibFiniteTest
import Idealize.ShloMosaic.Lib.ReduceAll
import Idealize.ShloMosaic.Lib.Affine
import Idealize.ShloMosaic.Lib.ValueIdx

noncomputable section

namespace Cert.Finite

open Idealize.ShloMosaic Cert.Pre_finite_inputs

variable [hF : Cert.Pre_finite_inputs.Facts]

/-- Under the precondition every entry of the three argument arrays is a real number. -/
theorem reals_of_pre (x : FVec Ideal S64x256x56x56 .f32) (w b : FVec Ideal S1x256x1x1 .f32)
    (h : Cert.Pre_finite_inputs.fn (F := Ideal) x w b = fun _ => 1#1) :
    (∀ i, ∃ r : ℝ, x i = r) ∧ (∀ i, ∃ r : ℝ, w i = r) ∧ (∀ i, ∃ r : ℝ, b i = r) := by
  haveI : Subsingleton S_.Idx := FiniteTest.subsingleton_scalarIdx
  have h0 := congrFun h ValueIdx.ix0
  dsimp only [fn] at h0
  obtain ⟨h01, h2⟩ := IntOp.andi_eq_one.mp h0
  obtain ⟨h0', h1⟩ := IntOp.andi_eq_one.mp h01
  refine ⟨fun i => ?_, fun i => ?_, fun i => ?_⟩
  · exact FiniteTest.real_of_test x _ i (Host.reduce_andi_all _ _ _ _ _ h0' i)
  · exact FiniteTest.real_of_test w _ i (Host.reduce_andi_all _ _ _ _ _ h1 i)
  · exact FiniteTest.real_of_test b _ i (Host.reduce_andi_all _ _ _ _ _ h2 i)

end Cert.Finite

end
-- ==== Proof.KHost.lean ====
/-
  The host operations around and between the kernel's two pallas_calls, read as values at the idealized instance.

  Before the statistics pass the input x[n, ch, p, q] is flattened to x[n, ch, k].  After it the host forms, from the
  per-group sums s and the Gram matrix G it returned: the means s / M, the covariance G / M - mean * mean^T + eps * I,
  its trace, the covariance divided by the trace, five Newton-Schulz steps P <- 1.5 P - 0.5 (P P P) sigma_n from the
  identity, and the whitening matrix P * sqrt(1 / trace); and it regroups weight and bias as [8, 32, 1].  After the
  apply pass the result is unflattened.  Each boundary's contents is the fold of the operations so far over the
  launch memory; the lemmas below read that fold at the buffers the two pallas_calls and the result use.
-/
import proofs.«167353_j44676249813412_2_alg».proof.Proof.Gen.KernelIdeal.Frame
import Idealize.ShloMosaic.Lib.StableHlo.Run
import Idealize.ShloMosaic.PureOps.Ideal.Laws
import Idealize.ShloMosaic.Lib.Pipeline.Value

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

/-! ## The host chain as functions -/

/-- The 32 x 32 identity as the host spells it: the two iotas compared, converted to float. -/
def eye : FVec Ideal S32x32 .f32 :=
  uitofp .f32 (cmpi .eq (addi (iotaInDim S32x32 32 0) (broadcastInDim S32x32 ![] bcast_S_S32x32 (constantI S_ 32 0#32)))
    (iotaInDim S32x32 32 1))

/-- The means: the per-group sums divided by the number of columns. -/
def meanK (s : FVec Ideal S32x1 .f32) : FVec Ideal S32x1 .f32 :=
  Host.divf (F := Ideal) s (broadcastInDim S32x1 ![] bcast_S_S32x1 (constant (F := Ideal) S_ .f32 0x49C40000#32))

/-- The covariance from raw moments: G / M - mean mean^T + eps I. -/
def sigmaK (s : FVec Ideal S32x1 .f32) (G : FVec Ideal S32x32 .f32) : FVec Ideal S32x32 .f32 :=
  addf
    (subf (Host.divf (F := Ideal) G (broadcastInDim S32x32 ![] bcast_S_S32x32 (constant (F := Ideal) S_ .f32 0x49C40000#32)))
      (Host.dotGeneral (F := Ideal) dot_S32x1_S1x32_S32x32_1_0_0_1_n_n none (meanK s)
        (transpose S1x32 [1, 0] (meanK s) transposes_S32x1_S1x32_1_0)))
    (mulf (broadcastInDim S32x32 ![] bcast_S_S32x32 (constant (F := Ideal) S_ .f32 0x3727C5AC#32)) eye)

/-- The trace, as the outlined callee computes it: the diagonal selected against zero, then summed. -/
def traceOf (σ : FVec Ideal S32x32 .f32) : FVec Ideal S_ .f32 :=
  Host.reduceAdd (F := Ideal)
    (select (cmpi .eq (addi (iotaInDim S32x32 32 0) (broadcastInDim S32x32 ![] bcast_S_S32x32 (constantI S_ 32 0#32)))
        (iotaInDim S32x32 32 1)) σ
      (broadcastInDim S32x32 ![] bcast_S_S32x32 (constant (F := Ideal) S_ .f32 0x00000000#32)))
    (constant (F := Ideal) S_ .f32 0x00000000#32) reducesTo_S32x32_S_d0_1 h_S_

/-- One over the trace. -/
def tinvOf (σ : FVec Ideal S32x32 .f32) : FVec Ideal S_ .f32 :=
  Host.divf (F := Ideal) (constant (F := Ideal) S_ .f32 0x3F800000#32) (traceOf σ)

/-- The covariance scaled to unit trace. -/
def sigmaN (σ : FVec Ideal S32x32 .f32) : FVec Ideal S32x32 .f32 :=
  mulf σ (broadcastInDim S32x32 ![] bcast_S_S32x32 (tinvOf σ))

/-- One Newton-Schulz step: 1.5 P - (0.5 ((P P) P)) sigma_n. -/
def nsStep (P σn : FVec Ideal S32x32 .f32) : FVec Ideal S32x32 .f32 :=
  subf (mulf (broadcastInDim S32x32 ![] bcast_S_S32x32 (constant (F := Ideal) S_ .f32 0x3FC00000#32)) P)
    (Host.dotGeneral (F := Ideal) dot_S32x32_S32x32_S32x32_1_0_0_1_n_n none
      (mulf (broadcastInDim S32x32 ![] bcast_S_S32x32 (constant (F := Ideal) S_ .f32 0x3F000000#32))
        (Host.dotGeneral (F := Ideal) dot_S32x32_S32x32_S32x32_1_0_0_1_n_n none
          (Host.dotGeneral (F := Ideal) dot_S32x32_S32x32_S32x32_1_0_0_1_n_n none P P) P))
      σn)

/-- The whitening matrix: five steps from the identity, times the square root of one over the trace. -/
def wmOf (σ : FVec Ideal S32x32 .f32) : FVec Ideal S32x32 .f32 :=
  mulf (nsStep (nsStep (nsStep (nsStep (nsStep eye (sigmaN σ)) (sigmaN σ)) (sigmaN σ)) (sigmaN σ)) (sigmaN σ))
    (broadcastInDim S32x32 ![] bcast_S_S32x32 (Host.sqrt (F := Ideal) (tinvOf σ)))

/-! ## The boundaries read at the buffers in use -/

variable (m : (ℓ : Loc nD τ sig) → Buf (Elt Ideal) ℓ) (ρ : Dev nD → PrngReg)

/-- The statistics pass finds the input flattened. -/
theorem V1_v0 (c : Dev nD) : (V1 m ρ c main_v0 : S64x256x3136.Idx → EReal)
    = shapeCast S64x256x3136 (m ((c : Thread nD τ).loc main_arg0)) shapeCasts_S64x256x56x56_S64x256x3136 := by
  show StableHlo.after hostOps0 (W0 m ρ c) (Proc.devRef .tc main_v0) = _
  after_results
  rfl

/-- The statistics pass returns its two arrays at what its write-backs leave. -/
theorem W2_sum (c : Dev nD) : W2 m ρ c (Proc.devRef .tc main_v1_0) = (dat0 (V1 m ρ) c).arrAt 1 cfg0.N := W2_arr m ρ c 1
theorem W2_gram (c : Dev nD) : W2 m ρ c (Proc.devRef .tc main_v1_1) = (dat0 (V1 m ρ) c).arrAt 2 cfg0.N := W2_arr m ρ c 2

/-- The whitening matrix the apply pass is given: the host chain applied to the covariance of the returned sums
    and Gram matrix. -/
theorem V5_wm (c : Dev nD) : (V5 m ρ c main_v70 : S32x32.Idx → EReal)
    = wmOf (sigmaK (W2 m ρ c (Proc.devRef .tc main_v1_0)) (W2 m ρ c (Proc.devRef .tc main_v1_1))) := by
  show StableHlo.after hostOps1_2 (W4 m ρ c) (Proc.devRef .tc main_v70) = _
  after_results_simp
  rfl

/-- The means the apply pass is given. -/
theorem V5_mean (c : Dev nD) : (V5 m ρ c main_v3 : S32x1.Idx → EReal)
    = meanK (W2 m ρ c (Proc.devRef .tc main_v1_0)) := by
  show StableHlo.after hostOps1_2 (W4 m ρ c) (Proc.devRef .tc main_v3) = _
  after_results_simp
  rfl

/-- The flattened input reaches the apply pass as the statistics pass found it: that pass only reads it, and no
    host operation between writes it. -/
theorem V5_x (c : Dev nD) : (V5 m ρ c main_v0 : S64x256x3136.Idx → EReal) = V1 m ρ c main_v0 := by
  have h5 : W5 m ρ c (Proc.devRef .tc main_v0) = W2 m ρ c (Proc.devRef .tc main_v0) := by
    show StableHlo.after hostOps1_2 (W4 m ρ c) (Proc.devRef .tc main_v0) = _
    after_results_simp
  have h2 : W2 m ρ c (Proc.devRef .tc main_v0) = V1 m ρ c main_v0 :=
    (W2_arr m ρ c 0).trans ((dat0 (V1 m ρ) c).arrAt_in 0 rfl _)
  exact h5.trans h2

/-- An argument array still holds its launch contents when the statistics pass is left. -/
theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results
theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

/-- Weight and bias as the apply pass finds them: flattened to 256 entries, regrouped as [8, 32, 1]. -/
theorem V5_w (c : Dev nD) : (V5 m ρ c main_v73 : S8x32x1.Idx → EReal)
    = shapeCast S8x32x1 (shapeCast S256 (m ((c : Thread nD τ).loc main_arg1)) shapeCasts_S1x256x1x1_S256) shapeCasts_S256_S8x32x1 := by
  show StableHlo.after hostOps1_2 (W4 m ρ c) (Proc.devRef .tc main_v73) = _
  after_results_simp
  rw [W2_arg1]
  rfl
theorem V5_b (c : Dev nD) : (V5 m ρ c main_v74 : S8x32x1.Idx → EReal)
    = shapeCast S8x32x1 (shapeCast S256 (m ((c : Thread nD τ).loc main_arg2)) shapeCasts_S1x256x1x1_S256) shapeCasts_S256_S8x32x1 := by
  show StableHlo.after hostOps1_2 (W4 m ρ c) (Proc.devRef .tc main_v74) = _
  after_results_simp
  rw [W2_arg2]
  rfl

/-- The result: the apply pass's output array, unflattened. -/
theorem W7_out (c : Dev nD) : (W7 m ρ c (Proc.devRef .tc main_v76) : S64x256x56x56.Idx → EReal)
    = shapeCast S64x256x56x56 ((dat1 (V5 m ρ) c).arrAt 5 cfg1.N) shapeCasts_S64x256x3136_S64x256x56x56 := by
  show StableHlo.after hostOps2 (W6 m ρ c) (Proc.devRef .tc main_v76) = _
  after_results
  rw [show W6 m ρ c (Proc.devRef .tc main_v75) = (dat1 (V5 m ρ) c).arrAt 5 cfg1.N from W6_arr m ρ c 5]
  rfl

end Cert.KernelIdeal.KHost

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«167353_j44676249813412_2_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.KSigma.lean ====
/-
  The host's means and covariance at an index.  With s the per-group sums and G the Gram matrix returned by the
  statistics pass, and M the number of columns:  mean(g) = s(g) / M,  and
  sigma(g, h) = G(g, h) / M - sum over the one contracted coordinate of mean(g) * mean(h) + eps * I(g, h):
  the product mean * mean^T is a dot_general with a contracted axis of extent one.
-/
import proofs.«167353_j44676249813412_2_alg».proof.Proof.KHost
import proofs.«167353_j44676249813412_2_alg».proof.Proof.LibPlainDot
import proofs.«167353_j44676249813412_2_alg».proof.Proof.LibRowReduce

noncomputable section

namespace Cert.KernelIdeal.KHost

open Cert.KernelIdeal Cert.KernelIdeal.Gen
open Idealize.ShloMosaic Idealize.ShloMosaic.ValueIdx

/-- The means at an index. -/
theorem meanK_apply (s : FVec Ideal S32x1 .f32) (g : Fin 32) (u : Fin 1) :
    meanK s (ix2 g u) = Ideal.div (s (ix2 g u)) (Ideal.ofBits .f32 0x49C40000#32) := by
  simp only [meanK, Host.divf, broadcastInDim, constant, Ideal.hostDivf_def, Ideal.ofBits_def]

/-- A column times its own transpose: the contraction has one term per coordinate of the unit axis. -/
theorem outer_apply (a : FVec Ideal S32x1 .f32) (g h : Fin 32) :
    Host.dotGeneral (F := Ideal) dot_S32x1_S1x32_S32x32_1_0_0_1_n_n none a
        (transpose S1x32 [1, 0] a transposes_S32x1_S1x32_1_0) (ix2 g h)
      = ∑ u : Fin 1, a (ix2 g u) * a (ix2 h u) := by
  refine (PlainDot.dotGeneral_apply_ix2 (M := 32) (K := 1) (N := 32) none _ a
    (transpose S1x32 [1, 0] a transposes_S32x1_S1x32_1_0) g h).trans ?_
  refine Finset.sum_congr rfl fun u _ => ?_
  rw [RowReduce.transpose_10_apply]

/-- The covariance at an index. -/
theorem sigmaK_apply (s : FVec Ideal S32x1 .f32) (G : FVec Ideal S32x32 .f32) (g h : Fin 32) :
    sigmaK s G (ix2 g h)
      = (Ideal.div (G (ix2 g h)) (Ideal.ofBits .f32 0x49C40000#32) - ∑ u : Fin 1, meanK s (ix2 g u) * meanK s (ix2 h u))
        + Ideal.ofBits .f32 0x3727C5AC#32 * eye (ix2 g h) := by
  unfold sigmaK
  show (Ideal.div (G (ix2 g h)) _ - Host.dotGeneral (F := Ideal) dot_S32x1_S1x32_S32x32_1_0_0_1_n_n none (meanK s)
        (transpose S1x32 [1, 0] (meanK s) transposes_S32x1_S1x32_1_0) (ix2 g h)) + _ * eye (ix2 g h) = _
  rw [outer_apply]
  rfl

end Cert.KernelIdeal.KHost

end
-- ==== Proof.Spec.lean ====
/-
  Index bookkeeping shared by the value proofs of this certificate.

  The input is x[n, ch, p, q] with n < 64 samples, ch < 256 channels and a 56 x 56 image; the kernel flattens the
  image to k = 56 p + q < 3136.  Channel ch belongs to group g = ch mod 32 and sits in slab j = ch / 32 (eight slabs
  of 32 channels).  The reference's group view is a [32, 1605632] matrix whose column is col = (8 n + j) * 3136 + k,
  1605632 = 64 * 8 * 3136 columns per group.  The statistics pass of the kernel walks a 4 x 8 grid of points
  t = 8 nt + j, each holding samples 16 nt .. 16 nt + 15 of slab j.
-/
import Idealize.ShloMosaic.Lib.ValueIdx

namespace Cert.Spec

/-- Sample a of the tile at statistics point t. -/
def tileN (t : Fin 32) (a : Fin 16) : Fin 64 := ⟨16 * (t.val / 8) + a.val, by omega⟩
/-- The channel slab of statistics point t. -/
def tileJ (t : Fin 32) : Fin 8 := ⟨t.val % 8, by omega⟩
/-- Channel of group g in slab j. -/
def chan (j : Fin 8) (g : Fin 32) : Fin 256 := ⟨32 * j.val + g.val, by omega⟩
/-- The slab and the group of a channel. -/
def chJ (ch : Fin 256) : Fin 8 := ⟨ch.val / 32, by omega⟩
def chG (ch : Fin 256) : Fin 32 := ⟨ch.val % 32, by omega⟩
/-- Sample, slab and flattened pixel of a column of the group view. -/
def colN (col : Fin 1605632) : Fin 64 := ⟨col.val / 25088, by omega⟩
def colJ (col : Fin 1605632) : Fin 8 := ⟨col.val / 3136 % 8, by omega⟩
def colK (col : Fin 1605632) : Fin 3136 := ⟨col.val % 3136, by omega⟩
/-- The column of sample n, slab j, flattened pixel k. -/
def colOf (n : Fin 64) (j : Fin 8) (k : Fin 3136) : Fin 1605632 := ⟨(8 * n.val + j.val) * 3136 + k.val, by omega⟩
/-- Flattened pixel of (p, q), and back. -/
def pix (p q : Fin 56) : Fin 3136 := ⟨56 * p.val + q.val, by omega⟩
def pixP (k : Fin 3136) : Fin 56 := ⟨k.val / 56, by omega⟩
def pixQ (k : Fin 3136) : Fin 56 := ⟨k.val % 56, by omega⟩

theorem chan_chJ_chG (ch : Fin 256) : chan (chJ ch) (chG ch) = ch := by
  apply Fin.ext; simp only [chan, chJ, chG]; omega
theorem chJ_chan (j : Fin 8) (g : Fin 32) : chJ (chan j g) = j := by
  apply Fin.ext; simp only [chan, chJ]; omega
theorem chG_chan (j : Fin 8) (g : Fin 32) : chG (chan j g) = g := by
  apply Fin.ext; simp only [chan, chG]; omega
theorem pix_pixP_pixQ (k : Fin 3136) : pix (pixP k) (pixQ k) = k := by
  apply Fin.ext; simp only [pix, pixP, pixQ]; omega
theorem colOf_col (col : Fin 1605632) : colOf (colN col) (colJ col) (colK col) = col := by
  apply Fin.ext; simp only [colOf, colN, colJ, colK]; omega
theorem colN_colOf (n : Fin 64) (j : Fin 8) (k : Fin 3136) : colN (colOf n j k) = n := by
  apply Fin.ext; simp only [colOf, colN]; omega
theorem colJ_colOf (n : Fin 64) (j : Fin 8) (k : Fin 3136) : colJ (colOf n j k) = j := by
  apply Fin.ext; simp only [colOf, colJ]; omega
theorem colK_colOf (n : Fin 64) (j : Fin 8) (k : Fin 3136) : colK (colOf n j k) = k := by
  apply Fin.ext; simp only [colOf, colK]; omega

end Cert.Spec
-- ==== Proof.KCasts.lean ====
/-
  The reshapes of this kernel read at coordinates.  All are row-major re-indexings:
  * x[n, ch, p, q] flattened to x[n, ch, k] with k = 56 p + q, and back;
  * a per-channel vector stored as [1, 256, 1, 1], flattened to [256] and regrouped as [8, 32, 1]: entry (j, g, 0)
    is channel 32 j + g.
-/
import proofs.«167353_j44676249813412_2_alg».proof.Proof.Spec
import Idealize.ShloMosaic.Lib.Pipeline.Value
import Idealize.ShloMosaic.Lib.ValueIdx

namespace Cert.Casts

open Idealize.ShloMosaic Idealize.ShloMosaic.ValueIdx Cert.Spec

variable {α : Type}

/-- The flattened image at (n, ch, k) is the image at (n, ch, k / 56, k mod 56). -/
theorem flat_apply (x : (⟨4, ![64, 256, 56, 56]⟩ : Shape).Idx → α)
    (h : (⟨4, ![64, 256, 56, 56]⟩ : Shape).ShapeCasts ⟨3, ![64, 256, 3136]⟩) (n : Fin 64) (ch : Fin 256) (k : Fin 3136) :
    shapeCast ⟨3, ![64, 256, 3136]⟩ x h (ix3 n ch k) = x (ix4 n ch (pixP k) (pixQ k)) :=
  shapeCast_apply x h _ _ (by
    rw [Shape.rowMajor_val_four, Shape.rowMajor_val_three]
    show ((n.val * 256 + ch.val) * 56 + (pixP k).val) * 56 + (pixQ k).val = (n.val * 256 + ch.val) * 3136 + k.val
    simp only [pixP, pixQ]
    omega)

/-- The unflattened array at (n, ch, p, q) is the flat one at (n, ch, 56 p + q). -/
theorem unflat_apply (y : (⟨3, ![64, 256, 3136]⟩ : Shape).Idx → α)
    (h : (⟨3, ![64, 256, 3136]⟩ : Shape).ShapeCasts ⟨4, ![64, 256, 56, 56]⟩) (n : Fin 64) (ch : Fin 256) (p q : Fin 56) :
    shapeCast ⟨4, ![64, 256, 56, 56]⟩ y h (ix4 n ch p q) = y (ix3 n ch (pix p q)) :=
  shapeCast_apply y h _ _ (by
    rw [Shape.rowMajor_val_three, Shape.rowMajor_val_four]
    show (n.val * 256 + ch.val) * 3136 + (pix p q).val = ((n.val * 256 + ch.val) * 56 + p.val) * 56 + q.val
    simp only [pix]
    omega)

/-- A per-channel vector regrouped as [8, 32, 1]: entry (j, g, 0) is channel 32 j + g. -/
theorem regroup_apply (w : (⟨4, ![1, 256, 1, 1]⟩ : Shape).Idx → α)
    (h1 : (⟨4, ![1, 256, 1, 1]⟩ : Shape).ShapeCasts ⟨1, ![256]⟩) (h2 : (⟨1, ![256]⟩ : Shape).ShapeCasts ⟨3, ![8, 32, 1]⟩)
    (j : Fin 8) (g : Fin 32) (u : Fin 1) :
    shapeCast ⟨3, ![8, 32, 1]⟩ (shapeCast ⟨1, ![256]⟩ w h1) h2 (ix3 j g u)
      = w (ix4 (0 : Fin 1) (chan j g) (0 : Fin 1) (0 : Fin 1)) := by
  have e1 : shapeCast ⟨3, ![8, 32, 1]⟩ (shapeCast ⟨1, ![256]⟩ w h1) h2 (ix3 j g u)
      = shapeCast ⟨1, ![256]⟩ w h1 (ix1 (chan j g)) :=
    shapeCast_apply _ h2 _ _ (by
      rw [Shape.rowMajor_val_one, Shape.rowMajor_val_three]
      show (chan j g).val = (j.val * 32 + g.val) * 1 + u.val
      have hu : u.val = 0 := by omega
      simp only [chan]
      omega)
  rw [e1]
  exact shapeCast_apply w h1 _ _ (by
    rw [Shape.rowMajor_val_four, Shape.rowMajor_val_one]
    show ((0 * 256 + (chan j g).val) * 1 + 0) * 1 + 0 = (chan j g).val
    omega)

theorem pixP_pix (p q : Fin 56) : pixP (pix p q) = p := by
  apply Fin.ext; simp only [pix, pixP]; omega
theorem pixQ_pix (p q : Fin 56) : pixQ (pix p q) = q := by
  apply Fin.ext; simp only [pix, pixQ]; omega

end Cert.Casts
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibBatchDot.lean ====
/-
  Batched matrix products of rank-3 operands, one batch axis in front, read at an output index over the extended reals.
  Two contractions occur in attention kernels and in their host references alike:
  • "NT": `[B, M, K]` by `[B, N, K]` contracting the last axis of both (`bid,bjd->bij`): entry `(b, i, j)` is
    `Σ_{k < K} lhs (b, i, k) · rhs (b, j, k)`;
  • "NN": `[B, M, K]` by `[B, K, N]` contracting the left operand's last axis with the right operand's middle axis
    (`bij,bjd->bid`): entry `(b, i, n)` is `Σ_{k < K} lhs (b, i, k) · rhs (b, k, n)`;
  and the unbatched right operand of a projection, `[B, M, K]` by `[N, K]` contracting the last axis of both
  (`bnf,hf->bnh`): entry `(b, i, n)` is `Σ_{k < K} lhs (b, i, k) · rhs (n, k)`.
  Each is stated for the record with exactly those dimension numbers, whatever the proof of its well-formedness (a printed
  record with the same lists IS that record, by `rfl`), for a kernel's `tpu.matmul` into the zero accumulator and for the
  host's `dot_general`.
-/
import Idealize.ShloMosaic.PureOps.Ideal.Laws
import Idealize.ShloMosaic.Lib.ValueIdx

namespace Idealize.ShloMosaic.BatchDot

open Idealize.ShloMosaic.ValueIdx

variable {B M N K : Nat}

/-! ## `bid,bjd->bij` -/

/-- The record of the dimension numbers `<[2], [2], [1], [1], …, [0], [0]>`. -/
abbrev nt (hwf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ := ⟨[2], [2], [1], [1], [0], [0], hwf⟩

section nt
variable (hwf : DotDims.WF ⟨3, ![B, M, K]⟩ ⟨3, ![B, N, K]⟩ ⟨3, ![B, M, N]⟩ [2] [2] [1] [1] [0] [0])

theorem nt_rank : (nt hwf).contr.rank = 1 := rfl
theorem nt_size : (nt hwf).contr.size ⟨0, by rw [nt_rank]; exact Nat.one_pos⟩ = K := rfl

/-- The left operand is read at `(b, i, k)`. -/
theorem nt_lhsIdx (b : Fin B) (i : Fin M) (j : Fin N) (k : Fin K) :
    (nt hwf).lhsIdx (ix3 b i j) ((contrEquiv1 (nt hwf) K (nt_rank hwf) (nt_size hwf)).symm k) = ix3 b i k := by
  have hk := contrEquiv1_symm_val (nt hwf) K (nt_rank hwf) (nt_size hwf) k
  funext a
  apply Fin.ext
  match a with
  | ⟨0, _⟩ => rfl
  | ⟨1, _⟩ => rfl
  | ⟨2, _⟩ => exact ((nt hwf).lhsIdx_val_of_single (cl := (2 : Fin 3)) rfl _ _).trans hk

/-- The right operand is read at `(b, j, k)`. -/
theorem nt_rhsIdx (b : Fin B) (i : Fin M) (j : Fin N) (k : Fin K) :
    (nt hwf).rhsIdx (ix3 b i j) ((contrEquiv1 (nt hwf) K (nt_rank hwf) (nt_size hwf)).symm k) = ix3 b j k := by
  have hk := contrEquiv1_symm_val (nt hwf) K (nt_rank hwf) (nt_size hwf) k
  funext a
  apply Fin.ext
  match a with
  | ⟨0, _⟩ => rfl
  | ⟨1, _⟩ => rfl
  | ⟨2, _⟩ => exact ((nt hwf).rhsIdx_val_of_single (cr := (2 : Fin 3)) rfl _ _).trans hk

/-- A kernel's product into the zero accumulator at `(b, i, j)`. -/
theorem nt_matmul_apply {φ₁ φ₂ : FTy} (prec : Option ContractPrecision) (lhs : FVec Ideal ⟨3, ![B, M, K]⟩ φ₁)
    (rhs : FVec Ideal ⟨3, ![B, N, K]⟩ φ₂) (b : Fin B) (i : Fin M) (j : Fin N) :
    FloatOps.matmul (nt hwf) prec lhs rhs (constant ⟨3, ![B, M, N]⟩ .f32 0x00000000#32) (ix3 b i j)
      = ∑ k : Fin K, lhs (ix3 b i k) * rhs (ix3 b j k) := by
  rw [Ideal.matmul_constant_zero_apply, ← Equiv.sum_comp (contrEquiv1 (nt hwf) K (nt_rank hwf) (nt_size hwf)).symm]
  refine Finset.sum_congr rfl fun k _ => ?_
  rw [nt_lhsIdx, nt_rhsIdx]

/-- The host's `dot_general` at `(b, i, j)`: the same sum. -/
theorem nt_dotGeneral_apply {φ₁ φ₂ : FTy} (prec : Option ContractPrecision) (sched : HostSchedule)
    (lhs : FVec Ideal ⟨3, ![B, M, K]⟩ φ₁) (rhs : FVec Ideal ⟨3, ![B, N, K]⟩ φ₂) (b : Fin B) (i : Fin M) (j : Fin N) :
    FloatOps.dotGeneral (nt hwf) prec sched lhs rhs (ix3 b i j) = ∑ k : Fin K, lhs (ix3 b i k) * rhs (ix3 b j k) := by
  rw [Ideal.dotGeneral_apply, ← Equiv.sum_comp (contrEquiv1 (nt hwf) K (nt_rank hwf) (nt_size hwf)).symm]
  refine Finset.sum_congr rfl fun k _ => ?_
  rw [nt_lhsIdx, nt_rhsIdx]

end nt

/-! ## `bij,bjd->bid` -/

/-- The record of the dimension numbers `<[2], [1], [1], [2], …, [0], [0]>`. -/
abbrev nn (hwf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ := ⟨[2], [1], [1], [2], [0], [0], hwf⟩

section nn
variable (hwf : DotDims.WF ⟨3, ![B, M, K]⟩ ⟨3, ![B, K, N]⟩ ⟨3, ![B, M, N]⟩ [2] [1] [1] [2] [0] [0])

theorem nn_rank : (nn hwf).contr.rank = 1 := rfl
theorem nn_size : (nn hwf).contr.size ⟨0, by rw [nn_rank]; exact Nat.one_pos⟩ = K := rfl

/-- The left operand is read at `(b, i, k)`. -/
theorem nn_lhsIdx (b : Fin B) (i : Fin M) (n : Fin N) (k : Fin K) :
    (nn hwf).lhsIdx (ix3 b i n) ((contrEquiv1 (nn hwf) K (nn_rank hwf) (nn_size hwf)).symm k) = ix3 b i k := by
  have hk := contrEquiv1_symm_val (nn hwf) K (nn_rank hwf) (nn_size hwf) k
  funext a
  apply Fin.ext
  match a with
  | ⟨0, _⟩ => rfl
  | ⟨1, _⟩ => rfl
  | ⟨2, _⟩ => exact ((nn hwf).lhsIdx_val_of_single (cl := (2 : Fin 3)) rfl _ _).trans hk

/-- The right operand is read at `(b, k, n)`. -/
theorem nn_rhsIdx (b : Fin B) (i : Fin M) (n : Fin N) (k : Fin K) :
    (nn hwf).rhsIdx (ix3 b i n) ((contrEquiv1 (nn hwf) K (nn_rank hwf) (nn_size hwf)).symm k) = ix3 b k n := by
  have hk := contrEquiv1_symm_val (nn hwf) K (nn_rank hwf) (nn_size hwf) k
  funext a
  apply Fin.ext
  match a with
  | ⟨0, _⟩ => rfl
  | ⟨1, _⟩ => exact ((nn hwf).rhsIdx_val_of_single (cr := (1 : Fin 3)) rfl _ _).trans hk
  | ⟨2, _⟩ => rfl

/-- A kernel's product into the zero accumulator at `(b, i, n)`. -/
theorem nn_matmul_apply {φ₁ φ₂ : FTy} (prec : Option ContractPrecision) (lhs : FVec Ideal ⟨3, ![B, M, K]⟩ φ₁)
    (rhs : FVec Ideal ⟨3, ![B, K, N]⟩ φ₂) (b : Fin B) (i : Fin M) (n : Fin N) :
    FloatOps.matmul (nn hwf) prec lhs rhs (constant ⟨3, ![B, M, N]⟩ .f32 0x00000000#32) (ix3 b i n)
      = ∑ k : Fin K, lhs (ix3 b i k) * rhs (ix3 b k n) := by
  rw [Ideal.matmul_constant_zero_apply, ← Equiv.sum_comp (contrEquiv1 (nn hwf) K (nn_rank hwf) (nn_size hwf)).symm]
  refine Finset.sum_congr rfl fun k _ => ?_
  rw [nn_lhsIdx, nn_rhsIdx]

/-- The host's `dot_general` at `(b, i, n)`: the same sum. -/
theorem nn_dotGeneral_apply {φ₁ φ₂ : FTy} (prec : Option ContractPrecision) (sched : HostSchedule)
    (lhs : FVec Ideal ⟨3, ![B, M, K]⟩ φ₁) (rhs : FVec Ideal ⟨3, ![B, K, N]⟩ φ₂) (b : Fin B) (i : Fin M) (n : Fin N) :
    FloatOps.dotGeneral (nn hwf) prec sched lhs rhs (ix3 b i n) = ∑ k : Fin K, lhs (ix3 b i k) * rhs (ix3 b k n) := by
  rw [Ideal.dotGeneral_apply, ← Equiv.sum_comp (contrEquiv1 (nn hwf) K (nn_rank hwf) (nn_size hwf)).symm]
  refine Finset.sum_congr rfl fun k _ => ?_
  rw [nn_lhsIdx, nn_rhsIdx]

end nn

/-! ## `bnf,hf->bnh` -/

/-- The record of the dimension numbers `contracting [2] x [1]`, no batch axis, of a rank-3 by a rank-2 operand. -/
abbrev pj (hwf : DotDims.WF ⟨3, ![B, M, K]⟩ ⟨2, ![N, K]⟩ ⟨3, ![B, M, N]⟩ [2] [1] [0, 1] [0] [] []) :
    DotDims ⟨3, ![B, M, K]⟩ ⟨2, ![N, K]⟩ ⟨3, ![B, M, N]⟩ := ⟨[2], [1], [0, 1], [0], [], [], hwf⟩

section pj
variable (hwf : DotDims.WF ⟨3, ![B, M, K]⟩ ⟨2, ![N, K]⟩ ⟨3, ![B, M, N]⟩ [2] [1] [0, 1] [0] [] [])

theorem pj_rank : (pj hwf).contr.rank = 1 := rfl
theorem pj_size : (pj hwf).contr.size ⟨0, by rw [pj_rank]; exact Nat.one_pos⟩ = K := rfl

/-- The left operand is read at `(b, i, k)`. -/
theorem pj_lhsIdx (b : Fin B) (i : Fin M) (n : Fin N) (k : Fin K) :
    (pj hwf).lhsIdx (ix3 b i n) ((contrEquiv1 (pj hwf) K (pj_rank hwf) (pj_size hwf)).symm k) = ix3 b i k := by
  have hk := contrEquiv1_symm_val (pj hwf) K (pj_rank hwf) (pj_size hwf) k
  funext a
  apply Fin.ext
  match a with
  | ⟨0, _⟩ => rfl
  | ⟨1, _⟩ => rfl
  | ⟨2, _⟩ => exact ((pj hwf).lhsIdx_val_of_single (cl := (2 : Fin 3)) rfl _ _).trans hk

/-- The right operand is read at `(n, k)`. -/
theorem pj_rhsIdx (b : Fin B) (i : Fin M) (n : Fin N) (k : Fin K) :
    (pj hwf).rhsIdx (ix3 b i n) ((contrEquiv1 (pj hwf) K (pj_rank hwf) (pj_size hwf)).symm k) = ix2 n k := by
  have hk := contrEquiv1_symm_val (pj hwf) K (pj_rank hwf) (pj_size hwf) k
  funext a
  apply Fin.ext
  match a with
  | ⟨0, _⟩ => rfl
  | ⟨1, _⟩ => exact ((pj hwf).rhsIdx_val_of_single (cr := (1 : Fin 2)) rfl _ _).trans hk

/-- The host's `dot_general` at `(b, i, n)`. -/
theorem pj_dotGeneral_apply {φ₁ φ₂ : FTy} (prec : Option ContractPrecision) (sched : HostSchedule)
    (lhs : FVec Ideal ⟨3, ![B, M, K]⟩ φ₁) (rhs : FVec Ideal ⟨2, ![N, K]⟩ φ₂) (b : Fin B) (i : Fin M) (n : Fin N) :
    FloatOps.dotGeneral (pj hwf) prec sched lhs rhs (ix3 b i n) = ∑ k : Fin K, lhs (ix3 b i k) * rhs (ix2 n k) := by
  rw [Ideal.dotGeneral_apply, ← Equiv.sum_comp (contrEquiv1 (pj hwf) K (pj_rank hwf) (pj_size hwf)).symm]
  refine Finset.sum_congr rfl fun k _ => ?_
  rw [pj_lhsIdx, pj_rhsIdx]

end pj

end Idealize.ShloMosaic.BatchDot
-- ==== Proof.StatsPayload.lean ====
/-
  The two accumulating payloads of the statistics pass, read at an index over the extended reals.
  For a block x[a, g, k] (16 samples, 32 channel rows, 3136 pixels) and the running values s[g, 0] and G[g, h]:
    the sums payload is      s[g, 0] + sum over k of (sum over a of x[a, g, k]),
    the Gram payload is      G[g, h] + sum over a of (sum over k of x[a, g, k] * x[a, h, k]).
-/
import proofs.«167353_j44676249813412_2_alg».proof.Proof.Gen.KernelIdeal.Skeleton
import proofs.«167353_j44676249813412_2_alg».proof.Proof.LibRowReduce
import proofs.«167353_j44676249813412_2_alg».proof.Proof.LibColumn
import proofs.«167353_j44676249813412_2_alg».proof.Proof.LibBatchDot
import Idealize.ShloMosaic.PureOps.Ideal.Laws
import Idealize.ShloMosaic.Lib.Pipeline.Value
import Idealize.ShloMosaic.Lib.ValueIdx

noncomputable section

namespace Cert.KernelIdeal.Stats

open Cert.KernelIdeal Cert.KernelIdeal.Gen Idealize.ShloMosaic Idealize.ShloMosaic.ValueIdx

/-- Entry (r, k) of a [A, B, C] array reduced over its leading axis, with the leading coordinate a put back, is (a, r, k). -/
theorem lift_lead3 {A B C : ℕ} (h : (⟨3, ![A, B, C]⟩ : Shape).Reduces [0] (⟨2, ![B, C]⟩ : Shape)) (r : Fin B) (k : Fin C)
    (a : Fin ((⟨3, ![A, B, C]⟩ : Shape).size 0)) : h.lift (ix2 r k) a = ix3 (⟨a.val, a.isLt⟩ : Fin A) r k := by
  funext d; apply Fin.ext
  fin_cases d <;> rfl

/-- The sum over the leading axis of a [A, B, C] array at (r, k). -/
theorem multiReduction_add_lead3 {φ : FTy} {A B C : ℕ} (src : FVec Ideal ⟨3, ![A, B, C]⟩ φ) (acc : BitVec φ.bits)
    (h : (⟨3, ![A, B, C]⟩ : Shape).Reduces [0] (⟨2, ![B, C]⟩ : Shape)) (hφ : FKind.Formats φ)
    (hacc : acc = FKind.add.neutral φ hφ) (r : Fin B) (k : Fin C) :
    multiReduction .add [0] ⟨2, ![B, C]⟩ src acc h hφ hacc (ix2 r k) = ∑ a : Fin A, src (ix3 a r k) := by
  rw [Ideal.multiReduction_add_single]
  exact Finset.sum_congr rfl fun a _ => congrArg src (lift_lead3 h r k a)

/-- The sums payload at (g, u): the accumulator's entry plus the block's sum over pixels and samples of channel row g. -/
theorem pay4_apply (x0 : Vec Ideal S16x32x3136 .f32) (xo : Vec Ideal S32x1 .f32) (g : Fin 32) (u : Fin 1) :
    k0_pay4 (F := Ideal) x0 xo (ix2 g u) = xo (ix2 g u) + ∑ k : Fin 3136, ∑ a : Fin 16, x0 (ix3 a g k) := by
  unfold k0_pay4 k0_pay3
  simp only [shapeCast_self]
  refine (addf_apply _ _ _).trans ?_
  refine congrArg (fun z => xo (ix2 g u) + z) ?_
  refine (Column.shapeCast_a_a1_apply _ _ g u).trans ?_
  refine (RowReduce.multiReduction_add_cols _ _ _ _ _ g).trans ?_
  exact Finset.sum_congr rfl fun k _ => multiReduction_add_lead3 _ _ _ _ _ g k

/-- The Gram payload at (g, h). -/
theorem pay5_apply (x0 : Vec Ideal S16x32x3136 .f32) (xo : Vec Ideal S32x32 .f32) (g h : Fin 32) :
    k0_pay5 (F := Ideal) x0 xo (ix2 g h) = xo (ix2 g h) + ∑ a : Fin 16, ∑ k : Fin 3136, x0 (ix3 a g k) * x0 (ix3 a h k) := by
  unfold k0_pay5 k0_pay3
  simp only [shapeCast_self]
  refine (addf_apply _ _ _).trans ?_
  refine congrArg (fun z => xo (ix2 g h) + z) ?_
  refine (multiReduction_add_lead3 _ _ _ _ _ g h).trans ?_
  exact Finset.sum_congr rfl fun a _ =>
    BatchDot.nt_matmul_apply dot_S16x32x3136_S16x32x3136_S16x32x32_2_2_1_1_0_0_wf none x0 x0 a g h

end Cert.KernelIdeal.Stats
-- ==== Proof.StatsCases.lean ====
/-
  What one grid point of the statistics pass leaves in its two accumulators, as the payloads of its covering stores:
  at the first point the accumulators are first set to zero and the payloads are taken over zero; at every other point
  they are taken over what the accumulators held.
-/
import proofs.«167353_j44676249813412_2_alg».proof.Proof.Gen.KernelIdeal.Frame
import Idealize.ShloMosaic.Lib.Pipeline.Value
import Idealize.ShloMosaic.Lib.Tactic

set_option pp.maxSteps 20000
set_option pp.deepTerms false

noncomputable section

open Idealize.ShloMosaic Idealize.ShloMosaic.TcCoe Idealize.SL.Sem
open Idealize.ShloMosaic.Pipeline (Dat)

namespace Cert.KernelIdeal.Stats

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case B, sums: on a running column xo1 the body leaves the sums payload of the block and xo1. -/
theorem out_B_1 (c : Dev nD) (i : grid0.Coords) (a2 : Memref sig .tc .vmem S16x32x3136 .f32) (h2 : a2.IsWhole)
    (a3 : Memref sig .tc .vmem S32x1 .f32) (h3 : a3.IsWhole) (a4 : Memref sig .tc .vmem S32x32 .f32) (h4 : a4.IsWhole)
    (hc : ¬cond0_0 i) (x0 : Vec F S16x32x3136 .f32) (xo1 : Vec F S32x1 .f32) (xo2 : Vec F S32x32 .f32) :
    out0_B_1 c i a2 h2 a3 h3 a4 h4 hc x0 xo1 xo2 = k0_pay4 x0 xo1 := by
  unfold out0_B_1
  rw [View.read_writes_eq_canon _ _ _ (cover0_B_1 c i a2 h2 a3 h3 a4 h4 hc x0 xo1 xo2)]
  unfold kernelRun0_B
  dsimp only
  rw [View.canon_unit_zero hz2]
  simp only [View.readAt_eq_ld, h2.read_unread, h3.read_unread, View.ld_unit_zero (S := S16x32x3136) hz3,
    View.ld_unit_zero (S := S32x1) hz2]

/-- Case B, Gram matrix: on a running matrix xo2 the body leaves the Gram payload of the block and xo2. -/
theorem out_B_2 (c : Dev nD) (i : grid0.Coords) (a2 : Memref sig .tc .vmem S16x32x3136 .f32) (h2 : a2.IsWhole)
    (a3 : Memref sig .tc .vmem S32x1 .f32) (h3 : a3.IsWhole) (a4 : Memref sig .tc .vmem S32x32 .f32) (h4 : a4.IsWhole)
    (hc : ¬cond0_0 i) (x0 : Vec F S16x32x3136 .f32) (xo1 : Vec F S32x1 .f32) (xo2 : Vec F S32x32 .f32) :
    out0_B_2 c i a2 h2 a3 h3 a4 h4 hc x0 xo1 xo2 = k0_pay5 x0 xo2 := by
  unfold out0_B_2
  rw [View.read_writes_eq_canon _ _ _ (cover0_B_2 c i a2 h2 a3 h3 a4 h4 hc x0 xo1 xo2)]
  unfold kernelRun0_B
  dsimp only
  rw [View.canon_unit_zero hz2]
  simp only [View.readAt_eq_ld, h2.read_unread, h4.read_unread, View.ld_unit_zero (S := S16x32x3136) hz3,
    View.ld_unit_zero (S := S32x32) hz2]

/-- Case A, sums: the body stores the zero column, reads it back and leaves the sums payload of the block and zero. -/
theorem out_A_1 (c : Dev nD) (i : grid0.Coords) (a2 : Memref sig .tc .vmem S16x32x3136 .f32) (h2 : a2.IsWhole)
    (a3 : Memref sig .tc .vmem S32x1 .f32) (h3 : a3.IsWhole) (a4 : Memref sig .tc .vmem S32x32 .f32) (h4 : a4.IsWhole)
    (hc : cond0_0 i) (x0 : Vec F S16x32x3136 .f32) :
    out0_A_1 c i a2 h2 a3 h3 a4 h4 hc x0 = k0_pay4 x0 (k0_pay1 (F := F)) := by
  unfold out0_A_1
  rw [View.read_writes_eq_canon _ _ _ (cover0_A_1 c i a2 h2 a3 h3 a4 h4 hc x0)]
  unfold kernelRun0_A
  dsimp only
  sl_unfold_words
  rw [View.canon_cons_unit_zero (S := S32x1) hz2, View.readCov_unit_zero (S := S32x1) _ hz2]
  simp only [View.readAt_eq_ld, h2.read_unread, View.ld_unit_zero (S := S16x32x3136) hz3]

/-- Case A, Gram matrix: the body stores the zero matrix, reads it back and leaves the Gram payload of the block and zero. -/
theorem out_A_2 (c : Dev nD) (i : grid0.Coords) (a2 : Memref sig .tc .vmem S16x32x3136 .f32) (h2 : a2.IsWhole)
    (a3 : Memref sig .tc .vmem S32x1 .f32) (h3 : a3.IsWhole) (a4 : Memref sig .tc .vmem S32x32 .f32) (h4 : a4.IsWhole)
    (hc : cond0_0 i) (x0 : Vec F S16x32x3136 .f32) :
    out0_A_2 c i a2 h2 a3 h3 a4 h4 hc x0 = k0_pay5 x0 (k0_pay2 (F := F)) := by
  unfold out0_A_2
  rw [View.read_writes_eq_canon _ _ _ (cover0_A_2 c i a2 h2 a3 h3 a4 h4 hc x0)]
  unfold kernelRun0_A
  dsimp only
  sl_unfold_words
  rw [View.canon_cons_unit_zero (S := S32x32) hz2, View.readCov_unit_zero (S := S32x32) _ hz2]
  simp only [View.readAt_eq_ld, h2.read_unread, View.ld_unit_zero (S := S16x32x3136) hz3]

end Cert.KernelIdeal.Stats
-- ==== Proof.StatsValue.lean ====
/-
  THE VALUE OF THE STATISTICS PASS. The pass walks a 4 x 8 grid of points t = 8 nt + j; point t reads the block of samples
  16 nt .. 16 nt + 15, channels 32 j .. 32 j + 31 and all 3136 pixels of the input x[n, ch, k], and adds into two accumulators
  that are set to zero at the first point and written back after the last one:
    s[g, 0]  +=  sum over k of (sum over a of block[a, g, k]),
    G[g, h]  +=  sum over a of (sum over k of block[a, g, k] * block[a, h, k]).
  Over the extended reals the running values after point n are the sums of the blocks' contributions of points 0 .. n
  (induction on the point), so the two result arrays hold the sums over all 32 points: `sum_arr` and `gram_arr`.
-/
import proofs.«167353_j44676249813412_2_alg».proof.Proof.StatsPayload
import proofs.«167353_j44676249813412_2_alg».proof.Proof.StatsCases
import proofs.«167353_j44676249813412_2_alg».proof.Proof.Spec
import proofs.«167353_j44676249813412_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Stats

open Cert.KernelIdeal Cert.KernelIdeal.Gen Cert.Spec Idealize.ShloMosaic.ValueIdx

variable (V : (c : Dev nD) → (b : Ref sig .tc) → Buf (Elt Ideal) ((c : Thread nD τ).loc b))

/-- The block index of the input window at point t = 8 nt + j is (nt, j, 0): decided over the grid. -/
theorem win_index : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

/-- The input block at point t, at (a, g, k), is the array at sample 16 (t / 8) + a, channel 32 (t mod 8) + g, pixel k. -/
theorem iblk_apply (c : Dev nD) (t : Fin cfg0.N) (ht : t.val < 32) (a : Fin 16) (g : Fin 32) (k : Fin 3136) :
    (iblk0 (F := Ideal) V c 0 t : Vec Ideal S16x32x3136 .f32) (ix3 a g k)
      = V c main_v0 (ix3 (tileN ⟨t.val, ht⟩ a) (chan (tileJ ⟨t.val, ht⟩) g) k) := by
  have hi := win_index t
  unfold iblk0
  rw [View.read_apply]
  show V c main_v0 _ = V c main_v0 _
  refine congrArg (V c main_v0) ?_
  funext d
  apply Fin.ext
  match d with
  | ⟨0, _⟩ =>
    show win0_0.index t 0 * 16 + 1 * a.val = 16 * (t.val / 8) + a.val
    rw [hi.1]; omega
  | ⟨1, _⟩ =>
    show win0_0.index t 1 * 32 + 1 * g.val = 32 * (t.val % 8) + g.val
    rw [hi.2.1]; omega
  | ⟨2, _⟩ =>
    show win0_0.index t 2 * 3136 + 1 * k.val = k.val
    rw [hi.2.2]; omega

/-- The sum of channel row g over the block of point n (zero beyond the grid). -/
def blockSum (c : Dev nD) (n : ℕ) (g : Fin 32) : EReal :=
  if h : n < 32 then ∑ k : Fin 3136, ∑ a : Fin 16, V c main_v0 (ix3 (tileN ⟨n, h⟩ a) (chan (tileJ ⟨n, h⟩) g) k) else 0

/-- The product sum of channel rows g and h over the block of point n (zero beyond the grid). -/
def blockGram (c : Dev nD) (n : ℕ) (g h : Fin 32) : EReal :=
  if hn : n < 32 then ∑ a : Fin 16, ∑ k : Fin 3136,
    @HMul.hMul EReal EReal EReal _ (V c main_v0 (ix3 (tileN ⟨n, hn⟩ a) (chan (tileJ ⟨n, hn⟩) g) k)) (V c main_v0 (ix3 (tileN ⟨n, hn⟩ a) (chan (tileJ ⟨n, hn⟩) h) k))
  else 0

/-- The sums payload on the block of point n adds that block's sum to the running column. -/
theorem pay4_iblk (c : Dev nD) (n : ℕ) (hn : n < cfg0.N) (xo : Vec Ideal S32x1 .f32) (g : Fin 32) (u : Fin 1) :
    k0_pay4 (F := Ideal) (iblk0 (F := Ideal) V c 0 ⟨n, hn⟩) xo (ix2 g u) = xo (ix2 g u) + blockSum V c n g := by
  have h32 : n < 32 := lt_of_lt_of_eq hn N_0
  refine (pay4_apply (iblk0 (F := Ideal) V c 0 ⟨n, hn⟩) xo g u).trans ?_
  refine congrArg (fun z => xo (ix2 g u) + z) ?_
  unfold blockSum
  rw [dif_pos h32]
  exact Finset.sum_congr rfl fun k _ => Finset.sum_congr rfl fun a _ => iblk_apply V c ⟨n, hn⟩ h32 a g k

/-- The Gram payload on the block of point n adds that block's product sums to the running matrix. -/
theorem pay5_iblk (c : Dev nD) (n : ℕ) (hn : n < cfg0.N) (xo : Vec Ideal S32x32 .f32) (g h : Fin 32) :
    k0_pay5 (F := Ideal) (iblk0 (F := Ideal) V c 0 ⟨n, hn⟩) xo (ix2 g h) = xo (ix2 g h) + blockGram V c n g h := by
  have h32 : n < 32 := lt_of_lt_of_eq hn N_0
  refine (pay5_apply (iblk0 (F := Ideal) V c 0 ⟨n, hn⟩) xo g h).trans ?_
  refine congrArg (fun z => xo (ix2 g h) + z) ?_
  unfold blockGram
  rw [dif_pos h32]
  exact Finset.sum_congr rfl fun a _ => Finset.sum_congr rfl fun k _ =>
    congrArg₂ (fun x y : EReal => x * y) (iblk_apply V c ⟨n, hn⟩ h32 a g k) (iblk_apply V c ⟨n, hn⟩ h32 a h k)

/-- The zero column and the zero matrix the first point stores. -/
theorem pay1_apply (j : S32x1.Idx) : k0_pay1 (F := Ideal) j = 0 := by
  show Ideal.ofBits .f32 0x00000000#32 = 0
  exact Ideal.ofBits_zero_f32
theorem pay2_apply (j : S32x32.Idx) : k0_pay2 (F := Ideal) j = 0 := by
  show Ideal.ofBits .f32 0x00000000#32 = 0
  exact Ideal.ofBits_zero_f32

/-- After point n the sums accumulator holds the sum of the block sums of points 0 .. n: by induction on the point. -/
theorem outsAt_sum (c : Dev nD) : ∀ (n : ℕ) (hn : n < cfg0.N) (g : Fin 32) (u : Fin 1),
    (outsAt0 (F := Ideal) V c n hn).1 (ix2 g u) = ∑ t ∈ Finset.range (n + 1), blockSum V c t g
  | 0, hn, g, u => by
    rw [outsAt0_A V c ⟨0, hn⟩ rfl]
    dsimp only
    rw [out_A_1]
    refine (pay4_iblk V c 0 hn _ g u).trans ?_
    rw [pay1_apply, zero_add, Finset.sum_range_one]
  | n + 1, hn, g, u => by
    have hN : cfg0.N = 32 := N_0
    have hB : ¬(⟨n + 1, hn⟩ : Fin cfg0.N).val % 32 = 0 := by dsimp only; omega
    rw [outsAt0_B V c ⟨n + 1, hn⟩ hB]
    dsimp only
    rw [out_B_1]
    refine (pay4_iblk V c (n + 1) hn _ g u).trans ?_
    rw [Finset.sum_range_succ _ (n + 1)]
    refine congrArg (fun z => z + blockSum V c (n + 1) g) ?_
    exact outsAt_sum c n _ g u

/-- After point n the Gram accumulator holds the sum of the block product sums of points 0 .. n. -/
theorem outsAt_gram (c : Dev nD) : ∀ (n : ℕ) (hn : n < cfg0.N) (g h : Fin 32),
    (outsAt0 (F := Ideal) V c n hn).2 (ix2 g h) = ∑ t ∈ Finset.range (n + 1), blockGram V c t g h
  | 0, hn, g, h => by
    rw [outsAt0_A V c ⟨0, hn⟩ rfl]
    dsimp only
    rw [out_A_2]
    refine (pay5_iblk V c 0 hn _ g h).trans ?_
    rw [pay2_apply, zero_add, Finset.sum_range_one]
  | n + 1, hn, g, h => by
    have hN : cfg0.N = 32 := N_0
    have hB : ¬(⟨n + 1, hn⟩ : Fin cfg0.N).val % 32 = 0 := by dsimp only; omega
    rw [outsAt0_B V c ⟨n + 1, hn⟩ hB]
    dsimp only
    rw [out_B_2]
    refine (pay5_iblk V c (n + 1) hn _ g h).trans ?_
    rw [Finset.sum_range_succ _ (n + 1)]
    refine congrArg (fun z => z + blockGram V c (n + 1) g h) ?_
    exact outsAt_gram c n _ g h

/-- The last point of the grid, the one point whose accumulators are written back. -/
theorem h31 : 31 < cfg0.N := by rw [show cfg0.N = 32 from N_0]; decide
abbrev tLast : Fin cfg0.N := ⟨31, h31⟩

/-- What the two result arrays end holding: the accumulators after the last point. -/
abbrev result1 (c : Dev nD) : Buf (Elt Ideal) ((c : Thread nD τ).loc main_v1_0) := (outsAt0 (F := Ideal) V c 31 h31).1
abbrev result2 (c : Dev nD) : Buf (Elt Ideal) ((c : Thread nD τ).loc main_v1_1) := (outsAt0 (F := Ideal) V c 31 h31).2

/-- The one write-back of the sums window, at the last point, writes the accumulator: its block is the whole array. -/
theorem flushed_eq_1 (c : Dev nD) (t : Fin cfg0.N) (hf : (cfg0.win 1).flush t = true) :
    (dat0 (F := Ideal) V c).flushed 1 t = ((cfg0.win 1).blk t).view.read (Elt Ideal) (result1 V c) := by
  have hN : cfg0.N = 32 := N_0
  have h3 : t.val = 31 := by have := (flush0_1 t).mp hf; have := t.isLt; omega
  obtain rfl : t = tLast := Fin.ext h3
  show (cfg0.win 1).cut (grid0.coords tLast) ((dat0 (F := Ideal) V c).after 1 tLast) = _
  rw [after0_1]
  have hz' : (fun a => win0_1.index tLast a * main_v1_0.ty.shape.size a) = fun _ => 0 := funext fun a => by fin_cases a <;> decide
  exact (Memref.read_access_unit_zero (Elt Ideal) main_v1_0 hz' (fun a => by rw [congrFun hz' a]; simp) (result1 V c)).symm

/-- The one write-back of the Gram window, at the last point, writes the accumulator: its block is the whole array. -/
theorem flushed_eq_2 (c : Dev nD) (t : Fin cfg0.N) (hf : (cfg0.win 2).flush t = true) :
    (dat0 (F := Ideal) V c).flushed 2 t = ((cfg0.win 2).blk t).view.read (Elt Ideal) (result2 V c) := by
  have hN : cfg0.N = 32 := N_0
  have h3 : t.val = 31 := by have := (flush0_2 t).mp hf; have := t.isLt; omega
  obtain rfl : t = tLast := Fin.ext h3
  show (cfg0.win 2).cut (grid0.coords tLast) ((dat0 (F := Ideal) V c).after 2 tLast) = _
  rw [after0_2]
  have hz' : (fun a => win0_2.index tLast a * main_v1_1.ty.shape.size a) = fun _ => 0 := funext fun a => by fin_cases a <;> decide
  exact (Memref.read_access_unit_zero (Elt Ideal) main_v1_1 hz' (fun a => by rw [congrFun hz' a]; simp) (result2 V c)).symm

/-- So the sums array ends holding the accumulator after the last point (that point's block covers the array). -/
theorem final_1 (c : Dev nD) : (dat0 (F := Ideal) V c).arrAt 1 cfg0.N = result1 V c :=
  (dat0 (F := Ideal) V c).arrAt_eq_of_cover 1 (result1 V c) (flushed_eq_1 V c) fun i =>
    ⟨tLast, (flush0_1 tLast).mpr rfl, by
      show i ∈ ((View.whole main_v1_0).slice (win0_1.rect tLast)).set
      rw [View.set_slice_whole, Rect.mem_set_unit]
      intro a
      have h0 : (i 0 : Nat) < 32 := (i 0).isLt
      have h1 : (i 1 : Nat) < 1 := (i 1).isLt
      match a with
      | ⟨0, _⟩ =>
        show win0_1.index tLast 0 * win0_1.size 0 ≤ (i 0 : Nat) ∧ (i 0 : Nat) < win0_1.index tLast 0 * win0_1.size 0 + win0_1.xsize (grid0.coords tLast) 0
        rw [show win0_1.index tLast 0 * win0_1.size 0 = 0 from by decide +kernel, show win0_1.xsize (grid0.coords tLast) 0 = 32 from by decide +kernel]; omega
      | ⟨1, _⟩ =>
        show win0_1.index tLast 1 * win0_1.size 1 ≤ (i 1 : Nat) ∧ (i 1 : Nat) < win0_1.index tLast 1 * win0_1.size 1 + win0_1.xsize (grid0.coords tLast) 1
        rw [show win0_1.index tLast 1 * win0_1.size 1 = 0 from by decide +kernel, show win0_1.xsize (grid0.coords tLast) 1 = 1 from by decide +kernel]; omega⟩

/-- And the Gram array likewise. -/
theorem final_2 (c : Dev nD) : (dat0 (F := Ideal) V c).arrAt 2 cfg0.N = result2 V c :=
  (dat0 (F := Ideal) V c).arrAt_eq_of_cover 2 (result2 V c) (flushed_eq_2 V c) fun i =>
    ⟨tLast, (flush0_2 tLast).mpr rfl, by
      show i ∈ ((View.whole main_v1_1).slice (win0_2.rect tLast)).set
      rw [View.set_slice_whole, Rect.mem_set_unit]
      intro a
      have h0 : (i 0 : Nat) < 32 := (i 0).isLt
      have h1 : (i 1 : Nat) < 32 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 32 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 32 from by decide +kernel]; omega⟩

/-- THE SUMS. The first result array of the statistics pass holds, at group row g, the sum of the input over the 32 grid
    points' blocks: over each point's 3136 pixels and 16 samples of that point's channel of group g. -/
theorem sum_arr (c : Dev nD) (g : Fin 32) (u : Fin 1) :
    (dat0 (F := Ideal) V c).arrAt 1 cfg0.N (ix2 g u)
      = (∑ t : Fin 32, ∑ k : Fin 3136, ∑ a : Fin 16, V c main_v0 (ix3 (tileN t a) (chan (tileJ t) g) k) : EReal) := by
  refine (congrFun (final_1 V c) (ix2 g u)).trans ?_
  refine (outsAt_sum V c 31 h31 g u).trans ?_
  rw [← Fin.sum_univ_eq_sum_range (fun n => blockSum V c n g) 32]
  refine Finset.sum_congr rfl fun t _ => ?_
  unfold blockSum
  rw [dif_pos t.isLt]

/-- THE GRAM MATRIX. The second result array holds, at (g, h), the sum over the 32 grid points' blocks of the products of
    the channels of groups g and h: over each point's 16 samples and 3136 pixels. -/
theorem gram_arr (c : Dev nD) (g h : Fin 32) :
    (dat0 (F := Ideal) V c).arrAt 2 cfg0.N (ix2 g h)
      = ∑ t : Fin 32, ∑ a : Fin 16, ∑ k : Fin 3136,
          @HMul.hMul EReal EReal EReal _ (V c main_v0 (ix3 (tileN t a) (chan (tileJ t) g) k)) (V c main_v0 (ix3 (tileN t a) (chan (tileJ t) h) k)) := by
  refine (congrFun (final_2 V c) (ix2 g h)).trans ?_
  refine (outsAt_gram V c 31 h31 g h).trans ?_
  rw [← Fin.sum_univ_eq_sum_range (fun n => blockGram V c n g h) 32]
  refine Finset.sum_congr rfl fun t _ => ?_
  unfold blockGram
  rw [dif_pos t.isLt]

end Cert.KernelIdeal.Stats
-- ==== Proof.ApplyPayload.lean ====
/-
  One trip's stored slab of the apply pass, at an index.

  The trip takes a [1, 32, 3136] slab x of the input block, the mean column m [32, 1], the whitening matrix W [32, 32]
  and the scale and shift columns w, b (each a [1, 32, 1] block), and stores
      (W (x - m 1ᵀ)) * (w 1ᵀ) + b 1ᵀ
  as a [1, 32, 3136] slab.  At (0, g, k) that is (∑ h, W[g, h] (x[0, h, k] - m[h])) w[g] + b[g].
-/
import proofs.«167353_j44676249813412_2_alg».proof.Proof.Gen.KernelIdeal.Skeleton
import proofs.«167353_j44676249813412_2_alg».proof.Proof.LibPlainDot
import proofs.«167353_j44676249813412_2_alg».proof.Proof.LibColumn
import proofs.«167353_j44676249813412_2_alg».proof.Proof.LibRowReduce
import Idealize.ShloMosaic.PureOps.Ideal

noncomputable section

namespace Cert.KernelIdeal.Apply

open Cert.KernelIdeal Cert.KernelIdeal.Gen Idealize.ShloMosaic Idealize.ShloMosaic.ValueIdx

/-- An [a, b] array cast to [1, a, b] reads, at (u, r, c), the operand at (r, c). -/
theorem shapeCast_ab_1ab_apply {α : Type} {a b : ℕ} (x : (⟨2, ![a, b]⟩ : Shape).Idx → α)
    (h : (⟨2, ![a, b]⟩ : Shape).ShapeCasts ⟨3, ![1, a, b]⟩) (u : Fin 1) (r : Fin a) (c : Fin b) :
    shapeCast ⟨3, ![1, a, b]⟩ x h (ix3 u r c) = x (ix2 r c) :=
  shapeCast_apply x h _ _ (by
    have hu : u.val = 0 := by omega
    rw [Shape.rowMajor_val_three, Shape.rowMajor_val_two]
    show r.val * b + c.val = (u.val * a + r.val) * b + c.val
    rw [hu, Nat.zero_mul, Nat.zero_add])

/-- The stored slab at (u, g, k). -/
theorem pay_apply (v0 : Vec Ideal S32x1 .f32) (v2 : Vec Ideal S32x32 .f32) (v4 : Vec Ideal S1x32x1 .f32)
    (v6 : Vec Ideal S1x32x1 .f32) (v10 : Vec Ideal S1x32x3136 .f32) (u : Fin 1) (g : Fin 32) (k : Fin 3136) :
    k1_pay1 (F := Ideal) v0 v2 v4 v6 v10 (ix3 u g k)
      = (∑ h : Fin 32, v2 (ix2 g h) * (v10 (ix3 (0 : Fin 1) h k) - v0 (ix2 h (0 : Fin 1))))
          * v4 (ix3 (0 : Fin 1) g (0 : Fin 1)) + v6 (ix3 (0 : Fin 1) g (0 : Fin 1)) := by
  unfold k1_pay1
  rw [shapeCast_ab_1ab_apply]
  show FloatOps.addf (FloatOps.mulf (matmul dot_S32x32_S32x3136_S32x3136_1_0_0_1_n_n none _ _ _ (ix2 g k)) (broadcastTo S32x3136 _ _ (ix2 g k))) (broadcastTo S32x3136 _ _ (ix2 g k)) = _
  rw [Column.broadcastTo_a1_ab_apply, Column.broadcastTo_a1_ab_apply, RowReduce.shapeCast_1ab_ab_apply, RowReduce.shapeCast_1ab_ab_apply,
    shapeCast_self, shapeCast_self]
  refine congrArg₂ (· + ·) (congrArg₂ (· * ·) ?_ rfl) rfl
  refine (PlainDot.matmul_apply_ix2 (M := 32) (K := 32) (N := 3136) none v2 _ g k).trans ?_
  refine Finset.sum_congr rfl fun h _ => ?_
  show v2 (ix2 g h) * (FloatOps.subf (F := Ideal) (φ := FTy.f32) (shapeCast S32x3136 v10 _ (ix2 h k)) (broadcastTo S32x3136 v0 _ (ix2 h k))) = _
  rw [Column.broadcastTo_a1_ab_apply, RowReduce.shapeCast_1ab_ab_apply]
  rfl

end Cert.KernelIdeal.Apply

end
-- ==== Proof.ApplyLoop.lean ====
/-
  What the apply pass's body leaves in its output block, as one function of its five input blocks.

  The body loads the mean column m [32, 1], the whitening matrix W [32, 32] and the scale and shift columns w, b (blocks
  [1, 32, 1]) once, then makes eight trips; trip a loads slab a of the input block x [8, 32, 3136], and stores into slab a
  of the output block the slab (W (x_a - m 1ᵀ)) * (w 1ᵀ) + b 1ᵀ.  The eight stored slabs tile the block, so the block
  ends at
      out[a, g, k] = (∑ h, W[g, h] (x[a, h, k] - m[h])) w[g] + b[g].
-/
import proofs.«167353_j44676249813412_2_alg».proof.Proof.Gen.KernelIdeal.Frame
import proofs.«167353_j44676249813412_2_alg».proof.Proof.ApplyPayload
import Idealize.ShloMosaic.Lib.Pipeline.Value

noncomputable section

namespace Cert.KernelIdeal.Apply

open Cert.KernelIdeal Cert.KernelIdeal.Gen Idealize.ShloMosaic Idealize.ShloMosaic.TcCoe Idealize.ShloMosaic.ValueIdx
open Idealize.SL.Sem

/-- One entry of the block the body leaves: (∑ h, W[g, h] (x[a, h, k] - m[h])) w[g] + b[g]. -/
def cell (x0 : Vec Ideal S8x32x3136 .f32) (x1 : Vec Ideal S32x1 .f32) (x2 : Vec Ideal S32x32 .f32)
    (x3 x4 : Vec Ideal S1x32x1 .f32) (a : Fin 8) (g : Fin 32) (k : Fin 3136) : EReal :=
  (∑ h : Fin 32, x2 (ix2 g h) * (x0 (ix3 a h k) - x1 (ix2 h (0 : Fin 1))))
    * x3 (ix3 (0 : Fin 1) g (0 : Fin 1)) + x4 (ix3 (0 : Fin 1) g (0 : Fin 1))

/-- The block the body leaves, as a function of the block index. -/
def blockOut (x0 : Vec Ideal S8x32x3136 .f32) (x1 : Vec Ideal S32x1 .f32) (x2 : Vec Ideal S32x32 .f32)
    (x3 x4 : Vec Ideal S1x32x1 .f32) : Vec Ideal S8x32x3136 .f32 :=
  fun y => cell x0 x1 x2 x3 x4 (y 0) (y 1) (y 2)

theorem blockOut_ix3 (x0 : Vec Ideal S8x32x3136 .f32) (x1 : Vec Ideal S32x1 .f32) (x2 : Vec Ideal S32x32 .f32)
    (x3 x4 : Vec Ideal S1x32x1 .f32) (a : Fin 8) (g : Fin 32) (k : Fin 3136) :
    blockOut x0 x1 x2 x3 x4 (ix3 a g k) = cell x0 x1 x2 x3 x4 a g k := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- Trip k's slab sits at rows (k, ·, ·) of the block. -/
theorem slab_emb (k : Fin k1_t1_loop.trips) (hk : k.val < 8) (u : Fin 1) (g : Fin 32) (q : Fin 3136) :
    (Rect.unit (s := S8x32x3136) (k1_off1 k) S1x32x3136.size (k1_off1_inb k)).emb (ix3 u g q)
      = ix3 (⟨k.val, hk⟩ : Fin 8) g q := by
  have hu : u.val = 0 := by omega
  funext d
  apply Fin.ext
  rw [Rect.emb_apply, Rect.off_unit, Rect.stride_unit]
  have ho := k1_off1_eq k
  match d with
  | ⟨0, _⟩ => show k1_off1 k 0 + 1 * u.val = k.val; rw [ho]; show k.val + 1 * u.val = k.val; omega
  | ⟨1, _⟩ => show k1_off1 k 1 + 1 * g.val = g.val; rw [ho]; show 0 + 1 * g.val = g.val; omega
  | ⟨2, _⟩ => show k1_off1 k 2 + 1 * q.val = q.val; rw [ho]; show 0 + 1 * q.val = q.val; omega

/-- The one piece a trip writes: at the trip's slab, the payload of the slab loaded there. -/
theorem trip_pieces (𝒱 : Variants) (c : Dev nD) (bd : Option 𝒱.V) (i : grid1.Coords) (arg2 : Memref sig .tc .vmem S8x32x3136 .f32) (harg2 : arg2.IsWhole) (arg3 : Memref sig .tc .vmem S32x1 .f32) (harg3 : arg3.IsWhole) (arg4 : Memref sig .tc .vmem S32x32 .f32) (harg4 : arg4.IsWhole) (arg5 : Memref sig .tc .vmem S1x32x1 .f32) (harg5 : arg5.IsWhole) (arg6 : Memref sig .tc .vmem S1x32x1 .f32) (harg6 : arg6.IsWhole) (arg7 : Memref sig .tc .vmem S8x32x3136 .f32) (harg7 : arg7.IsWhole)
    (v0 : Vec Ideal S32x1 .f32) (v2 : Vec Ideal S32x32 .f32) (v4 : Vec Ideal S1x32x1 .f32) (v6 : Vec Ideal S1x32x1 .f32)
    (X : BufTy.Contents (Elt Ideal) arg2.view.ty) (k : Fin k1_t1_loop.trips) :
    tripL_k1_t1 (F := Ideal) 𝒱 c bd i arg2 harg2 arg3 harg3 arg4 harg4 arg5 harg5 arg6 harg6 arg7 harg7 v0 v2 v4 v6 X k
      = [⟨Rect.unit (s := S8x32x3136) (k1_off1 k) S1x32x3136.size (k1_off1_inb k),
          k1_pay1 v0 v2 v4 v6 (View.readAt (Elt Ideal) arg2.view (Rect.unit (s := S8x32x3136) (k1_off1 k) S1x32x3136.size (k1_off1_inb k)).toLoadRect X)⟩] := by
  unfold tripL_k1_t1 trip_k1_t1
  rfl

/-- Every piece of the trips before n is a slab of `blockOut`. -/
theorem pieces_spec (𝒱 : Variants) (c : Dev nD) (bd : Option 𝒱.V) (i : grid1.Coords) (arg2 : Memref sig .tc .vmem S8x32x3136 .f32) (harg2 : arg2.IsWhole) (arg3 : Memref sig .tc .vmem S32x1 .f32) (harg3 : arg3.IsWhole) (arg4 : Memref sig .tc .vmem S32x32 .f32) (harg4 : arg4.IsWhole) (arg5 : Memref sig .tc .vmem S1x32x1 .f32) (harg5 : arg5.IsWhole) (arg6 : Memref sig .tc .vmem S1x32x1 .f32) (harg6 : arg6.IsWhole) (arg7 : Memref sig .tc .vmem S8x32x3136 .f32) (harg7 : arg7.IsWhole)
    (x0 : Vec Ideal S8x32x3136 .f32) (v0 : Vec Ideal S32x1 .f32) (v2 : Vec Ideal S32x32 .f32) (v4 : Vec Ideal S1x32x1 .f32) (v6 : Vec Ideal S1x32x1 .f32) :
    ∀ n : ℕ, n ≤ k1_t1_loop.trips →
      ∀ p ∈ pb_k1_t1 (F := Ideal) 𝒱 c bd i arg2 harg2 arg3 harg3 arg4 harg4 arg5 harg5 arg6 harg6 arg7 harg7 v0 v2 v4 v6 (harg2.unread x0) n,
        ∀ x : p.1.shape.Idx, p.2 x = blockOut x0 v0 v2 v4 v6 (p.1.emb x)
  | 0, _ => fun p hp => absurd hp List.not_mem_nil
  | n + 1, hn => fun p hp x => by
    have hk : n < k1_t1_loop.trips := hn
    have h8 : n < 8 := Nat.lt_of_lt_of_le hk k1_t1_abs.2.1
    have hs := pb_k1_t1_succ (F := Ideal) 𝒱 c bd i arg2 harg2 arg3 harg3 arg4 harg4 arg5 harg5 arg6 harg6 arg7 harg7 v0 v2 v4 v6 (harg2.unread x0) ⟨n, hk⟩
    rw [show pb_k1_t1 (F := Ideal) 𝒱 c bd i arg2 harg2 arg3 harg3 arg4 harg4 arg5 harg5 arg6 harg6 arg7 harg7 v0 v2 v4 v6 (harg2.unread x0) (n + 1) = _ from hs, trip_pieces] at hp
    rcases List.mem_append.mp hp with h1 | h2
    · obtain rfl := List.mem_singleton.mp h1
      obtain ⟨u, g, q, rfl⟩ : ∃ (u : Fin 1) (g : Fin 32) (q : Fin 3136), x = ix3 u g q := ⟨x 0, x 1, x 2, eq_ix3 x⟩
      show k1_pay1 (F := Ideal) v0 v2 v4 v6 _ (ix3 u g q) = _
      rw [pay_apply, slab_emb ⟨n, hk⟩ h8, blockOut_ix3]
      unfold cell
      refine congrArg₂ (· + ·) (congrArg₂ (· * ·) (Finset.sum_congr rfl fun h _ => ?_) rfl) rfl
      refine congrArg (v2 (ix2 g h) * ·) (congrArg (· - v0 (ix2 h (0 : Fin 1))) ?_)
      rw [View.readAt_eq_ld, harg2.read_unread]
      show x0 ((Rect.unit (s := S8x32x3136) (k1_off1 ⟨n, hk⟩) S1x32x3136.size (k1_off1_inb ⟨n, hk⟩)).emb (ix3 (0 : Fin 1) h q)) = _
      rw [slab_emb ⟨n, hk⟩ h8]
    · exact pieces_spec 𝒱 c bd i arg2 harg2 arg3 harg3 arg4 harg4 arg5 harg5 arg6 harg6 arg7 harg7 x0 v0 v2 v4 v6 n (Nat.le_of_lt hk) p h2 x

/-- The body's output block: `blockOut` of the five input blocks. -/
theorem out_eq (c : Dev nD) (i : grid1.Coords) (arg2 : Memref sig .tc .vmem S8x32x3136 .f32) (harg2 : arg2.IsWhole) (arg3 : Memref sig .tc .vmem S32x1 .f32) (harg3 : arg3.IsWhole) (arg4 : Memref sig .tc .vmem S32x32 .f32) (harg4 : arg4.IsWhole) (arg5 : Memref sig .tc .vmem S1x32x1 .f32) (harg5 : arg5.IsWhole) (arg6 : Memref sig .tc .vmem S1x32x1 .f32) (harg6 : arg6.IsWhole) (arg7 : Memref sig .tc .vmem S8x32x3136 .f32) (harg7 : arg7.IsWhole)
    (x0 : Vec Ideal S8x32x3136 .f32) (x1 : Vec Ideal S32x1 .f32) (x2 : Vec Ideal S32x32 .f32) (x3 : Vec Ideal S1x32x1 .f32) (x4 : Vec Ideal S1x32x1 .f32) :
    out1_A_5 (F := Ideal) c i arg2 harg2 arg3 harg3 arg4 harg4 arg5 harg5 arg6 harg6 arg7 harg7 x0 x1 x2 x3 x4 = blockOut x0 x1 x2 x3 x4 := by
  unfold out1_A_5
  rw [View.read_writes_eq_canon _ _ _ (cover1_A_5 c i arg2 harg2 arg3 harg3 arg4 harg4 arg5 harg5 arg6 harg6 arg7 harg7 x0 x1 x2 x3 x4)]
  funext y
  refine View.canon_apply_of_pieces (blockOut x0 x1 x2 x3 x4) _ ?_ y (cover1_A_5 c i arg2 harg2 arg3 harg3 arg4 harg4 arg5 harg5 arg6 harg6 arg7 harg7 x0 x1 x2 x3 x4 y)
  unfold kernelRun1_A
  dsimp only
  simp only [View.readAt_eq_ld, harg3.read_unread, harg4.read_unread, harg5.read_unread, harg6.read_unread,
    View.ld_unit_zero (S := S32x1) hz2, View.ld_unit_zero (S := S32x32) hz2, View.ld_unit_zero (S := S1x32x1) hz3]
  exact pieces_spec Variants.none c none i arg2 harg2 arg3 harg3 arg4 harg4 arg5 harg5 arg6 harg6 arg7 harg7 x0 x1 x2 x3 x4 _ (Nat.le_refl _)

end Cert.KernelIdeal.Apply

end
-- ==== Proof.ApplyValue.lean ====
/-
  The array the apply pass leaves, entry by entry.

  The pass walks an 8 x 8 grid of points t = 8 nt + j.  Point t reads the block x[8 nt .. 8 nt + 7, 32 j .. 32 j + 31, ·]
  of the input, the whole mean column m and whitening matrix W, and block j of the scale and the shift columns w, b;
  its body leaves (∑ h, W[g, h] (x[a, h, k] - m[h])) w[g] + b[g] at (a, g, k) of its output block, which is written back
  at every point to rows 8 nt .. 8 nt + 7, channels 32 j .. 32 j + 31 of the result.  The 64 blocks tile the result, so
  its entry (n, ch, k), ch = 32 j + g, is
      (∑ h, W[g, h] (x[n, 32 j + h, k] - m[h])) w[j, g] + b[j, g].
-/
import proofs.«167353_j44676249813412_2_alg».proof.Proof.ApplyLoop
import proofs.«167353_j44676249813412_2_alg».proof.Proof.Spec
import Idealize.ShloMosaic.Lib.Pipeline.Value

noncomputable section

namespace Cert.KernelIdeal.Apply

open Cert.KernelIdeal Cert.KernelIdeal.Gen Cert.Spec Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The block indices of the six windows at point t = 8 nt + j: the input and the output at (nt, j, 0), the mean and the
    matrix at the origin, the scale and the shift at (j, 0, 0). -/
theorem idx_facts : ∀ t : Fin cfg1.N,
    (win1_0.index t (0 : Fin 3) = t.val / 8 ∧ win1_0.index t (1 : Fin 3) = t.val % 8 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 3) = t.val % 8 ∧ win1_3.index t (1 : Fin 3) = 0 ∧ win1_3.index t (2 : Fin 3) = 0)
    ∧ (win1_4.index t (0 : Fin 3) = t.val % 8 ∧ win1_4.index t (1 : Fin 3) = 0 ∧ win1_4.index t (2 : Fin 3) = 0)
    ∧ (win1_5.index t (0 : Fin 3) = t.val / 8 ∧ win1_5.index t (1 : Fin 3) = t.val % 8 ∧ win1_5.index t (2 : Fin 3) = 0) :=
  (by decide +kernel : ∀ t : Fin grid1.N, _)

/-- The input block at point t is rows 8 (t / 8) .., channels 32 (t % 8) .. of the input. -/
theorem iblk0_apply (c : Dev nD) (t : Fin cfg1.N) (x : S8x32x3136.Idx) (y : S64x256x3136.Idx)
    (h0 : (y 0).val = 8 * (t.val / 8) + (x 0).val) (h1 : (y 1).val = 32 * (t.val % 8) + (x 1).val)
    (h2 : (y 2).val = (x 2).val) :
    (iblk1 V c 0 t : Vec Ideal S8x32x3136 .f32) x = (V c main_v0 : S64x256x3136.Idx → Elt Ideal .f32) y := by
  obtain ⟨⟨e0, e1, e2⟩, -⟩ := idx_facts t
  unfold iblk1
  rw [View.read_apply]
  show V c main_v0 _ = V c main_v0 _
  refine congrArg (V c main_v0) ?_
  funext a
  apply Fin.ext
  match a with
  | ⟨0, _⟩ => show win1_0.index t (0 : Fin 3) * 8 + 1 * (x 0).val = (y 0).val; rw [e0, h0]; omega
  | ⟨1, _⟩ => show win1_0.index t (1 : Fin 3) * 32 + 1 * (x 1).val = (y 1).val; rw [e1, h1]; omega
  | ⟨2, _⟩ => show win1_0.index t (2 : Fin 3) * 3136 + 1 * (x 2).val = (y 2).val; rw [e2, h2]; omega

/-- The mean block at any point is the whole mean column. -/
theorem iblk1_apply (c : Dev nD) (t : Fin cfg1.N) (x : S32x1.Idx) :
    (iblk1 V c 1 t : Vec Ideal S32x1 .f32) x = (V c main_v3 : S32x1.Idx → Elt Ideal .f32) x := by
  obtain ⟨-, ⟨e0, e1⟩, -⟩ := idx_facts t
  unfold iblk1
  rw [View.read_apply]
  show V c main_v3 _ = V c main_v3 _
  refine congrArg (V c main_v3) ?_
  funext a
  apply Fin.ext
  match a with
  | ⟨0, _⟩ => show win1_1.index t (0 : Fin 2) * 32 + 1 * (x 0).val = (x 0).val; rw [e0]; omega
  | ⟨1, _⟩ => show win1_1.index t (1 : Fin 2) * 1 + 1 * (x 1).val = (x 1).val; rw [e1]; omega

/-- The matrix block at any point is the whole whitening matrix. -/
theorem iblk2_apply (c : Dev nD) (t : Fin cfg1.N) (x : S32x32.Idx) :
    (iblk1 V c 2 t : Vec Ideal S32x32 .f32) x = (V c main_v70 : S32x32.Idx → Elt Ideal .f32) x := by
  obtain ⟨-, -, ⟨e0, e1⟩, -⟩ := idx_facts t
  unfold iblk1
  rw [View.read_apply]
  show V c main_v70 _ = V c main_v70 _
  refine congrArg (V c main_v70) ?_
  funext a
  apply Fin.ext
  match a with
  | ⟨0, _⟩ => show win1_2.index t (0 : Fin 2) * 32 + 1 * (x 0).val = (x 0).val; rw [e0]; omega
  | ⟨1, _⟩ => show win1_2.index t (1 : Fin 2) * 32 + 1 * (x 1).val = (x 1).val; rw [e1]; omega

/-- The scale block at point t is slab t % 8 of the scale. -/
theorem iblk3_apply (c : Dev nD) (t : Fin cfg1.N) (x : S1x32x1.Idx) (y : S8x32x1.Idx)
    (h0 : (y 0).val = t.val % 8 + (x 0).val) (h1 : (y 1).val = (x 1).val) (h2 : (y 2).val = (x 2).val) :
    (iblk1 V c 3 t : Vec Ideal S1x32x1 .f32) x = (V c main_v73 : S8x32x1.Idx → Elt Ideal .f32) y := by
  obtain ⟨-, -, -, ⟨e0, e1, e2⟩, -⟩ := idx_facts t
  unfold iblk1
  rw [View.read_apply]
  show V c main_v73 _ = V c main_v73 _
  refine congrArg (V c main_v73) ?_
  funext a
  apply Fin.ext
  match a with
  | ⟨0, _⟩ => show win1_3.index t (0 : Fin 3) * 1 + 1 * (x 0).val = (y 0).val; rw [e0, h0]; omega
  | ⟨1, _⟩ => show win1_3.index t (1 : Fin 3) * 32 + 1 * (x 1).val = (y 1).val; rw [e1, h1]; omega
  | ⟨2, _⟩ => show win1_3.index t (2 : Fin 3) * 1 + 1 * (x 2).val = (y 2).val; rw [e2, h2]; omega

/-- The shift block at point t is slab t % 8 of the shift. -/
theorem iblk4_apply (c : Dev nD) (t : Fin cfg1.N) (x : S1x32x1.Idx) (y : S8x32x1.Idx)
    (h0 : (y 0).val = t.val % 8 + (x 0).val) (h1 : (y 1).val = (x 1).val) (h2 : (y 2).val = (x 2).val) :
    (iblk1 V c 4 t : Vec Ideal S1x32x1 .f32) x = (V c main_v74 : S8x32x1.Idx → Elt Ideal .f32) y := by
  obtain ⟨-, -, -, -, ⟨e0, e1, e2⟩, -⟩ := idx_facts t
  unfold iblk1
  rw [View.read_apply]
  show V c main_v74 _ = V c main_v74 _
  refine congrArg (V c main_v74) ?_
  funext a
  apply Fin.ext
  match a with
  | ⟨0, _⟩ => show win1_4.index t (0 : Fin 3) * 1 + 1 * (x 0).val = (y 0).val; rw [e0, h0]; omega
  | ⟨1, _⟩ => show win1_4.index t (1 : Fin 3) * 32 + 1 * (x 1).val = (y 1).val; rw [e1, h1]; omega
  | ⟨2, _⟩ => show win1_4.index t (2 : Fin 3) * 1 + 1 * (x 2).val = (y 2).val; rw [e2, h2]; omega

/-- Entry (n, ch, k) of the result from the five arrays the pass reads — the input x, the mean column m, the whitening
    matrix W, the scale w and the shift b —: (∑ h, W[g, h] (x[n, 32 j + h, k] - m[h])) w[j, g] + b[j, g], j and g the slab and
    the group of channel ch. -/
def outCell (x : S64x256x3136.Idx → EReal) (m : S32x1.Idx → EReal) (W : S32x32.Idx → EReal) (w b : S8x32x1.Idx → EReal)
    (n : Fin 64) (ch : Fin 256) (k : Fin 3136) : EReal :=
  (∑ h : Fin 32, W (ix2 (chG ch) h) * (x (ix3 n (chan (chJ ch) h) k) - m (ix2 h (0 : Fin 1))))
    * w (ix3 (chJ ch) (chG ch) (0 : Fin 1)) + b (ix3 (chJ ch) (chG ch) (0 : Fin 1))

/-- The result array, entry by entry. -/
def result (c : Dev nD) : S64x256x3136.Idx → Elt Ideal .f32 := fun y =>
  outCell (V c main_v0) (V c main_v3) (V c main_v70) (V c main_v73) (V c main_v74) (y 0) (y 1) (y 2)

theorem result_ix3 (c : Dev nD) (n : Fin 64) (ch : Fin 256) (k : Fin 3136) :
    result V c (ix3 n ch k) = outCell (V c main_v0) (V c main_v3) (V c main_v70) (V c main_v73) (V c main_v74) n ch k := rfl

/-- What point t writes back is its block of `result`. -/
theorem flushed_eq (c : Dev nD) (t : Fin cfg1.N) :
    (dat1 (F := Ideal) V c).flushed 5 t = ((cfg1.win 5).blk t).view.read (Elt Ideal) (result V c) := by
  have hN : cfg1.N = 64 := N_1
  have ht : t.val < 64 := hN ▸ t.isLt
  show (cfg1.win 5).cut (grid1.coords t) ((dat1 V c).after 5 t) = _
  rw [after1_5]
  unfold outsAt1
  rw [out_eq]
  obtain ⟨-, -, -, -, -, ⟨e0, e1, e2⟩⟩ := idx_facts t
  funext j
  have hj0 : (j 0).val < 8 := (j 0).isLt
  have hj1 : (j 1).val < 32 := (j 1).isLt
  have hj2 : (j 2).val < 3136 := (j 2).isLt
  rw [View.read_apply]
  show blockOut (iblk1 V c 0 t) (iblk1 V c 1 t) (iblk1 V c 2 t) (iblk1 V c 3 t) (iblk1 V c 4 t)
      (ix3 (⟨(j 0).val, hj0⟩ : Fin 8) (⟨(j 1).val, hj1⟩ : Fin 32) (⟨(j 2).val, hj2⟩ : Fin 3136)) = result V c _
  have hemb : ((cfg1.win 5).blk t).view.emb j
      = ix3 (⟨8 * (t.val / 8) + (j 0).val, by omega⟩ : Fin 64) (⟨32 * (t.val % 8) + (j 1).val, by omega⟩ : Fin 256)
          (⟨(j 2).val, hj2⟩ : Fin 3136) := by
    funext a
    apply Fin.ext
    match a with
    | ⟨0, _⟩ => show win1_5.index t (0 : Fin 3) * 8 + 1 * (j 0).val = 8 * (t.val / 8) + (j 0).val; rw [e0]; omega
    | ⟨1, _⟩ => show win1_5.index t (1 : Fin 3) * 32 + 1 * (j 1).val = 32 * (t.val % 8) + (j 1).val; rw [e1]; omega
    | ⟨2, _⟩ => show win1_5.index t (2 : Fin 3) * 3136 + 1 * (j 2).val = (j 2).val; rw [e2]; omega
  rw [hemb, result_ix3, blockOut_ix3]
  unfold cell outCell
  have hG : chG (⟨32 * (t.val % 8) + (j 1).val, by omega⟩ : Fin 256) = (⟨(j 1).val, hj1⟩ : Fin 32) := by
    apply Fin.ext; simp only [chG]; omega
  have hJ : chJ (⟨32 * (t.val % 8) + (j 1).val, by omega⟩ : Fin 256) = (⟨t.val % 8, by omega⟩ : Fin 8) := by
    apply Fin.ext; simp only [chJ]; omega
  rw [hG, hJ]
  refine congrArg₂ (fun (a b : EReal) => a + b) (congrArg₂ (fun (a b : EReal) => a * b) (Finset.sum_congr rfl fun h _ => ?_) ?_) ?_
  · refine congrArg₂ (fun (a b : EReal) => a * b) (iblk2_apply V c t _) (congrArg₂ (fun (a b : EReal) => a - b) ?_ (iblk1_apply V c t _))
    exact iblk0_apply V c t _ _ rfl rfl rfl
  · exact iblk3_apply V c t _ _ (by show t.val % 8 = t.val % 8 + 0; omega) rfl rfl
  · exact iblk4_apply V c t _ _ (by show t.val % 8 = t.val % 8 + 0; omega) rfl rfl

/-- The result array after the pass. -/
theorem final (c : Dev nD) : (dat1 (F := Ideal) V c).arrAt 5 cfg1.N = result V c :=
  (dat1 (F := Ideal) V c).arrAt_eq_of_cover 5 (result V c) (fun t _ => flushed_eq V c t) fun i => by
    have hN : cfg1.N = 64 := N_1
    have hi0 : (i 0).val < 64 := (i 0).isLt
    have hi1 : (i 1).val < 256 := (i 1).isLt
    have hi2 : (i 2).val < 3136 := (i 2).isLt
    have hlt : 8 * ((i 0).val / 8) + (i 1).val / 32 < cfg1.N := by rw [hN]; omega
    obtain ⟨t, htv⟩ : ∃ t : Fin cfg1.N, t.val = 8 * ((i 0).val / 8) + (i 1).val / 32 := ⟨⟨_, hlt⟩, rfl⟩
    obtain ⟨-, -, -, -, -, ⟨e0, e1, e2⟩⟩ := idx_facts t
    refine ⟨t, flush1_5 t, ?_⟩
    show i ∈ ((View.whole main_v75).slice (win1_5.rect t)).set
    rw [View.set_slice_whole, Rect.mem_set_unit]
    intro a
    match a with
    | ⟨0, _⟩ =>
      show win1_5.index t (0 : Fin 3) * 8 ≤ (i 0).val ∧ (i 0).val < win1_5.index t (0 : Fin 3) * 8 + 8
      rw [e0, htv]; omega
    | ⟨1, _⟩ =>
      show win1_5.index t (1 : Fin 3) * 32 ≤ (i 1).val ∧ (i 1).val < win1_5.index t (1 : Fin 3) * 32 + 32
      rw [e1, htv]; omega
    | ⟨2, _⟩ =>
      show win1_5.index t (2 : Fin 3) * 3136 ≤ (i 2).val ∧ (i 2).val < win1_5.index t (2 : Fin 3) * 3136 + 3136
      rw [e2]; omega

/-- The apply pass's result, entry by entry: entry (n, ch, k) whitens the 32 channels of ch's slab at sample n, pixel k, and
    applies channel ch's scale and shift. -/
theorem out_arr (c : Dev nD) (n : Fin 64) (ch : Fin 256) (k : Fin 3136) :
    (dat1 (F := Ideal) V c).arrAt 5 cfg1.N (ix3 n ch k)
      = outCell (V c main_v0) (V c main_v3) (V c main_v70) (V c main_v73) (V c main_v74) n ch k := by
  rw [final]
  rfl

end Cert.KernelIdeal.Apply

end
-- ==== Proof.LibHostRow.lean ====
/-
  The host's row-wise operations on a [a, b] matrix, read at indices given by coordinates, over the extended reals:
  • a vector [a] lifted to the column [a, 1] (broadcast_in_dim along axis 0) reads, at (p, u), the vector's entry p;
  • a column [a, 1] repeated along the rows to [a, b] (broadcast_in_dim along both axes) reads, at (p, q), the column's row p;
  • the two in a row read the vector's entry p;
  • the host's sum along row r from an initial value is the initial value plus Σ_{k < b} of the entries (r, k).
-/
import Idealize.ShloMosaic.PureOps.Ideal.Laws
import Idealize.ShloMosaic.Lib.Pipeline.Value
import Idealize.ShloMosaic.Lib.ValueIdx
import Idealize.ShloMosaic.Lib.IdealHost
import proofs.«167353_j44676249813412_2_alg».proof.Proof.LibRowColumn

open scoped BigOperators

namespace Idealize.ShloMosaic.HostRow

open Idealize.ShloMosaic Idealize.ShloMosaic.ValueIdx

variable {α : Type}

/-- A vector [a] lifted to the column [a, 1] reads, at (p, u), the vector's entry p. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  have hp := p.isLt
  refine broadcastInDim_apply _ h v (ix2 p u) (ix1 p) fun ax => ?_
  match ax with
  | ⟨0, _⟩ =>
    show p.val = if a = 1 then 0 else p.val
    split
    · omega
    · rfl

/-- A column [a, 1] repeated along the rows to [a, b] reads, at (p, q), the column's row p. -/
theorem bcast_a1_ab_apply {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  have hp := p.isLt
  refine broadcastInDim_apply _ h w (ix2 p q) (ix2 p (0 : Fin 1)) fun ax => ?_
  match ax with
  | ⟨0, _⟩ =>
    show p.val = if a = 1 then 0 else p.val
    split
    · omega
    · rfl
  | ⟨1, _⟩ => rfl

/-- A vector [a] lifted to [a, 1] and repeated to [a, b] reads, at (p, q), the vector's entry p. -/
theorem bcast_a_ab_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (bcast_a1_ab_apply _ h2 p q).trans (bcast_a_a1_apply v h1 p 0)

/-- The host's sum along row r of a [a, b] matrix from the initial value: the initial value plus the sum of the row's entries. -/
theorem hostReduceAdd_cols {a b : ℕ} {u : Shape} {φ : FTy} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduceAdd x init h' hu (ix1 r) = init (Shape.Idx.first hu) + ∑ k : Fin b, x (ix2 r k) := by
  refine (hostReduceAdd_apply x init h' hu (ix1 r)).trans ?_
  rw [Ideal.hostReduceAdd_single h' h]
  exact congrArg (init (Shape.Idx.first hu) + ·) (Finset.sum_congr rfl fun k _ => congrArg x (RowColumn.lift_cols h r k))

end Idealize.ShloMosaic.HostRow
-- ==== Proof.RefRead.lean ====
/-
  The reference's stages read at an index. A column col of the [32, 1605632] group view is sample col / 25088,
  channel slab (col / 3136) mod 8 and flattened pixel col mod 3136; row g of it holds channel 32 j + g of slab j.
  The mean is the row sum (from the printed zero) divided by the printed count; the covariance entry (g, h) is the
  sum over the columns of the products of the centred rows g and h, divided by the count, plus the printed
  regulariser times the identity's entry; the output at (n, ch, p, q) is row ch mod 32 of the whitening matrix
  against the column of (n, ch / 32, 56 p + q) of the centred view, scaled and shifted per channel.
-/
import proofs.«167353_j44676249813412_2_alg».proof.Proof.RefRunStages
import proofs.«167353_j44676249813412_2_alg».proof.Proof.Spec
import proofs.«167353_j44676249813412_2_alg».proof.Proof.LibPlainDot
import proofs.«167353_j44676249813412_2_alg».proof.Proof.LibHostRow
import proofs.«167353_j44676249813412_2_alg».proof.Proof.LibRowReduce
import Idealize.ShloMosaic.Lib.Pipeline.Value
import Idealize.ShloMosaic.Lib.ValueIdx
import Idealize.ShloMosaic.Lib.IdealHost

open scoped BigOperators

noncomputable section

namespace Cert.ReferenceIdeal.RefRead

open Cert.ReferenceIdeal Cert.ReferenceIdeal.Gen Cert.ReferenceIdeal.RefRun Idealize.ShloMosaic
open Cert.Spec Idealize.ShloMosaic.ValueIdx

/-- The group view at (g, col): sample, channel and pixel of the column. -/
theorem xg_apply (x : FVec Ideal S64x256x56x56 .f32) (g : Fin 32) (col : Fin 1605632) :
    xg x (ix2 g col) = x (ix4 (colN col) (chan (colJ col) g) (pixP (colK col)) (pixQ (colK col))) := by
  have hc := col.isLt
  have hg := g.isLt
  have ht : col.val / 3136 < 512 := by omega
  unfold xg
  refine (shapeCast_apply _ shapeCasts_S32x512x56x56_S32x1605632 (ix2 g col)
    (ix4 g (⟨col.val / 3136, ht⟩ : Fin 512) (pixP (colK col)) (pixQ (colK col))) ?_).trans ?_
  · rw [Shape.rowMajor_val_four, Shape.rowMajor_val_two]
    show ((g.val * 512 + col.val / 3136) * 56 + col.val % 3136 / 56) * 56 + col.val % 3136 % 56 = g.val * 1605632 + col.val
    omega
  refine (transpose_apply [1, 0, 2, 3] _ transposes_S512x32x56x56_S32x512x56x56_1_0_2_3
    (ix4 g (⟨col.val / 3136, ht⟩ : Fin 512) (pixP (colK col)) (pixQ (colK col)))
    (ix4 (⟨col.val / 3136, ht⟩ : Fin 512) g (pixP (colK col)) (pixQ (colK col))) (fun b => by
      match b with
      | ⟨0, _⟩ => rfl
      | ⟨1, _⟩ => rfl
      | ⟨2, _⟩ => rfl
      | ⟨3, _⟩ => rfl)).trans ?_
  refine shapeCast_apply x shapeCasts_S64x256x56x56_S512x32x56x56
    (ix4 (⟨col.val / 3136, ht⟩ : Fin 512) g (pixP (colK col)) (pixQ (colK col)))
    (ix4 (colN col) (chan (colJ col) g) (pixP (colK col)) (pixQ (colK col))) ?_
  rw [Shape.rowMajor_val_four, Shape.rowMajor_val_four]
  show ((col.val / 25088 * 256 + (32 * (col.val / 3136 % 8) + g.val)) * 56 + col.val % 3136 / 56) * 56 + col.val % 3136 % 56
    = ((col.val / 3136 * 32 + g.val) * 56 + col.val % 3136 / 56) * 56 + col.val % 3136 % 56
  omega

/-- The mean of row g: the row sum from the printed zero, divided by the printed count. -/
theorem meanR_apply (x : FVec Ideal S64x256x56x56 .f32) (g : Fin 32) (u : Fin 1) :
    meanR x (ix2 g u)
      = Ideal.div (Ideal.ofBits .f32 0x00000000#32 + ∑ col : Fin 1605632, xg x (ix2 g col)) (Ideal.ofBits .f32 0x49C40000#32) := by
  unfold meanR
  rw [hostDivf_apply, HostRow.bcast_a_a1_apply, broadcastInDim_scalar_apply,
    HostRow.hostReduceAdd_cols _ _ reducesTo_S32x1605632_S32_d1 (by decide) h_S_ g]
  rfl

/-- The centred view at (g, col). -/
theorem xmR_apply (x : FVec Ideal S64x256x56x56 .f32) (g : Fin 32) (col : Fin 1605632) :
    xmR x (ix2 g col) = xg x (ix2 g col) - meanR x (ix2 g 0) := by
  unfold xmR
  rw [subf_apply, HostRow.bcast_a1_ab_apply]

/-- The covariance entry (g, h). -/
theorem sigmaR_apply (x : FVec Ideal S64x256x56x56 .f32) (g h : Fin 32) :
    sigmaR x (ix2 g h)
      = Ideal.div (∑ col : Fin 1605632, xmR x (ix2 g col) * xmR x (ix2 h col)) (Ideal.ofBits .f32 0x49C40000#32)
        + Ideal.ofBits .f32 0x3727C5AC#32 * eye (ix2 g h) := by
  unfold sigmaR
  rw [addf_apply, hostDivf_apply, mulf_apply, broadcastInDim_scalar_apply, broadcastInDim_scalar_apply]
  refine congrArg₂ (· + ·) (congrArg₂ Ideal.div ?_ rfl) rfl
  refine (PlainDot.dotGeneral_apply_ix2 (M := 32) (K := 1605632) (N := 32) none .single (xmR x)
    (transpose S1605632x32 [1, 0] (xmR x) transposes_S32x1605632_S1605632x32_1_0) g h).trans ?_
  exact Finset.sum_congr rfl fun col _ => congrArg (xmR x (ix2 g col) * ·)
    (RowReduce.transpose_10_apply (xmR x) transposes_S32x1605632_S1605632x32_1_0 col h)

/-- The output at (n, ch, p, q). -/
theorem outOf_apply (wm : FVec Ideal S32x32 .f32) (xm : FVec Ideal S32x1605632 .f32) (w b : FVec Ideal S1x256x1x1 .f32)
    (n : Fin 64) (ch : Fin 256) (p q : Fin 56) :
    outOf wm xm w b (ix4 n ch p q)
      = (∑ h : Fin 32, wm (ix2 (chG ch) h) * xm (ix2 h (colOf n (chJ ch) (pix p q)))) * w (ix4 0 ch 0 0) + b (ix4 0 ch 0 0) := by
  have hn := n.isLt
  have hch := ch.isLt
  have hp := p.isLt
  have hq := q.isLt
  have ht : n.val * 8 + ch.val / 32 < 512 := by omega
  unfold outOf
  rw [addf_apply, mulf_apply]
  have hw : ∀ v : FVec Ideal S1x256x1x1 .f32,
      broadcastInDim S64x256x56x56 ![0, 1, 2, 3] bcast_S1x256x1x1_S64x256x56x56_0_1_2_3 v (ix4 n ch p q) = v (ix4 0 ch 0 0) := fun v =>
    broadcastInDim_apply _ bcast_S1x256x1x1_S64x256x56x56_0_1_2_3 v (ix4 n ch p q) (ix4 0 ch 0 0) (fun a => by
      match a with
      | ⟨0, _⟩ => rfl
      | ⟨1, _⟩ => rfl
      | ⟨2, _⟩ => rfl
      | ⟨3, _⟩ => rfl)
  rw [hw w, hw b]
  refine congrArg₂ (· + ·) (congrArg₂ (· * ·) ?_ rfl) rfl
  refine (shapeCast_apply _ shapeCasts_S512x32x56x56_S64x256x56x56 (ix4 n ch p q)
    (ix4 (⟨n.val * 8 + ch.val / 32, ht⟩ : Fin 512) (chG ch) p q) ?_).trans ?_
  · rw [Shape.rowMajor_val_four, Shape.rowMajor_val_four]
    show (((n.val * 8 + ch.val / 32) * 32 + ch.val % 32) * 56 + p.val) * 56 + q.val = ((n.val * 256 + ch.val) * 56 + p.val) * 56 + q.val
    omega
  refine (transpose_apply [1, 0, 2, 3] _ transposes_S32x512x56x56_S512x32x56x56_1_0_2_3
    (ix4 (⟨n.val * 8 + ch.val / 32, ht⟩ : Fin 512) (chG ch) p q)
    (ix4 (chG ch) (⟨n.val * 8 + ch.val / 32, ht⟩ : Fin 512) p q) (fun a => by
      match a with
      | ⟨0, _⟩ => rfl
      | ⟨1, _⟩ => rfl
      | ⟨2, _⟩ => rfl
      | ⟨3, _⟩ => rfl)).trans ?_
  refine (shapeCast_apply _ shapeCasts_S32x1605632_S32x512x56x56
    (ix4 (chG ch) (⟨n.val * 8 + ch.val / 32, ht⟩ : Fin 512) p q) (ix2 (chG ch) (colOf n (chJ ch) (pix p q))) ?_).trans ?_
  · rw [Shape.rowMajor_val_four, Shape.rowMajor_val_two]
    show ch.val % 32 * 1605632 + ((8 * n.val + ch.val / 32) * 3136 + (56 * p.val + q.val))
      = ((ch.val % 32 * 512 + (n.val * 8 + ch.val / 32)) * 56 + p.val) * 56 + q.val
    omega
  exact PlainDot.dotGeneral_apply_ix2 (M := 32) (K := 32) (N := 1605632) none .single wm xm (chG ch) (colOf n (chJ ch) (pix p q))

end Cert.ReferenceIdeal.RefRead

end
-- ==== Proof.CovWords.lean ====
/-
  The two f32 words that enter the covariance: 0x49C40000 is 1605632 = 2^20 · 1.53125 (sign 0, biased exponent 147,
  fraction 0x440000 = 4456448, so (2^23 + 4456448) · 2^(147 − 127 − 23) = 12845056 / 8), the number of columns of the
  group view; 0x00000000 is 0.
-/
import Idealize.ShloMosaic.PureOps.Ideal.Laws

namespace Cert.Cov

open Idealize.ShloMosaic

/-- The f32 pattern `0x49C40000` denotes 1605632. -/
theorem m_word : Ideal.ofBits .f32 0x49C40000#32 = ((1605632 : ℝ) : EReal) := by
  simp [Ideal.ofBits, Ideal.ieee]
  rw [← EReal.coe_mul]
  exact congrArg _ (by norm_num)

/-- The f32 pattern `0x00000000` denotes 0. -/
theorem zero_word : Ideal.ofBits .f32 0x00000000#32 = (0 : EReal) := Ideal.ofBits_zero_f32

end Cert.Cov
-- ==== Proof.CovReal.lean ====
/-
  The covariance identity over the reals. For two finite families a, b indexed by a set of M ≠ 0 elements, with means
  μ_a = (Σ a) / M and μ_b = (Σ b) / M,

      (Σ_i (a_i − μ_a)(b_i − μ_b)) / M  =  (Σ_i a_i b_i) / M − μ_a μ_b :

  expanding the product, Σ_i a_i μ_b = μ_b Σ a, Σ_i μ_a b_i = μ_a Σ b and Σ_i μ_a μ_b = M μ_a μ_b, and
  μ_b Σ a = μ_a Σ b = M μ_a μ_b.
-/
import Idealize.ShloMosaic.PureOps.Ideal

open scoped BigOperators

namespace Cert.Cov

/-- The centred second moment is the raw second moment minus the product of the means. -/
theorem cov_real {ι : Type*} [Fintype ι] (a b : ι → ℝ) (M : ℝ) (hM : M = Fintype.card ι) (h0 : M ≠ 0) :
    (∑ i, (a i - (∑ j, a j) / M) * (b i - (∑ j, b j) / M)) / M
      = (∑ i, a i * b i) / M - ((∑ j, a j) / M) * ((∑ j, b j) / M) := by
  have hexp : ∀ i, (a i - (∑ j, a j) / M) * (b i - (∑ j, b j) / M)
      = a i * b i - a i * ((∑ j, b j) / M) - ((∑ j, a j) / M) * b i + ((∑ j, a j) / M) * ((∑ j, b j) / M) := by
    intro i; ring
  simp only [hexp, Finset.sum_add_distrib, Finset.sum_sub_distrib, ← Finset.sum_mul, ← Finset.mul_sum,
    Finset.sum_const, Finset.card_univ, nsmul_eq_mul, ← hM]
  field_simp
  ring

/-- A family of extended reals each of which is a real number is the image of a real family. -/
theorem real_family (x : Fin 1605632 → EReal) (hx : ∀ col, ∃ r : ℝ, x col = r) :
    ∃ a : Fin 1605632 → ℝ, ∀ col, x col = ((a col : ℝ) : EReal) := by
  choose a ha using hx
  exact ⟨a, ha⟩

end Cert.Cov
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.CovEReal.lean ====
/-
  The covariance identity on the extended reals, for families of real numbers, in the spelling of the operations: a
  quotient is `Ideal.div`, the number of columns is the f32 word 0x49C40000 = 1605632, the mean's sum starts from the
  word 0, and the product of the two means sits under a sum over a one-element index. Every entry being the image of a
  real, each operation is the image of the real operation (the coercion commutes with +, −, ·, finite sums, and with a
  quotient by a nonzero real), so the identity is the image of the real one.
-/
import proofs.«167353_j44676249813412_2_alg».proof.Proof.CovWords
import proofs.«167353_j44676249813412_2_alg».proof.Proof.CovReal
import proofs.«167353_j44676249813412_2_alg».proof.Proof.LibERealSum

open scoped BigOperators

namespace Cert.Cov

open Idealize.ShloMosaic

/-- The quotient of two reals, the divisor not 0. -/
theorem div_real (x y : ℝ) (hy : y ≠ 0) : Ideal.div (x : EReal) (y : EReal) = ((x / y : ℝ) : EReal) := by
  rw [Ideal.div_coe hy, ← EReal.coe_mul, mul_one_div]

/-- The quotient of a real by the number of columns, the divisor spelt as its f32 word. -/
theorem div_m_word (x : ℝ) : Ideal.div (x : EReal) (Ideal.ofBits .f32 0x49C40000#32) = ((x / 1605632 : ℝ) : EReal) := by
  rw [m_word, div_real x 1605632 (by norm_num)]

/-- The difference of two reals. -/
theorem sub_real (x y : ℝ) : (x : EReal) - (y : EReal) = ((x - y : ℝ) : EReal) := (EReal.coe_sub x y).symm

/-- The product of two reals. -/
theorem mul_real (x y : ℝ) : (x : EReal) * (y : EReal) = ((x * y : ℝ) : EReal) := (EReal.coe_mul x y).symm

/-- The sum of two reals. -/
theorem add_real (x y : ℝ) : (x : EReal) + (y : EReal) = ((x + y : ℝ) : EReal) := (EReal.coe_add x y).symm

/-- A finite sum of reals. -/
theorem sum_real {ι : Type*} [Fintype ι] (f : ι → ℝ) : ∑ i, ((f i : ℝ) : EReal) = ((∑ i, f i : ℝ) : EReal) :=
  (ERealSum.coe_finset_sum Finset.univ f).symm

/-- A sum started from the word 0 is the sum. -/
theorem zero_word_add (x : EReal) : Ideal.ofBits .f32 0x00000000#32 + x = x := by
  rw [zero_word, zero_add]

/-- The mean of a real family, in the reference's spelling: the sum started from the word 0, over the word 1605632. -/
theorem mean_real (a : Fin 1605632 → ℝ) :
    Ideal.div (Ideal.ofBits .f32 0x00000000#32 + ∑ c', ((a c' : ℝ) : EReal)) (Ideal.ofBits .f32 0x49C40000#32)
      = (((∑ c', a c') / 1605632 : ℝ) : EReal) := by
  rw [zero_word_add, sum_real, div_m_word]

/-- The mean of a real family, in the kernel's spelling: the sum over the word 1605632. -/
theorem mean_real' (a : Fin 1605632 → ℝ) :
    Ideal.div (∑ c', ((a c' : ℝ) : EReal)) (Ideal.ofBits .f32 0x49C40000#32) = (((∑ c', a c') / 1605632 : ℝ) : EReal) := by
  rw [sum_real, div_m_word]

/-- The covariance from centred data is the covariance from raw moments. -/
theorem cov_ereal (a b : Fin 1605632 → ℝ) :
    Ideal.div (∑ col, (((a col : ℝ) : EReal) - Ideal.div (Ideal.ofBits .f32 0x00000000#32 + ∑ c', ((a c' : ℝ) : EReal)) (Ideal.ofBits .f32 0x49C40000#32))
                     * (((b col : ℝ) : EReal) - Ideal.div (Ideal.ofBits .f32 0x00000000#32 + ∑ c', ((b c' : ℝ) : EReal)) (Ideal.ofBits .f32 0x49C40000#32)))
              (Ideal.ofBits .f32 0x49C40000#32)
      = Ideal.div (∑ col, ((a col : ℝ) : EReal) * ((b col : ℝ) : EReal)) (Ideal.ofBits .f32 0x49C40000#32)
        - ∑ _u : Fin 1, Ideal.div (∑ c', ((a c' : ℝ) : EReal)) (Ideal.ofBits .f32 0x49C40000#32) * Ideal.div (∑ c', ((b c' : ℝ) : EReal)) (Ideal.ofBits .f32 0x49C40000#32) := by
  rw [mean_real a, mean_real b, mean_real' a, mean_real' b, Fin.sum_univ_one]
  simp only [sub_real, mul_real, sum_real, div_m_word]
  exact congrArg _ (cov_real a b 1605632 (by simp) (by norm_num))

/-- The same with a common term added to both sides. -/
theorem cov_ereal_add (a b : Fin 1605632 → ℝ) (z : EReal) :
    Ideal.div (∑ col, (((a col : ℝ) : EReal) - Ideal.div (Ideal.ofBits .f32 0x00000000#32 + ∑ c', ((a c' : ℝ) : EReal)) (Ideal.ofBits .f32 0x49C40000#32))
                     * (((b col : ℝ) : EReal) - Ideal.div (Ideal.ofBits .f32 0x00000000#32 + ∑ c', ((b c' : ℝ) : EReal)) (Ideal.ofBits .f32 0x49C40000#32)))
              (Ideal.ofBits .f32 0x49C40000#32) + z
      = Ideal.div (∑ col, ((a col : ℝ) : EReal) * ((b col : ℝ) : EReal)) (Ideal.ofBits .f32 0x49C40000#32)
        - ∑ _u : Fin 1, Ideal.div (∑ c', ((a c' : ℝ) : EReal)) (Ideal.ofBits .f32 0x49C40000#32) * Ideal.div (∑ c', ((b c' : ℝ) : EReal)) (Ideal.ofBits .f32 0x49C40000#32)
        + z :=
  congrArg (· + z) (cov_ereal a b)

end Cert.Cov
-- ==== Proof.CovReindex.lean ====
/-
  The columns of the group view, walked tile by tile. A column col < 1605632 = 64 · 8 · 3136 is (8 n + j) · 3136 + k for a
  sample n < 64, a slab j < 8 and a flattened pixel k < 3136. The statistics pass visits 32 points t = 8 nt + j, each
  holding the 16 samples n = 16 nt + a of slab j; so (t, a, k) ↦ (8 (16 (t / 8) + a) + t mod 8) · 3136 + k is a bijection
  from 32 × 16 × 3136 onto the columns, with inverse col ↦ (8 (col / 25088 / 16) + col / 3136 mod 8, col / 25088 mod 16,
  col mod 3136). A sum over all columns is therefore the iterated sum over points, samples of the tile and pixels, in
  either order of the two inner sums; this holds in any commutative additive monoid (no subtraction, no finiteness).
-/
import Mathlib.Algebra.BigOperators.Fin
import Mathlib.Data.Fintype.BigOperators
import proofs.«167353_j44676249813412_2_alg».proof.Proof.Spec

open scoped BigOperators

namespace Cert.Cov

open Cert.Spec

/-- Point, sample within the tile and pixel, against the column of the group view. -/
def tileEquiv : (Fin 32 × Fin 16 × Fin 3136) ≃ Fin 1605632 where
  toFun x := colOf (tileN x.1 x.2.1) (tileJ x.1) x.2.2
  invFun col := (⟨8 * (col.val / 25088 / 16) + col.val / 3136 % 8, by omega⟩, ⟨col.val / 25088 % 16, by omega⟩, colK col)
  left_inv := by
    rintro ⟨t, a, k⟩
    refine Prod.ext (Fin.ext ?_) (Prod.ext (Fin.ext ?_) (Fin.ext ?_)) <;>
      simp only [colOf, tileN, tileJ, colK] <;> omega
  right_inv := by
    intro col
    apply Fin.ext
    simp only [colOf, tileN, tileJ, colK]
    omega

theorem tileEquiv_apply (t : Fin 32) (a : Fin 16) (k : Fin 3136) :
    tileEquiv (t, a, k) = colOf (tileN t a) (tileJ t) k := rfl

/-- The sum over the columns, as the sum over points, then samples of the tile, then pixels. -/
theorem sum_tiles_ak {M : Type*} [AddCommMonoid M] (F : Fin 64 → Fin 8 → Fin 3136 → M) :
    ∑ t : Fin 32, ∑ a : Fin 16, ∑ k : Fin 3136, F (tileN t a) (tileJ t) k
      = ∑ col : Fin 1605632, F (colN col) (colJ col) (colK col) := by
  have h := Fintype.sum_equiv tileEquiv (fun x => F (tileN x.1 x.2.1) (tileJ x.1) x.2.2)
    (fun col => F (colN col) (colJ col) (colK col)) (fun x => by
      show _ = F (colN (colOf _ _ _)) (colJ (colOf _ _ _)) (colK (colOf _ _ _))
      rw [colN_colOf, colJ_colOf, colK_colOf])
  rw [← h]
  simp only [Fintype.sum_prod_type]

/-- The same with pixels before samples. -/
theorem sum_tiles_ka {M : Type*} [AddCommMonoid M] (F : Fin 64 → Fin 8 → Fin 3136 → M) :
    ∑ t : Fin 32, ∑ k : Fin 3136, ∑ a : Fin 16, F (tileN t a) (tileJ t) k
      = ∑ col : Fin 1605632, F (colN col) (colJ col) (colK col) := by
  rw [← sum_tiles_ak F]
  exact Finset.sum_congr rfl fun t _ => Finset.sum_comm

end Cert.Cov
-- ==== Proof.CovFinite.lean ====
/-
  The covariance identity for two families of extended reals every entry of which is a real number, with a common term
  added to both sides: the families are the images of real families, for which the identity is already known.
-/
import proofs.«167353_j44676249813412_2_alg».proof.Proof.CovEReal

open scoped BigOperators

namespace Cert.Cov

open Idealize.ShloMosaic

/-- The covariance from centred data is the covariance from raw moments, when every entry is finite. -/
theorem cov_finite (x y : Fin 1605632 → EReal) (hx : ∀ col, ∃ r : ℝ, x col = r) (hy : ∀ col, ∃ r : ℝ, y col = r)
    (z : EReal) :
    Ideal.div (∑ col, (x col - Ideal.div (Ideal.ofBits .f32 0x00000000#32 + ∑ c', x c') (Ideal.ofBits .f32 0x49C40000#32))
                     * (y col - Ideal.div (Ideal.ofBits .f32 0x00000000#32 + ∑ c', y c') (Ideal.ofBits .f32 0x49C40000#32)))
              (Ideal.ofBits .f32 0x49C40000#32) + z
      = Ideal.div (∑ col, x col * y col) (Ideal.ofBits .f32 0x49C40000#32)
        - ∑ _u : Fin 1, Ideal.div (∑ c', x c') (Ideal.ofBits .f32 0x49C40000#32) * Ideal.div (∑ c', y c') (Ideal.ofBits .f32 0x49C40000#32)
        + z := by
  obtain ⟨a, ha⟩ := real_family x hx
  obtain ⟨b, hb⟩ := real_family y hy
  obtain rfl : x = fun col => ((a col : ℝ) : EReal) := funext ha
  obtain rfl : y = fun col => ((b col : ℝ) : EReal) := funext hb
  exact cov_ereal_add a b z

end Cert.Cov
-- ==== Proof.CovAlgebra.lean ====
/-
  The algebra joining the two computations of the group covariance: the f32 words for the number of columns and for 0,
  the covariance identity over the reals and its form on the extended reals for real-valued families, the walk of the
  columns tile by tile, the choice of a real family behind a family of finite extended reals, and the identity stated for
  such families directly.
-/
import proofs.«167353_j44676249813412_2_alg».proof.Proof.CovWords
import proofs.«167353_j44676249813412_2_alg».proof.Proof.CovReal
import proofs.«167353_j44676249813412_2_alg».proof.Proof.CovEReal
import proofs.«167353_j44676249813412_2_alg».proof.Proof.CovReindex
import proofs.«167353_j44676249813412_2_alg».proof.Proof.CovFinite
-- ==== Proof.CovBridge.lean ====
/-
  The covariance identity for an abstract input X[n, ch, k] (64 samples, 256 channels, 3136 flattened pixels), every
  entry a real number. Entry (g, col) of the group view is X (colN col) (chan (colJ col) g) (colK col): the channel of
  group g in the column's slab. On one side the mean and the centred second moment run over the columns; on the other
  the sums run over the statistics points t, the 16 samples of the point's tile and the pixels, the channel being that of
  group g in the point's slab. The walk of the columns tile by tile turns the second into sums over the columns, where
  the identity for families of finite extended reals applies.
-/
import proofs.«167353_j44676249813412_2_alg».proof.Proof.CovAlgebra
import proofs.«167353_j44676249813412_2_alg».proof.Proof.Spec

open scoped BigOperators

namespace Cert.Cov

open Idealize.ShloMosaic Cert.Spec

local notation "Mw" => Ideal.ofBits FTy.f32 0x49C40000#32
local notation "Zw" => Ideal.ofBits FTy.f32 0x00000000#32

/-- The mean over the columns, started from the word 0, is the mean of the sums gathered point by point. -/
theorem mean_bridge (X : Fin 64 → Fin 256 → Fin 3136 → EReal) (g : Fin 32) :
    Ideal.div (Zw + ∑ col : Fin 1605632, X (colN col) (chan (colJ col) g) (colK col)) Mw
      = Ideal.div (∑ t : Fin 32, ∑ k : Fin 3136, ∑ a : Fin 16, X (tileN t a) (chan (tileJ t) g) k) Mw := by
  rw [zero_word_add, ← sum_tiles_ka (fun n j k => X n (chan j g) k)]

/-- The covariance of groups g and h from centred columns is the one from the raw moments gathered point by point. -/
theorem sigma_bridge (X : Fin 64 → Fin 256 → Fin 3136 → EReal) (hX : ∀ n ch k, ∃ r : ℝ, X n ch k = r)
    (g h : Fin 32) (z : EReal) :
    Ideal.div (∑ col : Fin 1605632,
          (X (colN col) (chan (colJ col) g) (colK col)
              - Ideal.div (Zw + ∑ c' : Fin 1605632, X (colN c') (chan (colJ c') g) (colK c')) Mw)
        * (X (colN col) (chan (colJ col) h) (colK col)
              - Ideal.div (Zw + ∑ c' : Fin 1605632, X (colN c') (chan (colJ c') h) (colK c')) Mw)) Mw + z
      = (Ideal.div (∑ t : Fin 32, ∑ a : Fin 16, ∑ k : Fin 3136,
              X (tileN t a) (chan (tileJ t) g) k * X (tileN t a) (chan (tileJ t) h) k) Mw
         - ∑ _u : Fin 1,
             Ideal.div (∑ t : Fin 32, ∑ k : Fin 3136, ∑ a : Fin 16, X (tileN t a) (chan (tileJ t) g) k) Mw
           * Ideal.div (∑ t : Fin 32, ∑ k : Fin 3136, ∑ a : Fin 16, X (tileN t a) (chan (tileJ t) h) k) Mw) + z := by
  rw [sum_tiles_ak (fun n j k => X n (chan j g) k * X n (chan j h) k),
    sum_tiles_ka (fun n j k => X n (chan j g) k), sum_tiles_ka (fun n j k => X n (chan j h) k)]
  exact cov_finite (fun col => X (colN col) (chan (colJ col) g) (colK col))
    (fun col => X (colN col) (chan (colJ col) h) (colK col)) (fun _ => hX _ _ _) (fun _ => hX _ _ _) z

end Cert.Cov
-- ==== Proof.Bridge.lean ====
/-
  The two programs compute one function.

  Write X(n, ch, k) for the input at sample n, channel ch, flattened pixel k, and M for the number of columns of the
  group view.  At output entry (n, ch, p, q), with j = ch / 32 the slab and g = ch mod 32 the group of the channel,
  both programs return
      ( sum over h < 32 of  wm(g, h) * ( X(n, 32 j + h, 56 p + q) - mean(h) ) ) * weight(ch) + bias(ch),
  where mean is the vector of group means and wm the whitening matrix, one fixed function of the regularised
  covariance sigma of the groups.  The reference centres the group view first and forms sigma from the centred rows;
  the kernel's statistics pass returns raw sums and raw second moments gathered tile by tile, and the host forms
  sigma = G / M - mean mean^T + eps I.  On real inputs the two covariances agree (the covariance identity; it needs
  the inputs finite, because it distributes a product over a sum), the two means agree by re-indexing the columns
  tile by tile, and the remaining operations are the same on both sides.
-/
import proofs.«167353_j44676249813412_2_alg».proof.Proof.KHost
import proofs.«167353_j44676249813412_2_alg».proof.Proof.KSigma
import proofs.«167353_j44676249813412_2_alg».proof.Proof.KCasts
import proofs.«167353_j44676249813412_2_alg».proof.Proof.StatsValue
import proofs.«167353_j44676249813412_2_alg».proof.Proof.ApplyValue
import proofs.«167353_j44676249813412_2_alg».proof.Proof.RefRead
import proofs.«167353_j44676249813412_2_alg».proof.Proof.CovBridge

set_option maxRecDepth 16384

open scoped BigOperators

noncomputable section

namespace Cert.Bridge

open Cert.KernelIdeal Cert.KernelIdeal.Gen Cert.KernelIdeal.KHost Cert.Spec Cert.Casts
open Idealize.ShloMosaic Idealize.ShloMosaic.TcCoe Idealize.SL.Sem Idealize.ShloMosaic.ValueIdx

/-! ## The host chain from the covariance to the whitening matrix is one function on both sides -/

theorem eye_eq : Cert.ReferenceIdeal.RefRun.eye = KHost.eye := rfl
theorem traceOf_eq (σ : FVec Ideal S32x32 .f32) : Cert.ReferenceIdeal.RefRun.traceOf σ = KHost.traceOf σ := rfl
theorem tinvOf_eq (σ : FVec Ideal S32x32 .f32) : Cert.ReferenceIdeal.RefRun.tinvOf σ = KHost.tinvOf σ := rfl
theorem sigmaN_eq (σ : FVec Ideal S32x32 .f32) : Cert.ReferenceIdeal.RefRun.sigmaN σ = KHost.sigmaN σ := rfl
theorem nsStep_eq (P σn : FVec Ideal S32x32 .f32) : Cert.ReferenceIdeal.RefRun.nsStep P σn = KHost.nsStep P σn := rfl
theorem wmOf_eq (σ : FVec Ideal S32x32 .f32) : Cert.ReferenceIdeal.RefRun.wmOf σ = KHost.wmOf σ := by
  unfold Cert.ReferenceIdeal.RefRun.wmOf KHost.wmOf
  rw [eye_eq, sigmaN_eq, tinvOf_eq]
  simp only [nsStep_eq]

/-! ## The input, the sums and the Gram matrix as the kernel's host finds them -/

/-- The input at sample n, channel ch, flattened pixel k. -/
def X (x : S64x256x56x56.Idx → EReal) (n : Fin 64) (ch : Fin 256) (k : Fin 3136) : EReal :=
  x (ix4 n ch (pixP k) (pixQ k))

variable (m : (ℓ : Loc nD τ sig) → Buf (Elt Ideal) ℓ) (ρ : Dev nD → PrngReg)

theorem x_entry (c : Dev nD) (n : Fin 64) (ch : Fin 256) (k : Fin 3136) :
    (V1 m ρ c main_v0 : S64x256x3136.Idx → EReal) (ix3 n ch k) = X (m ((c : Thread nD τ).loc main_arg0)) n ch k := by
  rw [V1_v0]
  exact flat_apply _ _ n ch k

theorem sums_entry (c : Dev nD) (g : Fin 32) (u : Fin 1) :
    (W2 m ρ c (Proc.devRef .tc main_v1_0) : S32x1.Idx → EReal) (ix2 g u)
      = ∑ t : Fin 32, ∑ k : Fin 3136, ∑ a : Fin 16, X (m ((c : Thread nD τ).loc main_arg0)) (tileN t a) (chan (tileJ t) g) k := by
  rw [W2_sum]
  refine (Cert.KernelIdeal.Stats.sum_arr (V1 m ρ) c g u).trans ?_
  congr 1; funext t; congr 1; funext k; congr 1; funext a
  exact x_entry m ρ c (tileN t a) (chan (tileJ t) g) k

theorem gram_entry (c : Dev nD) (g h : Fin 32) :
    (W2 m ρ c (Proc.devRef .tc main_v1_1) : S32x32.Idx → EReal) (ix2 g h)
      = ∑ t : Fin 32, ∑ a : Fin 16, ∑ k : Fin 3136,
          X (m ((c : Thread nD τ).loc main_arg0)) (tileN t a) (chan (tileJ t) g) k
            * X (m ((c : Thread nD τ).loc main_arg0)) (tileN t a) (chan (tileJ t) h) k := by
  rw [W2_gram]
  refine (Cert.KernelIdeal.Stats.gram_arr (V1 m ρ) c g h).trans ?_
  congr 1; funext t; congr 1; funext a; congr 1; funext k
  rw [x_entry, x_entry]

/-! ## The kernel's means and covariance in closed form -/

theorem mean_entry (c : Dev nD) (g : Fin 32) (u : Fin 1) :
    meanK (W2 m ρ c (Proc.devRef .tc main_v1_0)) (ix2 g u)
      = Ideal.div (∑ t : Fin 32, ∑ k : Fin 3136, ∑ a : Fin 16,
            X (m ((c : Thread nD τ).loc main_arg0)) (tileN t a) (chan (tileJ t) g) k) (Ideal.ofBits .f32 0x49C40000#32) := by
  rw [meanK_apply, sums_entry]

theorem sigma_entry (c : Dev nD) (g h : Fin 32) :
    sigmaK (W2 m ρ c (Proc.devRef .tc main_v1_0)) (W2 m ρ c (Proc.devRef .tc main_v1_1)) (ix2 g h)
      = (Ideal.div (∑ t : Fin 32, ∑ a : Fin 16, ∑ k : Fin 3136,
              X (m ((c : Thread nD τ).loc main_arg0)) (tileN t a) (chan (tileJ t) g) k
                * X (m ((c : Thread nD τ).loc main_arg0)) (tileN t a) (chan (tileJ t) h) k) (Ideal.ofBits .f32 0x49C40000#32)
          - ∑ _u : Fin 1,
              Ideal.div (∑ t : Fin 32, ∑ k : Fin 3136, ∑ a : Fin 16,
                  X (m ((c : Thread nD τ).loc main_arg0)) (tileN t a) (chan (tileJ t) g) k) (Ideal.ofBits .f32 0x49C40000#32)
            * Ideal.div (∑ t : Fin 32, ∑ k : Fin 3136, ∑ a : Fin 16,
                  X (m ((c : Thread nD τ).loc main_arg0)) (tileN t a) (chan (tileJ t) h) k) (Ideal.ofBits .f32 0x49C40000#32))
        + Ideal.ofBits .f32 0x3727C5AC#32 * KHost.eye (ix2 g h) := by
  rw [sigmaK_apply, gram_entry]
  congr 2
  refine Finset.sum_congr rfl fun u _ => ?_
  rw [mean_entry, mean_entry]

/-! ## The reference's stages over the same X -/

theorem xg_entry (x : S64x256x56x56.Idx → EReal) (g : Fin 32) (col : Fin 1605632) :
    Cert.ReferenceIdeal.RefRun.xg x (ix2 g col) = X x (colN col) (chan (colJ col) g) (colK col) :=
  Cert.ReferenceIdeal.RefRead.xg_apply x g col

/-- On real inputs the reference's covariance is the kernel's. -/
theorem sigma_eq (c : Dev nD) (hx : ∀ i, ∃ r : ℝ, m ((c : Thread nD τ).loc main_arg0) i = ((r : ℝ) : EReal)) :
    Cert.ReferenceIdeal.RefRun.sigmaR (m ((c : Thread nD τ).loc main_arg0))
      = sigmaK (W2 m ρ c (Proc.devRef .tc main_v1_0)) (W2 m ρ c (Proc.devRef .tc main_v1_1)) := by
  funext i
  obtain ⟨g, h, rfl⟩ : ∃ (g : Fin 32) (h : Fin 32), i = ix2 g h := ⟨i 0, i 1, eq_ix2 i⟩
  rw [Cert.ReferenceIdeal.RefRead.sigmaR_apply, sigma_entry, eye_eq]
  simp only [Cert.ReferenceIdeal.RefRead.xmR_apply, Cert.ReferenceIdeal.RefRead.meanR_apply, xg_entry]
  exact Cert.Cov.sigma_bridge (X (m ((c : Thread nD τ).loc main_arg0))) (fun n ch k => hx _) g h _

/-! ## The two results -/

/-- On real inputs the reference's result array is the array the kernel's run ends with. -/
theorem result_eq (c : Dev nD) (hx : ∀ i, ∃ r : ℝ, m ((c : Thread nD τ).loc main_arg0) i = ((r : ℝ) : EReal)) :
    Cert.ReferenceIdeal.RefRun.result (m ((c : Thread nD τ).loc main_arg0)) (m ((c : Thread nD τ).loc main_arg1))
        (m ((c : Thread nD τ).loc main_arg2))
      = W7 m ρ c (Proc.devRef .tc main_v76) := by
  funext i
  obtain ⟨n, ch, p, q, rfl⟩ : ∃ (n : Fin 64) (ch : Fin 256) (p : Fin 56) (q : Fin 56), i = ix4 n ch p q :=
    ⟨i 0, i 1, i 2, i 3, eq_ix4 i⟩
  unfold Cert.ReferenceIdeal.RefRun.result
  rw [Cert.ReferenceIdeal.RefRead.outOf_apply, sigma_eq m ρ c hx, wmOf_eq]
  rw [W7_out, unflat_apply, Cert.KernelIdeal.Apply.out_arr (V5 m ρ) c n ch (pix p q), V5_x, V5_mean, V5_wm, V5_w, V5_b]
  unfold Cert.KernelIdeal.Apply.outCell
  simp only [x_entry, regroup_apply, chan_chJ_chG, Cert.ReferenceIdeal.RefRead.xmR_apply,
    Cert.ReferenceIdeal.RefRead.meanR_apply, xg_entry, colN_colOf, colJ_colOf, colK_colOf,
    Cert.Cov.mean_bridge]
  congr 2
  refine Finset.sum_congr rfl fun h _ => ?_
  rw [x_entry, mean_entry]

end Cert.Bridge

end
-- ==== Proof.lean ====
/-
  The certificate's claims, assembled.

  The kernel computes a whitening normalisation of x[n, ch, p, q] in two passes over the data with a small host
  computation between: per-group sums and second moments, then means, covariance and the Newton-Schulz whitening
  matrix, then the matrix applied to the centred data with a per-channel scale and shift.  The reference does the
  same from the centred group view.  The three frame claims are the generated frame certificates (the reference's is
  its run with the result dropped).  The idealization rewrote nothing.  For the value claim the kernel's run ends
  with the result array at the fold of its seven segments, the reference's with its composed stages, and on finite
  inputs the two arrays are one (the covariance identity joins the raw-moment and the centred forms).
-/
import proofs.«167353_j44676249813412_2_alg».proof.Defs
import proofs.«167353_j44676249813412_2_alg».proof.Proof.Gen.Kernel
import proofs.«167353_j44676249813412_2_alg».proof.Proof.Gen.Kernel.Frame
import proofs.«167353_j44676249813412_2_alg».proof.Proof.Gen.KernelIdeal
import proofs.«167353_j44676249813412_2_alg».proof.Proof.Gen.KernelIdeal.Frame
import proofs.«167353_j44676249813412_2_alg».proof.Proof.Gen.ReferenceIdeal
import proofs.«167353_j44676249813412_2_alg».proof.Proof.Gen.Pre_finite_inputs
import proofs.«167353_j44676249813412_2_alg».proof.Proof.KRun
import proofs.«167353_j44676249813412_2_alg».proof.Proof.RefRun
import proofs.«167353_j44676249813412_2_alg».proof.Proof.Finite
import proofs.«167353_j44676249813412_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- From memories that agree on the arguments both programs end with the same result array: the kernel's run ends at
    the fold of its segments, the reference's at its composed stages, and under the precondition (every input a real
    number) the two are one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W7 m ρ c (Proc.devRef .tc Cert.KernelIdeal.main_v76),
    Cert.KernelIdeal.KRun.run_value (F := Ideal) m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2]
  exact Cert.Bridge.result_eq m ρ c
    (Cert.Finite.reals_of_pre (hF := Cert.Pre_finite_inputs.Gen.facts) _ _ _ (hpre c)).1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
